-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1024x32 : Shape := ⟨2, ![1024, 32]⟩
abbrev S32x1024 : Shape := ⟨2, ![32, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8x1024 : S_.BroadcastsInDim S8x1024 (![] : Fin 0 → Fin S8x1024.rank)
  reducesTo_S8x1024_S_d0_1 : S8x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S16x1024 : S_.BroadcastsInDim S16x1024 (![] : Fin 0 → Fin S16x1024.rank)
  reducesTo_S16x1024_S_d0_1 : S16x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S32x1024 : S_.BroadcastsInDim S32x1024 (![] : Fin 0 → Fin S32x1024.rank)
  reducesTo_S32x1024_S_d0_1 : S32x1024.ReducesTo [0, 1] S_

variable [Facts]

def fn_part4 {F : FTy → Type} [FloatOps F] (main_arg14 : FVec F S8x1024 .f32) (main_arg15 : FVec F S1024x16 .f32) (main_arg16 : FVec F S16x1024 .f32) (main_v63 : IVec S_ 1) (main_v67 : IVec S_ 1) : IVec S_ 1 :=
  let main_v68 : IVec S_ 1 := andi main_v63 main_v67
  let main_v69 : FVec F S8x1024 .f32 := Host.absf main_arg14
  let main_cst_26 : FVec F S_ .f32 := constant S_ .f32 0x7F800000#32
  let main_v70 : FVec F S8x1024 .f32 := broadcastInDim S8x1024 ![] bcast_S_S8x1024 main_cst_26
  let main_v71 : IVec S8x1024 1 := cmpf .olt main_v69 main_v70
  let main_c_27 : IVec S_ 1 := constantI S_ 1 1#1
  let main_v72 : IVec S_ 1 := (fun x v => Host.reduce IntOp.andi x v reducesTo_S8x1024_S_d0_1 h_S_) main_v71 main_c_27
  let main_v73 : IVec S_ 1 := andi main_v68 main_v72
  let main_v74 : FVec F S1024x16 .f32 := Host.absf main_arg15
  let main_cst_28 : FVec F S_ .f32 := constant S_ .f32 0x7F800000#32
  let main_v75 : FVec F S1024x16 .f32 := broadcastInDim S1024x16 ![] bcast_S_S1024x16 main_cst_28
  let main_v76 : IVec S1024x16 1 := cmpf .olt main_v74 main_v75
  let main_c_29 : IVec S_ 1 := constantI S_ 1 1#1
  let main_v77 : IVec S_ 1 := (fun x v => Host.reduce IntOp.andi x v reducesTo_S1024x16_S_d0_1 h_S_) main_v76 main_c_29
  let main_v78 : IVec S_ 1 := andi main_v73 main_v77
  let main_v79 : FVec F S16x1024 .f32 := Host.absf main_arg16
  let main_cst_30 : FVec F S_ .f32 := constant S_ .f32 0x7F800000#32
  let main_v80 : FVec F S16x1024 .f32 := broadcastInDim S16x1024 ![] bcast_S_S16x1024 main_cst_30
  let main_v81 : IVec S16x1024 1 := cmpf .olt main_v79 main_v80
  let main_c_31 : IVec S_ 1 := constantI S_ 1 1#1
  let main_v82 : IVec S_ 1 := (fun x v => Host.reduce IntOp.andi x v reducesTo_S16x1024_S_d0_1 h_S_) main_v81 main_c_31
  let main_v83 : IVec S_ 1 := andi main_v78 main_v82
  main_v83

def fn_part3 {F : FTy → Type} [FloatOps F] (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) (main_v48 : IVec S_ 1) (main_v49 : FVec F S16x1024 .f32) (main_v50 : FVec F S16x1024 .f32) : IVec S_ 1 :=
  let main_v51 : IVec S16x1024 1 := cmpf .olt main_v49 main_v50
  let main_c_19 : IVec S_ 1 := constantI S_ 1 1#1
  let main_v52 : IVec S_ 1 := (fun x v => Host.reduce IntOp.andi x v reducesTo_S16x1024_S_d0_1 h_S_) main_v51 main_c_19
  let main_v53 : IVec S_ 1 := andi main_v48 main_v52
  let main_v54 : FVec F S1024x32 .f32 := Host.absf main_arg11
  let main_cst_20 : FVec F S_ .f32 := constant S_ .f32 0x7F800000#32
  let main_v55 : FVec F S1024x32 .f32 := broadcastInDim S1024x32 ![] bcast_S_S1024x32 main_cst_20
  let main_v56 : IVec S1024x32 1 := cmpf .olt main_v54 main_v55
  let main_c_21 : IVec S_ 1 := constantI S_ 1 1#1
  let main_v57 : IVec S_ 1 := (fun x v => Host.reduce IntOp.andi x v reducesTo_S1024x32_S_d0_1 h_S_) main_v56 main_c_21
  let main_v58 : IVec S_ 1 := andi main_v53 main_v57
  let main_v59 : FVec F S32x1024 .f32 := Host.absf main_arg12
  let main_cst_22 : FVec F S_ .f32 := constant S_ .f32 0x7F800000#32
  let main_v60 : FVec F S32x1024 .f32 := broadcastInDim S32x1024 ![] bcast_S_S32x1024 main_cst_22
  let main_v61 : IVec S32x1024 1 := cmpf .olt main_v59 main_v60
  let main_c_23 : IVec S_ 1 := constantI S_ 1 1#1
  let main_v62 : IVec S_ 1 := (fun x v => Host.reduce IntOp.andi x v reducesTo_S32x1024_S_d0_1 h_S_) main_v61 main_c_23
  let main_v63 : IVec S_ 1 := andi main_v58 main_v62
  let main_v64 : FVec F S1024x8 .f32 := Host.absf main_arg13
  let main_cst_24 : FVec F S_ .f32 := constant S_ .f32 0x7F800000#32
  let main_v65 : FVec F S1024x8 .f32 := broadcastInDim S1024x8 ![] bcast_S_S1024x8 main_cst_24
  let main_v66 : IVec S1024x8 1 := cmpf .olt main_v64 main_v65
  let main_c_25 : IVec S_ 1 := constantI S_ 1 1#1
  let main_v67 : IVec S_ 1 := (fun x v => Host.reduce IntOp.andi x v reducesTo_S1024x8_S_d0_1 h_S_) main_v66 main_c_25
  fn_part4 (F := F) main_arg14 main_arg15 main_arg16 main_v63 main_v67

def fn_part2 {F : FTy → Type} [FloatOps F] (main_arg7 : FVec F S1024x8 .f32) (main_arg8 : FVec F S8x1024 .f32) (main_arg9 : FVec F S1024x16 .f32) (main_arg10 : FVec F S16x1024 .f32) (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  let main_v39 : FVec F S8x1024 .f32 := Host.absf main_arg8
  let main_cst_14 : FVec F S_ .f32 := constant S_ .f32 0x7F800000#32
  let main_v40 : FVec F S8x1024 .f32 := broadcastInDim S8x1024 ![] bcast_S_S8x1024 main_cst_14
  let main_v41 : IVec S8x1024 1 := cmpf .olt main_v39 main_v40
  let main_c_15 : IVec S_ 1 := constantI S_ 1 1#1
  let main_v42 : IVec S_ 1 := (fun x v => Host.reduce IntOp.andi x v reducesTo_S8x1024_S_d0_1 h_S_) main_v41 main_c_15
  let main_v43 : IVec S_ 1 := andi main_v38 main_v42
  let main_v44 : FVec F S1024x16 .f32 := Host.absf main_arg9
  let main_cst_16 : FVec F S_ .f32 := constant S_ .f32 0x7F800000#32
  let main_v45 : FVec F S1024x16 .f32 := broadcastInDim S1024x16 ![] bcast_S_S1024x16 main_cst_16
  let main_v46 : IVec S1024x16 1 := cmpf .olt main_v44 main_v45
  let main_c_17 : IVec S_ 1 := constantI S_ 1 1#1
  let main_v47 : IVec S_ 1 := (fun x v => Host.reduce IntOp.andi x v reducesTo_S1024x16_S_d0_1 h_S_) main_v46 main_c_17
  let main_v48 : IVec S_ 1 := andi main_v43 main_v47
  let main_v49 : FVec F S16x1024 .f32 := Host.absf main_arg10
  let main_cst_18 : FVec F S_ .f32 := constant S_ .f32 0x7F800000#32
  let main_v50 : FVec F S16x1024 .f32 := broadcastInDim S16x1024 ![] bcast_S_S16x1024 main_cst_18
  fn_part3 (F := F) main_arg11 main_arg12 main_arg13 main_arg14 main_arg15 main_arg16 main_v48 main_v49 main_v50

def fn_part1 {F : FTy → Type} [FloatOps F] (main_arg4 : FVec F S16x1024 .f32) (main_arg5 : FVec F S1024x32 .f32) (main_arg6 : FVec F S32x1024 .f32) (main_arg7 : FVec F S1024x8 .f32) (main_arg8 : FVec F S8x1024 .f32) (main_arg9 : FVec F S1024x16 .f32) (main_arg10 : FVec F S16x1024 .f32) (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024x32 .f32 := Host.absf main_arg5
  let main_cst_8 : FVec F S_ .f32 := constant S_ .f32 0x7F800000#32
  let main_v25 : FVec F S1024x32 .f32 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S16x2048x1024 .f32) (main_arg1 : FVec F S1024x8 .f32) (main_arg2 : FVec F S8x1024 .f32) (main_arg3 : FVec F S1024x16 .f32) (main_arg4 : FVec F S16x1024 .f32) (main_arg5 : FVec F S1024x32 .f32) (main_arg6 : FVec F S32x1024 .f32) (main_arg7 : FVec F S1024x8 .f32) (main_arg8 : FVec F S8x1024 .f32) (main_arg9 : FVec F S1024x16 .f32) (main_arg10 : FVec F S16x1024 .f32) (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S16x2048x1024 : Shape := ⟨3, ![16, 2048, 1024]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1024x32 : Shape := ⟨2, ![1024, 32]⟩
abbrev S32x1024 : Shape := ⟨2, ![32, 1024]⟩
abbrev S1x2048x1024 : Shape := ⟨3, ![1, 2048, 1024]⟩
abbrev S8x32x1024 : Shape := ⟨3, ![8, 32, 1024]⟩
abbrev S8x1024x32 : Shape := ⟨3, ![8, 1024, 32]⟩
abbrev S1x8x1024 : Shape := ⟨3, ![1, 8, 1024]⟩
abbrev S1x1024x8 : Shape := ⟨3, ![1, 1024, 8]⟩
abbrev S1x16x1024 : Shape := ⟨3, ![1, 16, 1024]⟩
abbrev S1x1024x16 : Shape := ⟨3, ![1, 1024, 16]⟩
abbrev S1x32x1024 : Shape := ⟨3, ![1, 32, 1024]⟩
abbrev S1x1024x32 : Shape := ⟨3, ![1, 1024, 32]⟩
abbrev S2048x1024 : Shape := ⟨2, ![2048, 1024]⟩
abbrev S2048x32 : Shape := ⟨2, ![2048, 32]⟩

abbrev nBuf : Space → Nat
  | .hbm => 18
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024x8, .f32⟩
  | .hbm, ⟨2, _⟩ => ⟨S8x1024, .f32⟩
  | .hbm, ⟨3, _⟩ => ⟨S1024x16, .f32⟩
  | .hbm, ⟨4, _⟩ => ⟨S16x1024, .f32⟩
  | .hbm, ⟨5, _⟩ => ⟨S1024x32, .f32⟩
  | .hbm, ⟨6, _⟩ => ⟨S32x1024, .f32⟩
  | .hbm, ⟨7, _⟩ => ⟨S1024x8, .f32⟩
  | .hbm, ⟨8, _⟩ => ⟨S8x1024, .f32⟩
  | .hbm, ⟨9, _⟩ => ⟨S1024x16, .f32⟩
  | .hbm, ⟨10, _⟩ => ⟨S16x1024, .f32⟩
  | .hbm, ⟨11, _⟩ => ⟨S1024x32, .f32⟩
  | .hbm, ⟨12, _⟩ => ⟨S32x1024, .f32⟩
  | .hbm, ⟨13, _⟩ => ⟨S1024x8, .f32⟩
  | .hbm, ⟨14, _⟩ => ⟨S8x1024, .f32⟩
  | .hbm, ⟨15, _⟩ => ⟨S1024x16, .f32⟩
  | .hbm, ⟨16, _⟩ => ⟨S16x1024, .f32⟩
  | .hbm, ⟨17, _⟩ => ⟨S16x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x8, .f32⟩
  | .local _ .vmem, ⟨3, _⟩ => ⟨S8x1024, .f32⟩
  | .local _ .vmem, ⟨4, _⟩ => ⟨S1024x16, .f32⟩
  | .local _ .vmem, ⟨5, _⟩ => ⟨S16x1024, .f32⟩
  | .local _ .vmem, ⟨6, _⟩ => ⟨S1024x32, .f32⟩
  | .local _ .vmem, ⟨7, _⟩ => ⟨S32x1024, .f32⟩
  | .local _ .vmem, ⟨8, _⟩ => ⟨S1024x8, .f32⟩
  | .local _ .vmem, ⟨9, _⟩ => ⟨S8x1024, .f32⟩
  | .local _ .vmem, ⟨10, _⟩ => ⟨S1024x16, .f32⟩
  | .local _ .vmem, ⟨11, _⟩ => ⟨S16x1024, .f32⟩
  | .local _ .vmem, ⟨12, _⟩ => ⟨S1024x32, .f32⟩
  | .local _ .vmem, ⟨13, _⟩ => ⟨S32x1024, .f32⟩
  | .local _ .vmem, ⟨14, _⟩ => ⟨S1024x8, .f32⟩
  | .local _ .vmem, ⟨15, _⟩ => ⟨S8x1024, .f32⟩
  | .local _ .vmem, ⟨16, _⟩ => ⟨S1024x16, .f32⟩
  | .local _ .vmem, ⟨17, _⟩ => ⟨S16x1024, .f32⟩
  | .local _ .vmem, ⟨18, _⟩ => ⟨S1x2048x1024, .f32⟩
  | .local _ .vmem, ⟨19, _⟩ => ⟨S1x2048x1024, .f32⟩
  | .local _ .vmem, ⟨20, _⟩ => ⟨S8x32x1024, .bf16⟩
  | .local _ .vmem, ⟨21, _⟩ => ⟨S8x1024x32, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16 : Index := Scalar.indexCast v12
  let c0_7 : Index := 0#32
  let c0_8 : Index := 0#32
  ![v16.toNat, 0, 0]
def k0_off2 (i : grid0.Coords) : Fin 3 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v21 : Index := Scalar.indexCast v12
  let c0_9 : Index := 0#32
  let c0_10 : Index := 0#32
  ![v21.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x2048x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  inb_S8x32x1024_S8x32x1024_0_0_0 : ∀ a, (![0, 0, 0] : Fin 3 → Nat) a + S8x32x1024.size a ≤ S8x32x1024.size a
  h_S8x32x1024 : 0 < S8x32x1024.numel
  shapeCasts_S8x32x1024_S8x32x1024 : S8x32x1024.ShapeCasts S8x32x1024
  packedbf16_S8x32x1024_S8x32x1024_0_0_0 : (Rect.unit (s := S8x32x1024) ![0, 0, 0] S8x32x1024.size inb_S8x32x1024_S8x32x1024_0_0_0).PackedRows (EltTy.packing .bf16)
  inb_S8x1024x32_S8x1024x32_0_0_0 : ∀ a, (![0, 0, 0] : Fin 3 → Nat) a + S8x1024x32.size a ≤ S8x1024x32.size a
  h_S8x1024x32 : 0 < S8x1024x32.numel
  shapeCasts_S8x1024x32_S8x1024x32 : S8x1024x32.ShapeCasts S8x1024x32
  packedbf16_S8x1024x32_S8x1024x32_0_0_0 : (Rect.unit (s := S8x1024x32) ![0, 0, 0] S8x1024x32.size inb_S8x1024x32_S8x1024x32_0_0_0).PackedRows (EltTy.packing .bf16)
  inb_S1024x8_S1024x8_0_0 : ∀ a, (![0, 0] : Fin 2 → Nat) a + S1024x8.size a ≤ S1024x8.size a
  h_S1024x8 : 0 < S1024x8.numel
  inb_S8x1024_S8x1024_0_0 : ∀ a, (![0, 0] : Fin 2 → Nat) a + S8x1024.size a ≤ S8x1024.size a
  h_S8x1024 : 0 < S8x1024.numel
  bitsLt_bf16_f32 : FTy.bits .bf16 < FTy.bits .f32
  inb_S8x32x1024_S1x8x1024_0_0_0 : ∀ a, (![0, 0, 0] : Fin 3 → Nat) a + S1x8x1024.size a ≤ S8x32x1024.size a
  h_S1x8x1024 : 0 < S1x8x1024.numel
  shapeCasts_S1x8x1024_S8x1024 : S1x8x1024.ShapeCasts S8x1024
  shapeCasts_S8x1024_S1x8x1024 : S8x1024.ShapeCasts S1x8x1024
  packedbf16_S8x32x1024_S1x8x1024_0_0_0 : (Rect.unit (s := S8x32x1024) ![0, 0, 0] S1x8x1024.size inb_S8x32x1024_S1x8x1024_0_0_0).PackedRows (EltTy.packing .bf16)
  inb_S8x1024x32_S1x1024x8_0_0_0 : ∀ a, (![0, 0, 0] : Fin 3 → Nat) a + S1x1024x8.size a ≤ S8x1024x32.size a
  h_S1x1024x8 : 0 < S1x1024x8.numel
  shapeCasts_S1x1024x8_S1024x8 : S1x1024x8.ShapeCasts S1024x8
  shapeCasts_S1024x8_S1x1024x8 : S1024x8.ShapeCasts S1x1024x8
  packedbf16_S8x1024x32_S1x1024x8_0_0_0 : (Rect.unit (s := S8x1024x32) ![0, 0, 0] S1x1024x8.size inb_S8x1024x32_S1x1024x8_0_0_0).PackedRows (EltTy.packing .bf16)
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  inb_S8x32x1024_S1x16x1024_1_0_0 : ∀ a, (![1, 0, 0] : Fin 3 → Nat) a + S1x16x1024.size a ≤ S8x32x1024.size a
  h_S1x16x1024 : 0 < S1x16x1024.numel
  shapeCasts_S1x16x1024_S16x1024 : S1x16x1024.ShapeCasts S16x1024
  shapeCasts_S16x1024_S1x16x1024 : S16x1024.ShapeCasts S1x16x1024
  packedbf16_S8x32x1024_S1x16x1024_1_0_0 : (Rect.unit (s := S8x32x1024) ![1, 0, 0] S1x16x1024.size inb_S8x32x1024_S1x16x1024_1_0_0).PackedRows (EltTy.packing .bf16)
  inb_S8x1024x32_S1x1024x16_1_0_0 : ∀ a, (![1, 0, 0] : Fin 3 → Nat) a + S1x1024x16.size a ≤ S8x1024x32.size a
  h_S1x1024x16 : 0 < S1x1024x16.numel
  shapeCasts_S1x1024x16_S1024x16 : S1x1024x16.ShapeCasts S1024x16
  shapeCasts_S1024x16_S1x1024x16 : S1024x16.ShapeCasts S1x1024x16
  packedbf16_S8x1024x32_S1x1024x16_1_0_0 : (Rect.unit (s := S8x1024x32) ![1, 0, 0] S1x1024x16.size inb_S8x1024x32_S1x1024x16_1_0_0).PackedRows (EltTy.packing .bf16)
  inb_S1024x32_S1024x32_0_0 : ∀ a, (![0, 0] : Fin 2 → Nat) a + S1024x32.size a ≤ S1024x32.size a
  h_S1024x32 : 0 < S1024x32.numel
  inb_S32x1024_S32x1024_0_0 : ∀ a, (![0, 0] : Fin 2 → Nat) a + S32x1024.size a ≤ S32x1024.size a
  h_S32x1024 : 0 < S32x1024.numel
  inb_S8x32x1024_S1x32x1024_2_0_0 : ∀ a, (![2, 0, 0] : Fin 3 → Nat) a + S1x32x1024.size a ≤ S8x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  packedbf16_S8x32x1024_S1x32x1024_2_0_0 : (Rect.unit (s := S8x32x1024) ![2, 0, 0] S1x32x1024.size inb_S8x32x1024_S1x32x1024_2_0_0).PackedRows (EltTy.packing .bf16)
  inb_S8x1024x32_S1x1024x32_2_0_0 : ∀ a, (![2, 0, 0] : Fin 3 → Nat) a + S1x1024x32.size a ≤ S8x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  packedbf16_S8x1024x32_S1x1024x32_2_0_0 : (Rect.unit (s := S8x1024x32) ![2, 0, 0] S1x1024x32.size inb_S8x1024x32_S1x1024x32_2_0_0).PackedRows (EltTy.packing .bf16)
  inb_S8x32x1024_S1x8x1024_3_0_0 : ∀ a, (![3, 0, 0] : Fin 3 → Nat) a + S1x8x1024.size a ≤ S8x32x1024.size a
  packedbf16_S8x32x1024_S1x8x1024_3_0_0 : (Rect.unit (s := S8x32x1024) ![3, 0, 0] S1x8x1024.size inb_S8x32x1024_S1x8x1024_3_0_0).PackedRows (EltTy.packing .bf16)
  inb_S8x1024x32_S1x1024x8_3_0_0 : ∀ a, (![3, 0, 0] : Fin 3 → Nat) a + S1x1024x8.size a ≤ S8x1024x32.size a
  packedbf16_S8x1024x32_S1x1024x8_3_0_0 : (Rect.unit (s := S8x1024x32) ![3, 0, 0] S1x1024x8.size inb_S8x1024x32_S1x1024x8_3_0_0).PackedRows (EltTy.packing .bf16)
  inb_S8x32x1024_S1x16x1024_4_0_0 : ∀ a, (![4, 0, 0] : Fin 3 → Nat) a + S1x16x1024.size a ≤ S8x32x1024.size a
  packedbf16_S8x32x1024_S1x16x1024_4_0_0 : (Rect.unit (s := S8x32x1024) ![4, 0, 0] S1x16x1024.size inb_S8x32x1024_S1x16x1024_4_0_0).PackedRows (EltTy.packing .bf16)
  inb_S8x1024x32_S1x1024x16_4_0_0 : ∀ a, (![4, 0, 0] : Fin 3 → Nat) a + S1x1024x16.size a ≤ S8x1024x32.size a
  packedbf16_S8x1024x32_S1x1024x16_4_0_0 : (Rect.unit (s := S8x1024x32) ![4, 0, 0] S1x1024x16.size inb_S8x1024x32_S1x1024x16_4_0_0).PackedRows (EltTy.packing .bf16)
  inb_S8x32x1024_S1x32x1024_5_0_0 : ∀ a, (![5, 0, 0] : Fin 3 → Nat) a + S1x32x1024.size a ≤ S8x32x1024.size a
  packedbf16_S8x32x1024_S1x32x1024_5_0_0 : (Rect.unit (s := S8x32x1024) ![5, 0, 0] S1x32x1024.size inb_S8x32x1024_S1x32x1024_5_0_0).PackedRows (EltTy.packing .bf16)
  inb_S8x1024x32_S1x1024x32_5_0_0 : ∀ a, (![5, 0, 0] : Fin 3 → Nat) a + S1x1024x32.size a ≤ S8x1024x32.size a
  packedbf16_S8x1024x32_S1x1024x32_5_0_0 : (Rect.unit (s := S8x1024x32) ![5, 0, 0] S1x1024x32.size inb_S8x1024x32_S1x1024x32_5_0_0).PackedRows (EltTy.packing .bf16)
  inb_S8x32x1024_S1x8x1024_6_0_0 : ∀ a, (![6, 0, 0] : Fin 3 → Nat) a + S1x8x1024.size a ≤ S8x32x1024.size a
  packedbf16_S8x32x1024_S1x8x1024_6_0_0 : (Rect.unit (s := S8x32x1024) ![6, 0, 0] S1x8x1024.size inb_S8x32x1024_S1x8x1024_6_0_0).PackedRows (EltTy.packing .bf16)
  inb_S8x1024x32_S1x1024x8_6_0_0 : ∀ a, (![6, 0, 0] : Fin 3 → Nat) a + S1x1024x8.size a ≤ S8x1024x32.size a
  packedbf16_S8x1024x32_S1x1024x8_6_0_0 : (Rect.unit (s := S8x1024x32) ![6, 0, 0] S1x1024x8.size inb_S8x1024x32_S1x1024x8_6_0_0).PackedRows (EltTy.packing .bf16)
  inb_S8x32x1024_S1x16x1024_7_0_0 : ∀ a, (![7, 0, 0] : Fin 3 → Nat) a + S1x16x1024.size a ≤ S8x32x1024.size a
  packedbf16_S8x32x1024_S1x16x1024_7_0_0 : (Rect.unit (s := S8x32x1024) ![7, 0, 0] S1x16x1024.size inb_S8x32x1024_S1x16x1024_7_0_0).PackedRows (EltTy.packing .bf16)
  inb_S8x1024x32_S1x1024x16_7_0_0 : ∀ a, (![7, 0, 0] : Fin 3 → Nat) a + S1x1024x16.size a ≤ S8x1024x32.size a
  packedbf16_S8x1024x32_S1x1024x16_7_0_0 : (Rect.unit (s := S8x1024x32) ![7, 0, 0] S1x1024x16.size inb_S8x1024x32_S1x1024x16_7_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x1024_S32x1024_S2048x32_1_1_0_0_n_n_wf : DotDims.WF S2048x1024 S32x1024 S2048x32 [1] [1] [0] [0] [] []
  dot_S2048x32_S1024x32_S2048x1024_1_1_0_0_n_n_wf : DotDims.WF S2048x32 S1024x32 S2048x1024 [1] [1] [0] [0] [] []
  hrank0 : 0 < grid0.rank
  k0_off1_inb : ∀ i : grid0.Coords, ∀ a, (k0_off1 i) a + S1x32x1024.size a ≤ S8x32x1024.size a
  k0_off2_inb : ∀ i : grid0.Coords, ∀ a, (k0_off2 i) a + S1x1024x32.size a ≤ S8x1024x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .f32 = 32 ∨ (Rect.block (s := S1024x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .f32 = 32 ∨ (Rect.block (s := S1024x16) S1024x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S1024x32.size a
  hwx0_5 : ∀ i : grid0.Coords, EltTy.bits .f32 = 32 ∨ (Rect.block (s := S1024x32) S1024x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x1024.size a
  hwx0_6 : ∀ i : grid0.Coords, EltTy.bits .f32 = 32 ∨ (Rect.block (s := S32x1024) S32x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x8.size a ≤ S1024x8.size a
  hwx0_7 : ∀ i : grid0.Coords, EltTy.bits .f32 = 32 ∨ (Rect.block (s := S1024x8) S1024x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1024.size a ≤ S8x1024.size a
  hwx0_8 : ∀ i : grid0.Coords, EltTy.bits .f32 = 32 ∨ (Rect.block (s := S8x1024) S8x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x16.size a ≤ S1024x16.size a
  hwx0_9 : ∀ i : grid0.Coords, EltTy.bits .f32 = 32 ∨ (Rect.block (s := S1024x16) S1024x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1024.size a ≤ S16x1024.size a
  hwx0_10 : ∀ i : grid0.Coords, EltTy.bits .f32 = 32 ∨ (Rect.block (s := S16x1024) S16x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x32.size a ≤ S1024x32.size a
  hwx0_11 : ∀ i : grid0.Coords, EltTy.bits .f32 = 32 ∨ (Rect.block (s := S1024x32) S1024x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1024.size a ≤ S32x1024.size a
  hwx0_12 : ∀ i : grid0.Coords, EltTy.bits .f32 = 32 ∨ (Rect.block (s := S32x1024) S32x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x8.size a ≤ S1024x8.size a
  hwx0_13 : ∀ i : grid0.Coords, EltTy.bits .f32 = 32 ∨ (Rect.block (s := S1024x8) S1024x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x1024.size a ≤ S8x1024.size a
  hwx0_14 : ∀ i : grid0.Coords, EltTy.bits .f32 = 32 ∨ (Rect.block (s := S8x1024) S8x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x16.size a ≤ S1024x16.size a
  hwx0_15 : ∀ i : grid0.Coords, EltTy.bits .f32 = 32 ∨ (Rect.block (s := S1024x16) S1024x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16x1024.size a ≤ S16x1024.size a
  hwx0_16 : ∀ i : grid0.Coords, EltTy.bits .f32 = 32 ∨ (Rect.block (s := S16x1024) S16x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x2048x1024.size a ≤ S16x2048x1024.size a
  hwx0_17 : ∀ i : grid0.Coords, EltTy.bits .f32 = 32 ∨ (Rect.block (s := S16x2048x1024) S1x2048x1024.size (cc0_transform_17 i) (hinb0_17 i)).WholeWords (EltTy.packing .f32)

variable [Facts₀]

def dot_S2048x1024_S32x1024_S2048x32_1_1_0_0_n_n : DotDims S2048x1024 S32x1024 S2048x32 where
  lhsContracting := [1]
  rhsContracting := [1]
  lhsNonContracting := [0]
  rhsNonContracting := [0]
  lhsBatch := []
  rhsBatch := []
  wf := dot_S2048x1024_S32x1024_S2048x32_1_1_0_0_n_n_wf
def dot_S2048x32_S1024x32_S2048x1024_1_1_0_0_n_n : DotDims S2048x32 S1024x32 S2048x1024 where
  lhsContracting := [1]
  rhsContracting := [1]
  lhsNonContracting := [0]
  rhsNonContracting := [0]
  lhsBatch := []
  rhsBatch := []
  wf := dot_S2048x32_S1024x32_S2048x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1024x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S8x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1024x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S16x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S1x2048x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1024x32 : Shape := ⟨2, ![1024, 32]⟩
abbrev S32x1024 : Shape := ⟨2, ![32, 1024]⟩
abbrev S16 : Shape := ⟨1, ![16]⟩
abbrev S_ : Shape := ⟨0, ![]⟩
abbrev S16x2048x8 : Shape := ⟨3, ![16, 2048, 8]⟩
abbrev S16x1x1 : Shape := ⟨3, ![16, 1, 1]⟩
abbrev S16x2048x16 : Shape := ⟨3, ![16, 2048, 16]⟩
abbrev S16x2048x32 : Shape := ⟨3, ![16, 2048, 32]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x8, .f32⟩
  | .hbm, ⟨2, _⟩ => ⟨S8x1024, .f32⟩
  | .hbm, ⟨3, _⟩ => ⟨S1024x16, .f32⟩
  | .hbm, ⟨4, _⟩ => ⟨S16x1024, .f32⟩
  | .hbm, ⟨5, _⟩ => ⟨S1024x32, .f32⟩
  | .hbm, ⟨6, _⟩ => ⟨S32x1024, .f32⟩
  | .hbm, ⟨7, _⟩ => ⟨S1024x8, .f32⟩
  | .hbm, ⟨8, _⟩ => ⟨S8x1024, .f32⟩
  | .hbm, ⟨9, _⟩ => ⟨S1024x16, .f32⟩
  | .hbm, ⟨10, _⟩ => ⟨S16x1024, .f32⟩
  | .hbm, ⟨11, _⟩ => ⟨S1024x32, .f32⟩
  | .hbm, ⟨12, _⟩ => ⟨S32x1024, .f32⟩
  | .hbm, ⟨13, _⟩ => ⟨S1024x8, .f32⟩
  | .hbm, ⟨14, _⟩ => ⟨S8x1024, .f32⟩
  | .hbm, ⟨15, _⟩ => ⟨S1024x16, .f32⟩
  | .hbm, ⟨16, _⟩ => ⟨S16x1024, .f32⟩
  | .hbm, ⟨17, _⟩ => ⟨S16, .i32⟩
  | .hbm, ⟨18, _⟩ => ⟨S_, .f32⟩
  | .hbm, ⟨19, _⟩ => ⟨S16x2048x1024, .f32⟩
  | .hbm, ⟨20, _⟩ => ⟨S16x2048x8, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S16x1x1, .i1⟩
  | .hbm, ⟨29, _⟩ => ⟨S16x2048x1024, .i1⟩
  | .hbm, ⟨30, _⟩ => ⟨S16x2048x1024, .f32⟩
  | .hbm, ⟨31, _⟩ => ⟨S16x2048x16, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16x1x1, .i1⟩
  | .hbm, ⟨40, _⟩ => ⟨S16x2048x1024, .i1⟩
  | .hbm, ⟨41, _⟩ => ⟨S16x2048x1024, .f32⟩
  | .hbm, ⟨42, _⟩ => ⟨S16x2048x32, .f32⟩
  | .hbm, ⟨43, _⟩ => ⟨S16x2048x1024, .f32⟩
  | .hbm, ⟨44, _⟩ => ⟨S_, .f32⟩
  | .hbm, ⟨45, _⟩ => ⟨S16x2048x1024, .f32⟩
  | .hbm, ⟨46, _⟩ => ⟨S16x2048x1024, .f32⟩
  | .hbm, ⟨47, _⟩ => ⟨S_, .i32⟩
  | .hbm, ⟨48, _⟩ => ⟨S16, .i32⟩
  | .hbm, ⟨49, _⟩ => ⟨S16, .i1⟩
  | .hbm, ⟨50, _⟩ => ⟨S16x1x1, .i1⟩
  | .hbm, ⟨51, _⟩ => ⟨S16x2048x1024, .i1⟩
  | .hbm, ⟨52, _⟩ => ⟨S16x2048x1024, .f32⟩
  | .hbm, ⟨53, _⟩ => ⟨S16x2048x8, .f32⟩
  | .hbm, ⟨54, _⟩ => ⟨S16x2048x1024, .f32⟩
  | .hbm, ⟨55, _⟩ => ⟨S_, .f32⟩
  | .hbm, ⟨56, _⟩ => ⟨S16x2048x1024, .f32⟩
  | .hbm, ⟨57, _⟩ => ⟨S16x2048x1024, .f32⟩
  | .hbm, ⟨58, _⟩ => ⟨S_, .i32⟩
  | .hbm, ⟨59, _⟩ => ⟨S16, .i32⟩
  | .hbm, ⟨60, _⟩ => ⟨S16, .i1⟩
  | .hbm, ⟨61, _⟩ => ⟨S16x1x1, .i1⟩
  | .hbm, ⟨62, _⟩ => ⟨S16x2048x1024, .i1⟩
  | .hbm, ⟨63, _⟩ => ⟨S16x2048x1024, .f32⟩
  | .hbm, ⟨64, _⟩ => ⟨S16x2048x16, .f32⟩
  | .hbm, ⟨65, _⟩ => ⟨S16x2048x1024, .f32⟩
  | .hbm, ⟨66, _⟩ => ⟨S_, .f32⟩
  | .hbm, ⟨67, _⟩ => ⟨S16x2048x1024, .f32⟩
  | .hbm, ⟨68, _⟩ => ⟨S16x2048x1024, .f32⟩
  | .hbm, ⟨69, _⟩ => ⟨S_, .i32⟩
  | .hbm, ⟨70, _⟩ => ⟨S16, .i32⟩
  | .hbm, ⟨71, _⟩ => ⟨S16, .i1⟩
  | .hbm, ⟨72, _⟩ => ⟨S16x1x1, .i1⟩
  | .hbm, ⟨73, _⟩ => ⟨S16x2048x1024, .i1⟩
  | .hbm, ⟨74, _⟩ => ⟨S16x2048x1024, .f32⟩
  | .hbm, ⟨75, _⟩ => ⟨S16x2048x32, .f32⟩
  | .hbm, ⟨76, _⟩ => ⟨S16x2048x1024, .f32⟩
  | .hbm, ⟨77, _⟩ => ⟨S_, .f32⟩
  | .hbm, ⟨78, _⟩ => ⟨S16x2048x1024, .f32⟩
  | .hbm, ⟨79, _⟩ => ⟨S16x2048x1024, .f32⟩
  | .hbm, ⟨80, _⟩ => ⟨S_, .i32⟩
  | .hbm, ⟨81, _⟩ => ⟨S16, .i32⟩
  | .hbm, ⟨82, _⟩ => ⟨S16, .i1⟩
  | .hbm, ⟨83, _⟩ => ⟨S16x1x1, .i1⟩
  | .hbm, ⟨84, _⟩ => ⟨S16x2048x1024, .i1⟩
  | .hbm, ⟨85, _⟩ => ⟨S16x2048x1024, .f32⟩
  | .hbm, ⟨86, _⟩ => ⟨S16x2048x8, .f32⟩
  | .hbm, ⟨87, _⟩ => ⟨S16x2048x1024, .f32⟩
  | .hbm, ⟨88, _⟩ => ⟨S_, .f32⟩
  | .hbm, ⟨89, _⟩ => ⟨S16x2048x1024, .f32⟩
  | .hbm, ⟨90, _⟩ => ⟨S16x2048x1024, .f32⟩
  | .hbm, ⟨91, _⟩ => ⟨S_, .i32⟩
  | .hbm, ⟨92, _⟩ => ⟨S16, .i32⟩
  | .hbm, ⟨93, _⟩ => ⟨S16, .i1⟩
  | .hbm, ⟨94, _⟩ => ⟨S16x1x1, .i1⟩
  | .hbm, ⟨95, _⟩ => ⟨S16x2048x1024, .i1⟩
  | .hbm, ⟨96, _⟩ => ⟨S16x2048x1024, .f32⟩
  | .hbm, ⟨97, _⟩ => ⟨S16x2048x16, .f32⟩
  | .hbm, ⟨98, _⟩ => ⟨S16x2048x1024, .f32⟩
  | .hbm, ⟨99, _⟩ => ⟨S_, .f32⟩
  | .hbm, ⟨100, _⟩ => ⟨S16x2048x1024, .f32⟩
  | .hbm, ⟨101, _⟩ => ⟨S16x2048x1024, .f32⟩
  | .hbm, ⟨102, _⟩ => ⟨S_, .i32⟩
  | .hbm, ⟨103, _⟩ => ⟨S16, .i32⟩
  | .hbm, ⟨104, _⟩ => ⟨S16, .i1⟩
  | .hbm, ⟨105, _⟩ => ⟨S16x1x1, .i1⟩
  | .hbm, ⟨106, _⟩ => ⟨S16x2048x1024, .i1⟩
  | .hbm, ⟨107, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call1_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call3_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call4_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call5_v0 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_12 : Ref sig .tc := ⟨.hbm, 88, rfl⟩
abbrev main_v51 : Ref sig .tc := ⟨.hbm, 89, rfl⟩
abbrev main_v52 : Ref sig .tc := ⟨.hbm, 90, rfl⟩
abbrev main_c_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call6_v0 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_14 : Ref sig .tc := ⟨.hbm, 99, rfl⟩
abbrev main_v59 : Ref sig .tc := ⟨.hbm, 100, rfl⟩
abbrev main_v60 : Ref sig .tc := ⟨.hbm, 101, rfl⟩
abbrev main_c_15 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call7_v0 : Ref sig .tc := ⟨.hbm, 106, rfl⟩
abbrev main_v64 : Ref sig .tc := ⟨.hbm, 107, rfl⟩

abbrev nD : Nat := 1
abbrev τ : Topo := Topo.v7x

variable {F : FTy → Type} [FloatOps F]

class Facts₀ : Prop where
  bcast_S_S16x2048x1024 : S_.BroadcastsInDim S16x2048x1024 (![] : Fin 0 → Fin S16x2048x1024.rank)
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x2048x1024_0_1_2 : S16x1x1.BroadcastsInDim S16x2048x1024 (![0, 1, 2] : Fin 3 → Fin S16x2048x1024.rank)
  dot_S16x2048x1024_S8x1024_S16x2048x8_2_1_01_0_n_n_wf : DotDims.WF S16x2048x1024 S8x1024 S16x2048x8 [2] [1] [0, 1] [0] [] []
  dot_S16x2048x8_S1024x8_S16x2048x1024_2_1_01_0_n_n_wf : DotDims.WF S16x2048x8 S1024x8 S16x2048x1024 [2] [1] [0, 1] [0] [] []
  dot_S16x2048x1024_S16x1024_S16x2048x16_2_1_01_0_n_n_wf : DotDims.WF S16x2048x1024 S16x1024 S16x2048x16 [2] [1] [0, 1] [0] [] []
  dot_S16x2048x16_S1024x16_S16x2048x1024_2_1_01_0_n_n_wf : DotDims.WF S16x2048x16 S1024x16 S16x2048x1024 [2] [1] [0, 1] [0] [] []
  dot_S16x2048x1024_S32x1024_S16x2048x32_2_1_01_0_n_n_wf : DotDims.WF S16x2048x1024 S32x1024 S16x2048x32 [2] [1] [0, 1] [0] [] []
  dot_S16x2048x32_S1024x32_S16x2048x1024_2_1_01_0_n_n_wf : DotDims.WF S16x2048x32 S1024x32 S16x2048x1024 [2] [1] [0, 1] [0] [] []

variable [Facts₀]

def dot_S16x2048x1024_S8x1024_S16x2048x8_2_1_01_0_n_n : DotDims S16x2048x1024 S8x1024 S16x2048x8 where
  lhsContracting := [2]
  rhsContracting := [1]
  lhsNonContracting := [0, 1]
  rhsNonContracting := [0]
  lhsBatch := []
  rhsBatch := []
  wf := dot_S16x2048x1024_S8x1024_S16x2048x8_2_1_01_0_n_n_wf
def dot_S16x2048x8_S1024x8_S16x2048x1024_2_1_01_0_n_n : DotDims S16x2048x8 S1024x8 S16x2048x1024 where
  lhsContracting := [2]
  rhsContracting := [1]
  lhsNonContracting := [0, 1]
  rhsNonContracting := [0]
  lhsBatch := []
  rhsBatch := []
  wf := dot_S16x2048x8_S1024x8_S16x2048x1024_2_1_01_0_n_n_wf
def dot_S16x2048x1024_S16x1024_S16x2048x16_2_1_01_0_n_n : DotDims S16x2048x1024 S16x1024 S16x2048x16 where
  lhsContracting := [2]
  rhsContracting := [1]
  lhsNonContracting := [0, 1]
  rhsNonContracting := [0]
  lhsBatch := []
  rhsBatch := []
  wf := dot_S16x2048x1024_S16x1024_S16x2048x16_2_1_01_0_n_n_wf
def dot_S16x2048x16_S1024x16_S16x2048x1024_2_1_01_0_n_n : DotDims S16x2048x16 S1024x16 S16x2048x1024 where
  lhsContracting := [2]
  rhsContracting := [1]
  lhsNonContracting := [0, 1]
  rhsNonContracting := [0]
  lhsBatch := []
  rhsBatch := []
  wf := dot_S16x2048x16_S1024x16_S16x2048x1024_2_1_01_0_n_n_wf
def dot_S16x2048x1024_S32x1024_S16x2048x32_2_1_01_0_n_n : DotDims S16x2048x1024 S32x1024 S16x2048x32 where
  lhsContracting := [2]
  rhsContracting := [1]
  lhsNonContracting := [0, 1]
  rhsNonContracting := [0]
  lhsBatch := []
  rhsBatch := []
  wf := dot_S16x2048x1024_S32x1024_S16x2048x32_2_1_01_0_n_n_wf
def dot_S16x2048x32_S1024x32_S16x2048x1024_2_1_01_0_n_n : DotDims S16x2048x32 S1024x32 S16x2048x1024 where
  lhsContracting := [2]
  rhsContracting := [1]
  lhsNonContracting := [0, 1]
  rhsNonContracting := [0]
  lhsBatch := []
  rhsBatch := []
  wf := dot_S16x2048x32_S1024x32_S16x2048x1024_2_1_01_0_n_n_wf

class Facts : Prop extends Facts₀ where

variable [Facts]
-- ==== Proof.KbShared.lean ====
/-
  What the two cases of the kernel body share.

  The body runs in one of two cases, told apart by the grid coordinate alone: at the first grid point it first
  fills its two scratch stacks (every adapter's down-projection, zero-padded to 32 rows, and every adapter's scaled
  up-projection, zero-padded to 32 columns) and then computes; at every later point it only computes, reading
  the stacks the first point left.  Here: the condition in closed form, the staging memrefs as the pipeline passes
  them, the two scratch stacks as memrefs, and the region invariant with the stacks owned at some contents.
-/
import proofs.«174516_g44933947850968_cont_8to1_c_774_16_alg».proof.Proof.Gen.Kernel.Frame
import proofs.«174516_g44933947850968_cont_8to1_c_774_16_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition ("this is grid point 0"), from the grid coordinate. -/
abbrev cond0 (i : grid0.Coords) : Prop :=
  (Scalar.cmpi .ne (Scalar.extui (Scalar.cmpi .eq (BitVec.ofNat 32 (i 0).val) 0#32)) 0#32) = 1#1

/-- It holds exactly at the first point — decided over the sixteen points. -/
theorem hcond0 : ∀ t : Fin cfg0.N, cond0 (grid0.coords t) ↔ t.val = 0 :=
  (by decide +kernel : ∀ t : Fin grid0.N, cond0 (grid0.coords t) ↔ t.val = 0)

/-- The first grid point is in the filling case. -/
theorem hc_first : cond0 (grid0.coords t0_0) := (hcond0 t0_0).mpr rfl

/-- At the first grid point both stack reads are of slab 0: the point's index mod 8, as the body computes it. -/
instance : ClosedOff (k0_off1 (grid0.coords t0_0)) := ⟨![0, 0, 0], by decide +kernel⟩
instance : ClosedOff (k0_off2 (grid0.coords t0_0)) := ⟨![0, 0, 0], by decide +kernel⟩

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x8 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x8 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S8x1024 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1024x16 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S16x1024 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x2048x1024 .f32 := win0_17.stage (cfg0.slots t 17)
abbrev hs17 (t : Fin cfg0.N) : (ms17 t).IsWhole := hstage0_17 ((cfg0.slots t 17).cast nbuf0_17)

/-- The stack of down-projections, [8, 32, 1024], a scratch buffer of the kernel's own. -/
abbrev scM0 : Memref sig .tc .vmem S8x32x1024 .bf16 := Memref.whole cc0_scratch0
/-- The stack of scaled up-projections, [8, 1024, 32], a scratch buffer of the kernel's own. -/
abbrev scM1 : Memref sig .tc .vmem S8x1024x32 .bf16 := Memref.whole cc0_scratch1

/-- The class invariant with the two stacks as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
theorem live14 : ∀ t : Fin cfg0.N, cfg0.idle 14 (grid0.coords t) = false := by decide +kernel
theorem live15 : ∀ t : Fin cfg0.N, cfg0.idle 15 (grid0.coords t) = false := by decide +kernel
theorem live16 : ∀ t : Fin cfg0.N, cfg0.idle 16 (grid0.coords t) = false := by decide +kernel
theorem live17 : ∀ t : Fin cfg0.N, cfg0.idle 17 (grid0.coords t) = false := by decide +kernel

end Cert.Kernel.Body

end
-- ==== Proof.KbRunA.lean ====
/-
  The kernel body at the FIRST grid point, run whole.

  Given the seventeen input blocks in their staging buffers, the output's staging buffer and the two scratch stacks
  at ANY contents, the body terminates; it leaves the inputs as they were, and every buffer it stored into holding
  a known list of written pieces: the down-projection stack (zeros everywhere, then adapter a's rows in slab a),
  the up-projection stack (zeros, then adapter a's scaled columns in slab a), and the output block (the two
  contractions of this point's x block with the slabs of adapter 0).  The loads that precede each
  packed store read whatever was there; nothing depends on them.
-/
import proofs.«174516_g44933947850968_cont_8to1_c_774_16_alg».proof.Proof.KbShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunA (c : Dev nD) (arg1 : Memref sig .tc .vmem S1x2048x1024 .f32) (harg1 : arg1.IsWhole) (arg2 : Memref sig .tc .vmem S1024x8 .f32) (harg2 : arg2.IsWhole) (arg3 : Memref sig .tc .vmem S8x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x32 .f32) (harg6 : arg6.IsWhole) (arg7 : Memref sig .tc .vmem S32x1024 .f32) (harg7 : arg7.IsWhole) (arg8 : Memref sig .tc .vmem S1024x8 .f32) (harg8 : arg8.IsWhole) (arg9 : Memref sig .tc .vmem S8x1024 .f32) (harg9 : arg9.IsWhole) (arg10 : Memref sig .tc .vmem S1024x16 .f32) (harg10 : arg10.IsWhole) (arg11 : Memref sig .tc .vmem S16x1024 .f32) (harg11 : arg11.IsWhole) (arg12 : Memref sig .tc .vmem S1024x32 .f32) (harg12 : arg12.IsWhole) (arg13 : Memref sig .tc .vmem S32x1024 .f32) (harg13 : arg13.IsWhole) (arg14 : Memref sig .tc .vmem S1024x8 .f32) (harg14 : arg14.IsWhole) (arg15 : Memref sig .tc .vmem S8x1024 .f32) (harg15 : arg15.IsWhole) (arg16 : Memref sig .tc .vmem S1024x16 .f32) (harg16 : arg16.IsWhole) (arg17 : Memref sig .tc .vmem S16x1024 .f32) (harg17 : arg17.IsWhole) (arg18 : Memref sig .tc .vmem S1x2048x1024 .f32) (harg18 : arg18.IsWhole) (arg19 : Memref sig .tc .vmem S8x32x1024 .bf16) (harg19 : arg19.IsWhole) (arg20 : Memref sig .tc .vmem S8x1024x32 .bf16) (harg20 : arg20.IsWhole)
    (x0 : Vec F S1x2048x1024 .f32) (x1 : Vec F S1024x8 .f32) (x2 : Vec F S8x1024 .f32) (x3 : Vec F S1024x16 .f32) (x4 : Vec F S16x1024 .f32) (x5 : Vec F S1024x32 .f32) (x6 : Vec F S32x1024 .f32) (x7 : Vec F S1024x8 .f32) (x8 : Vec F S8x1024 .f32) (x9 : Vec F S1024x16 .f32) (x10 : Vec F S16x1024 .f32) (x11 : Vec F S1024x32 .f32) (x12 : Vec F S32x1024 .f32) (x13 : Vec F S1024x8 .f32) (x14 : Vec F S8x1024 .f32) (x15 : Vec F S1024x16 .f32) (x16 : Vec F S16x1024 .f32) :
    Σ' (L17 : List (View.Piece (Elt F) S1x2048x1024 .f32)) (LS0 : List (View.Piece (Elt F) S8x32x1024 .bf16)), { LS1 : List (View.Piece (Elt F) S8x1024x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0__lora_kernel (grid0.coords t0_0) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__lora_kernel_eq_skeleton]; unfold cc0__lora_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | exact hc_first)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; iexact H17
    isplitl [HS0]
    · iexists _; iexact HS0
    iexists _; iexact HS1

end Cert.Kernel.Body

end
-- ==== Proof.KbRunB.lean ====
/-
  The kernel body at a LATER grid point, run whole.

  Given the seventeen input blocks in their staging buffers, the output's staging buffer at any contents and the
  two scratch stacks at the contents xs0, xs1 the earlier points left, the body terminates; it leaves the inputs
  and both stacks as they were and the output block holding one written piece: the two contractions of this
  point's x block with slab (point mod 8) of each stack.
-/
import proofs.«174516_g44933947850968_cont_8to1_c_774_16_alg».proof.Proof.KbShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg1 : Memref sig .tc .vmem S1x2048x1024 .f32) (harg1 : arg1.IsWhole) (arg2 : Memref sig .tc .vmem S1024x8 .f32) (harg2 : arg2.IsWhole) (arg3 : Memref sig .tc .vmem S8x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x32 .f32) (harg6 : arg6.IsWhole) (arg7 : Memref sig .tc .vmem S32x1024 .f32) (harg7 : arg7.IsWhole) (arg8 : Memref sig .tc .vmem S1024x8 .f32) (harg8 : arg8.IsWhole) (arg9 : Memref sig .tc .vmem S8x1024 .f32) (harg9 : arg9.IsWhole) (arg10 : Memref sig .tc .vmem S1024x16 .f32) (harg10 : arg10.IsWhole) (arg11 : Memref sig .tc .vmem S16x1024 .f32) (harg11 : arg11.IsWhole) (arg12 : Memref sig .tc .vmem S1024x32 .f32) (harg12 : arg12.IsWhole) (arg13 : Memref sig .tc .vmem S32x1024 .f32) (harg13 : arg13.IsWhole) (arg14 : Memref sig .tc .vmem S1024x8 .f32) (harg14 : arg14.IsWhole) (arg15 : Memref sig .tc .vmem S8x1024 .f32) (harg15 : arg15.IsWhole) (arg16 : Memref sig .tc .vmem S1024x16 .f32) (harg16 : arg16.IsWhole) (arg17 : Memref sig .tc .vmem S16x1024 .f32) (harg17 : arg17.IsWhole) (arg18 : Memref sig .tc .vmem S1x2048x1024 .f32) (harg18 : arg18.IsWhole) (arg19 : Memref sig .tc .vmem S8x32x1024 .bf16) (harg19 : arg19.IsWhole) (arg20 : Memref sig .tc .vmem S8x1024x32 .bf16) (harg20 : arg20.IsWhole) (hc0 : ¬cond0 i)
    (x0 : Vec F S1x2048x1024 .f32) (x1 : Vec F S1024x8 .f32) (x2 : Vec F S8x1024 .f32) (x3 : Vec F S1024x16 .f32) (x4 : Vec F S16x1024 .f32) (x5 : Vec F S1024x32 .f32) (x6 : Vec F S32x1024 .f32) (x7 : Vec F S1024x8 .f32) (x8 : Vec F S8x1024 .f32) (x9 : Vec F S1024x16 .f32) (x10 : Vec F S16x1024 .f32) (x11 : Vec F S1024x32 .f32) (x12 : Vec F S32x1024 .f32) (x13 : Vec F S1024x8 .f32) (x14 : Vec F S8x1024 .f32) (x15 : Vec F S1024x16 .f32) (x16 : Vec F S16x1024 .f32) (xs0 : Vec F S8x32x1024 .bf16) (xs1 : Vec F S8x1024x32 .bf16) :
    { L17 : List (View.Piece (Elt F) S1x2048x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare xs0 ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ owns (c : Thread nD τ) arg19 fullShare xs0 ∗ owns (c : Thread nD τ) arg20 fullShare xs1) -∗ K ⟨⟩))
          ⊢ wp frame (wpE (defs₀ (F := F)) Variants.none c none) E (cc0__lora_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    obtain rfl := harg19.eq_unread hfs0; obtain rfl := harg20.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; iexact H17
    isplitl [HS0]
    · iexists _; isplitr; · ipureintro; exact harg19.read_unread _
      iexact HS0
    iexists _; isplitr; · ipureintro; exact harg20.read_unread _
    iexact HS1

end Cert.Kernel.Body

end
-- ==== Proof.KbFrame.lean ====
/-
  The frame of the kernel program, and what every buffer holds on the way.

  The first grid point fills the two scratch stacks; they then stay as they are, so the region's invariant is
  "anything" before the first point and "the two stacks at the first point's contents" before every later one.
  After grid point t the output's staging buffer holds the block computed at t: at the first point from the
  stacks just written, at a later point from the stacks carried over.  With this proof data the body's two runs
  give the pipeline's body obligation at every point, the pipeline library's launch theorem gives the run, and
  the run gives the frame: the program terminates and leaves its seventeen argument arrays unchanged.
-/
import proofs.«174516_g44933947850968_cont_8to1_c_774_16_alg».proof.Proof.KbRunA
import proofs.«174516_g44933947850968_cont_8to1_c_774_16_alg».proof.Proof.KbRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VO : View sig .tc .vmem S1x2048x1024 .f32 := (Memref.whole cc0_stg17_0 : Memref sig .tc .vmem S1x2048x1024 .f32).view
abbrev VS0 : View sig .tc .vmem S8x32x1024 .bf16 := scM0.view
abbrev VS1 : View sig .tc .vmem S8x1024x32 .bf16 := scM1.view

/-- The first point's run on this memory's blocks. -/
abbrev runFirst (c : Dev nD) := kernelRunA (F := F) c (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) (ms11 t0_0) (hs11 t0_0) (ms12 t0_0) (hs12 t0_0) (ms13 t0_0) (hs13 t0_0) (ms14 t0_0) (hs14 t0_0) (ms15 t0_0) (hs15 t0_0) (ms16 t0_0) (hs16 t0_0) (ms17 t0_0) (hs17 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0)

/-- The stack of down-projections as the first point leaves it. -/
def bsStack (c : Dev nD) : Vec F S8x32x1024 .bf16 := VS0.read (Elt F) (VS0.writes (Elt F) VS0.junk (runFirst m c).2.1)
/-- The stack of scaled up-projections as the first point leaves it. -/
def asStack (c : Dev nD) : Vec F S8x1024x32 .bf16 := VS1.read (Elt F) (VS1.writes (Elt F) VS1.junk (runFirst m c).2.2.1)
/-- The output block the first point leaves. -/
def outFirst (c : Dev nD) : Vec F S1x2048x1024 .f32 := VO.read (Elt F) (VO.writes (Elt F) VO.junk (runFirst m c).1)

/-- A later point's run on this memory's blocks and the carried stacks. -/
abbrev runLater (c : Dev nD) (t : Fin cfg0.N) (h : ¬cond0 (grid0.coords t)) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scM0 (Memref.isWhole_whole _) scM1 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (bsStack m c) (asStack m c)

/-- The output block a later point leaves. -/
def outLater (c : Dev nD) (t : Fin cfg0.N) (h : ¬cond0 (grid0.coords t)) : Vec F S1x2048x1024 .f32 :=
  VO.read (Elt F) (VO.writes (Elt F) VO.junk (runLater m c t h).1)

/-- The output block point t leaves. -/
def outAt (c : Dev nD) (t : Fin cfg0.N) : Vec F S1x2048x1024 .f32 :=
  if h : t.val = 0 then outFirst m c else outLater m c t (fun hc => h ((hcond0 t).mp hc))

theorem outAt_first (c : Dev nD) : outAt m c t0_0 = outFirst m c := dif_pos rfl
theorem outAt_later (c : Dev nD) (t : Fin cfg0.N) (h : ¬t.val = 0) :
    outAt m c t = outLater m c t (fun hc => h ((hcond0 t).mp hc)) := dif_neg h

/-! ## The written pieces cover their buffers -/

/-- The first point's one output piece is the whole block. -/
theorem coverFirst_out (c : Dev nD) (y : S1x2048x1024.Idx) : ∃ pc ∈ (runFirst m c).1, y ∈ pc.1.set :=
  View.cover_of_tiledL (runFirst m c).1 S1x2048x1024.size (by sl_kernel_rfl) y
/-- A later point's one output piece is the whole block. -/
theorem coverLater_out (c : Dev nD) (t : Fin cfg0.N) (h : ¬cond0 (grid0.coords t)) (y : S1x2048x1024.Idx) :
    ∃ pc ∈ (runLater m c t h).1, y ∈ pc.1.set :=
  View.cover_of_tiledL (runLater m c t h).1 S1x2048x1024.size (by sl_kernel_rfl) y
/-- The stack of down-projections is covered: its first store is the zero fill of the whole stack. -/
theorem coverFirst_bs (c : Dev nD) (y : S8x32x1024.Idx) : ∃ pc ∈ (runFirst m c).2.1, y ∈ pc.1.set :=
  View.cover_of_wholeMem (runFirst m c).2.1 (by unfold runFirst kernelRunA; dsimp only; sl_whole_mem) y
/-- The stack of up-projections is covered: its first store is the zero fill of the whole stack. -/
theorem coverFirst_as (c : Dev nD) (y : S8x1024x32.Idx) : ∃ pc ∈ (runFirst m c).2.2.1, y ∈ pc.1.set :=
  View.cover_of_wholeMem (runFirst m c).2.2.1 (by unfold runFirst kernelRunA; dsimp only; sl_whole_mem) y

/-! ## The region invariant, point by point -/

def PhiS (c : Dev nD) : (n : ℕ) → n ≤ cfg0.N → sProp 𝕄
  | 0, _ => Pipeline.ΦA spec0 c
  | _ + 1, _ => iprop(iprop(owns (c : Thread nD τ) scM0 fullShare (bsStack m c) ∗ owns (c : Thread nD τ) scM1 fullShare (asStack m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (bsStack m c) ∗ owns (c : Thread nD τ) scM1 fullShare (asStack m c)) ∗ (∃ r, prngReg c r)) := rfl
theorem PhiS_pos (c : Dev nD) (n : ℕ) (h : n ≤ cfg0.N) (hz : n ≠ 0) :
    PhiS m c n h = iprop(iprop(owns (c : Thread nD τ) scM0 fullShare (bsStack m c) ∗ owns (c : Thread nD τ) scM1 fullShare (asStack m c)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  rw [show (dats m 0 c).leavesExact 14 t = owns (c : Thread nD τ) (ms14 t) fullShare ((dats m 0 c).after 14 t) from by
    unfold Dat.leavesExact; rw [live14 t], after14]
  rw [show (dats m 0 c).leavesExact 15 t = owns (c : Thread nD τ) (ms15 t) fullShare ((dats m 0 c).after 15 t) from by
    unfold Dat.leavesExact; rw [live15 t], after15]
  rw [show (dats m 0 c).leavesExact 16 t = owns (c : Thread nD τ) (ms16 t) fullShare ((dats m 0 c).after 16 t) from by
    unfold Dat.leavesExact; rw [live16 t], after16]
  rw [show (dats m 0 c).leavesExact 17 t = owns (c : Thread nD τ) (ms17 t) fullShare ((dats m 0 c).after 17 t) from by
    unfold Dat.leavesExact; rw [live17 t], after17]
  by_cases h0 : t.val = 0
  · obtain rfl : t = t0_0 := Fin.ext h0
    rw [outAt_first]
    unfold outFirst
    rw [PhiS_castSucc m c t0_0, PhiS_zero m c (t0_0 : Fin cfg0.N).val _ rfl, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runFirst m c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, ⟨%e17, H17⟩, ⟨%es0, HS0⟩, ⟨%es1, HS1⟩⟩
    isplitl [HS0 HS1 Hg]
    · isplitl [HS0 HS1]
      · isplitl [HS0]
        · unfold owns bsStack; iexists _; isplitr
          swap; · iexact HS0
          ipureintro; exact View.read_writes_of_cover _ _ _ _ _ (coverFirst_bs m c)
        unfold owns asStack; iexists _; isplitr
        swap; · iexact HS1
        ipureintro; exact View.read_writes_of_cover _ _ _ _ _ (coverFirst_as m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (coverFirst_out m c)
  · rw [outAt_later m c t h0]
    unfold outLater
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runLater m c t (fun hc => h0 ((hcond0 t).mp hc))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, ⟨%e17, H17⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (coverLater_out m c t _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Body

end
-- ==== Proof.KiShared.lean ====
/-
  What the two cases of the kernel body share.

  The body runs in one of two cases, told apart by the grid coordinate alone: at the first grid point it first
  fills its two scratch stacks (every adapter's down-projection, zero-padded to 32 rows, and every adapter's scaled
  up-projection, zero-padded to 32 columns) and then computes; at every later point it only computes, reading
  the stacks the first point left.  Here: the condition in closed form, the staging memrefs as the pipeline passes
  them, the two scratch stacks as memrefs, and the region invariant with the stacks owned at some contents.
-/
import proofs.«174516_g44933947850968_cont_8to1_c_774_16_alg».proof.Proof.Gen.KernelIdeal.Frame
import proofs.«174516_g44933947850968_cont_8to1_c_774_16_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition ("this is grid point 0"), from the grid coordinate. -/
abbrev cond0 (i : grid0.Coords) : Prop :=
  (Scalar.cmpi .ne (Scalar.extui (Scalar.cmpi .eq (BitVec.ofNat 32 (i 0).val) 0#32)) 0#32) = 1#1

/-- It holds exactly at the first point — decided over the sixteen points. -/
theorem hcond0 : ∀ t : Fin cfg0.N, cond0 (grid0.coords t) ↔ t.val = 0 :=
  (by decide +kernel : ∀ t : Fin grid0.N, cond0 (grid0.coords t) ↔ t.val = 0)

/-- The first grid point is in the filling case. -/
theorem hc_first : cond0 (grid0.coords t0_0) := (hcond0 t0_0).mpr rfl

/-- At the first grid point both stack reads are of slab 0: the point's index mod 8, as the body computes it. -/
instance : ClosedOff (k0_off1 (grid0.coords t0_0)) := ⟨![0, 0, 0], by decide +kernel⟩
instance : ClosedOff (k0_off2 (grid0.coords t0_0)) := ⟨![0, 0, 0], by decide +kernel⟩

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x8 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x8 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S8x1024 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1024x16 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S16x1024 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x2048x1024 .f32 := win0_17.stage (cfg0.slots t 17)
abbrev hs17 (t : Fin cfg0.N) : (ms17 t).IsWhole := hstage0_17 ((cfg0.slots t 17).cast nbuf0_17)

/-- The stack of down-projections, [8, 32, 1024], a scratch buffer of the kernel's own. -/
abbrev scM0 : Memref sig .tc .vmem S8x32x1024 .bf16 := Memref.whole cc0_scratch0
/-- The stack of scaled up-projections, [8, 1024, 32], a scratch buffer of the kernel's own. -/
abbrev scM1 : Memref sig .tc .vmem S8x1024x32 .bf16 := Memref.whole cc0_scratch1

/-- The class invariant with the two stacks as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
theorem live14 : ∀ t : Fin cfg0.N, cfg0.idle 14 (grid0.coords t) = false := by decide +kernel
theorem live15 : ∀ t : Fin cfg0.N, cfg0.idle 15 (grid0.coords t) = false := by decide +kernel
theorem live16 : ∀ t : Fin cfg0.N, cfg0.idle 16 (grid0.coords t) = false := by decide +kernel
theorem live17 : ∀ t : Fin cfg0.N, cfg0.idle 17 (grid0.coords t) = false := by decide +kernel

end Cert.KernelIdeal.Body

end
-- ==== Proof.KiRunA.lean ====
/-
  The kernel body at the FIRST grid point, run whole.

  Given the seventeen input blocks in their staging buffers, the output's staging buffer and the two scratch stacks
  at ANY contents, the body terminates; it leaves the inputs as they were, and every buffer it stored into holding
  a known list of written pieces: the down-projection stack (zeros everywhere, then adapter a's rows in slab a),
  the up-projection stack (zeros, then adapter a's scaled columns in slab a), and the output block (the two
  contractions of this point's x block with the slabs of adapter 0).  The loads that precede each
  packed store read whatever was there; nothing depends on them.
-/
import proofs.«174516_g44933947850968_cont_8to1_c_774_16_alg».proof.Proof.KiShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunA (c : Dev nD) (arg1 : Memref sig .tc .vmem S1x2048x1024 .f32) (harg1 : arg1.IsWhole) (arg2 : Memref sig .tc .vmem S1024x8 .f32) (harg2 : arg2.IsWhole) (arg3 : Memref sig .tc .vmem S8x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x32 .f32) (harg6 : arg6.IsWhole) (arg7 : Memref sig .tc .vmem S32x1024 .f32) (harg7 : arg7.IsWhole) (arg8 : Memref sig .tc .vmem S1024x8 .f32) (harg8 : arg8.IsWhole) (arg9 : Memref sig .tc .vmem S8x1024 .f32) (harg9 : arg9.IsWhole) (arg10 : Memref sig .tc .vmem S1024x16 .f32) (harg10 : arg10.IsWhole) (arg11 : Memref sig .tc .vmem S16x1024 .f32) (harg11 : arg11.IsWhole) (arg12 : Memref sig .tc .vmem S1024x32 .f32) (harg12 : arg12.IsWhole) (arg13 : Memref sig .tc .vmem S32x1024 .f32) (harg13 : arg13.IsWhole) (arg14 : Memref sig .tc .vmem S1024x8 .f32) (harg14 : arg14.IsWhole) (arg15 : Memref sig .tc .vmem S8x1024 .f32) (harg15 : arg15.IsWhole) (arg16 : Memref sig .tc .vmem S1024x16 .f32) (harg16 : arg16.IsWhole) (arg17 : Memref sig .tc .vmem S16x1024 .f32) (harg17 : arg17.IsWhole) (arg18 : Memref sig .tc .vmem S1x2048x1024 .f32) (harg18 : arg18.IsWhole) (arg19 : Memref sig .tc .vmem S8x32x1024 .bf16) (harg19 : arg19.IsWhole) (arg20 : Memref sig .tc .vmem S8x1024x32 .bf16) (harg20 : arg20.IsWhole)
    (x0 : Vec F S1x2048x1024 .f32) (x1 : Vec F S1024x8 .f32) (x2 : Vec F S8x1024 .f32) (x3 : Vec F S1024x16 .f32) (x4 : Vec F S16x1024 .f32) (x5 : Vec F S1024x32 .f32) (x6 : Vec F S32x1024 .f32) (x7 : Vec F S1024x8 .f32) (x8 : Vec F S8x1024 .f32) (x9 : Vec F S1024x16 .f32) (x10 : Vec F S16x1024 .f32) (x11 : Vec F S1024x32 .f32) (x12 : Vec F S32x1024 .f32) (x13 : Vec F S1024x8 .f32) (x14 : Vec F S8x1024 .f32) (x15 : Vec F S1024x16 .f32) (x16 : Vec F S16x1024 .f32) :
    Σ' (L17 : List (View.Piece (Elt F) S1x2048x1024 .f32)) (LS0 : List (View.Piece (Elt F) S8x32x1024 .bf16)), { LS1 : List (View.Piece (Elt F) S8x1024x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0__lora_kernel (grid0.coords t0_0) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__lora_kernel_eq_skeleton]; unfold cc0__lora_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | exact hc_first)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; iexact H17
    isplitl [HS0]
    · iexists _; iexact HS0
    iexists _; iexact HS1

end Cert.KernelIdeal.Body

end
-- ==== Proof.KiRunB.lean ====
/-
  The kernel body at a LATER grid point, run whole.

  Given the seventeen input blocks in their staging buffers, the output's staging buffer at any contents and the
  two scratch stacks at the contents xs0, xs1 the earlier points left, the body terminates; it leaves the inputs
  and both stacks as they were and the output block holding one written piece: the two contractions of this
  point's x block with slab (point mod 8) of each stack.
-/
import proofs.«174516_g44933947850968_cont_8to1_c_774_16_alg».proof.Proof.KiShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg1 : Memref sig .tc .vmem S1x2048x1024 .f32) (harg1 : arg1.IsWhole) (arg2 : Memref sig .tc .vmem S1024x8 .f32) (harg2 : arg2.IsWhole) (arg3 : Memref sig .tc .vmem S8x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x32 .f32) (harg6 : arg6.IsWhole) (arg7 : Memref sig .tc .vmem S32x1024 .f32) (harg7 : arg7.IsWhole) (arg8 : Memref sig .tc .vmem S1024x8 .f32) (harg8 : arg8.IsWhole) (arg9 : Memref sig .tc .vmem S8x1024 .f32) (harg9 : arg9.IsWhole) (arg10 : Memref sig .tc .vmem S1024x16 .f32) (harg10 : arg10.IsWhole) (arg11 : Memref sig .tc .vmem S16x1024 .f32) (harg11 : arg11.IsWhole) (arg12 : Memref sig .tc .vmem S1024x32 .f32) (harg12 : arg12.IsWhole) (arg13 : Memref sig .tc .vmem S32x1024 .f32) (harg13 : arg13.IsWhole) (arg14 : Memref sig .tc .vmem S1024x8 .f32) (harg14 : arg14.IsWhole) (arg15 : Memref sig .tc .vmem S8x1024 .f32) (harg15 : arg15.IsWhole) (arg16 : Memref sig .tc .vmem S1024x16 .f32) (harg16 : arg16.IsWhole) (arg17 : Memref sig .tc .vmem S16x1024 .f32) (harg17 : arg17.IsWhole) (arg18 : Memref sig .tc .vmem S1x2048x1024 .f32) (harg18 : arg18.IsWhole) (arg19 : Memref sig .tc .vmem S8x32x1024 .bf16) (harg19 : arg19.IsWhole) (arg20 : Memref sig .tc .vmem S8x1024x32 .bf16) (harg20 : arg20.IsWhole) (hc0 : ¬cond0 i)
    (x0 : Vec F S1x2048x1024 .f32) (x1 : Vec F S1024x8 .f32) (x2 : Vec F S8x1024 .f32) (x3 : Vec F S1024x16 .f32) (x4 : Vec F S16x1024 .f32) (x5 : Vec F S1024x32 .f32) (x6 : Vec F S32x1024 .f32) (x7 : Vec F S1024x8 .f32) (x8 : Vec F S8x1024 .f32) (x9 : Vec F S1024x16 .f32) (x10 : Vec F S16x1024 .f32) (x11 : Vec F S1024x32 .f32) (x12 : Vec F S32x1024 .f32) (x13 : Vec F S1024x8 .f32) (x14 : Vec F S8x1024 .f32) (x15 : Vec F S1024x16 .f32) (x16 : Vec F S16x1024 .f32) (xs0 : Vec F S8x32x1024 .bf16) (xs1 : Vec F S8x1024x32 .bf16) :
    { L17 : List (View.Piece (Elt F) S1x2048x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare xs0 ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ owns (c : Thread nD τ) arg19 fullShare xs0 ∗ owns (c : Thread nD τ) arg20 fullShare xs1) -∗ K ⟨⟩))
          ⊢ wp frame (wpE (defs₀ (F := F)) Variants.none c none) E (cc0__lora_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    obtain rfl := harg19.eq_unread hfs0; obtain rfl := harg20.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; iexact H17
    isplitl [HS0]
    · iexists _; isplitr; · ipureintro; exact harg19.read_unread _
      iexact HS0
    iexists _; isplitr; · ipureintro; exact harg20.read_unread _
    iexact HS1

end Cert.KernelIdeal.Body

end
-- ==== Proof.KiFrame.lean ====
/-
  The frame of the kernel program, and what every buffer holds on the way.

  The first grid point fills the two scratch stacks; they then stay as they are, so the region's invariant is
  "anything" before the first point and "the two stacks at the first point's contents" before every later one.
  After grid point t the output's staging buffer holds the block computed at t: at the first point from the
  stacks just written, at a later point from the stacks carried over.  With this proof data the body's two runs
  give the pipeline's body obligation at every point, the pipeline library's launch theorem gives the run, and
  the run gives the frame: the program terminates and leaves its seventeen argument arrays unchanged.
-/
import proofs.«174516_g44933947850968_cont_8to1_c_774_16_alg».proof.Proof.KiRunA
import proofs.«174516_g44933947850968_cont_8to1_c_774_16_alg».proof.Proof.KiRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VO : View sig .tc .vmem S1x2048x1024 .f32 := (Memref.whole cc0_stg17_0 : Memref sig .tc .vmem S1x2048x1024 .f32).view
abbrev VS0 : View sig .tc .vmem S8x32x1024 .bf16 := scM0.view
abbrev VS1 : View sig .tc .vmem S8x1024x32 .bf16 := scM1.view

/-- The first point's run on this memory's blocks. -/
abbrev runFirst (c : Dev nD) := kernelRunA (F := F) c (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) (ms11 t0_0) (hs11 t0_0) (ms12 t0_0) (hs12 t0_0) (ms13 t0_0) (hs13 t0_0) (ms14 t0_0) (hs14 t0_0) (ms15 t0_0) (hs15 t0_0) (ms16 t0_0) (hs16 t0_0) (ms17 t0_0) (hs17 t0_0) scM0 (Memref.isWhole_whole _) scM1 (Memref.isWhole_whole _) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0)

/-- The stack of down-projections as the first point leaves it. -/
def bsStack (c : Dev nD) : Vec F S8x32x1024 .bf16 := VS0.read (Elt F) (VS0.writes (Elt F) VS0.junk (runFirst m c).2.1)
/-- The stack of scaled up-projections as the first point leaves it. -/
def asStack (c : Dev nD) : Vec F S8x1024x32 .bf16 := VS1.read (Elt F) (VS1.writes (Elt F) VS1.junk (runFirst m c).2.2.1)
/-- The output block the first point leaves. -/
def outFirst (c : Dev nD) : Vec F S1x2048x1024 .f32 := VO.read (Elt F) (VO.writes (Elt F) VO.junk (runFirst m c).1)

/-- A later point's run on this memory's blocks and the carried stacks. -/
abbrev runLater (c : Dev nD) (t : Fin cfg0.N) (h : ¬cond0 (grid0.coords t)) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scM0 (Memref.isWhole_whole _) scM1 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (bsStack m c) (asStack m c)

/-- The output block a later point leaves. -/
def outLater (c : Dev nD) (t : Fin cfg0.N) (h : ¬cond0 (grid0.coords t)) : Vec F S1x2048x1024 .f32 :=
  VO.read (Elt F) (VO.writes (Elt F) VO.junk (runLater m c t h).1)

/-- The output block point t leaves. -/
def outAt (c : Dev nD) (t : Fin cfg0.N) : Vec F S1x2048x1024 .f32 :=
  if h : t.val = 0 then outFirst m c else outLater m c t (fun hc => h ((hcond0 t).mp hc))

theorem outAt_first (c : Dev nD) : outAt m c t0_0 = outFirst m c := dif_pos rfl
theorem outAt_later (c : Dev nD) (t : Fin cfg0.N) (h : ¬t.val = 0) :
    outAt m c t = outLater m c t (fun hc => h ((hcond0 t).mp hc)) := dif_neg h

/-! ## The written pieces cover their buffers -/

/-- The first point's one output piece is the whole block. -/
theorem coverFirst_out (c : Dev nD) (y : S1x2048x1024.Idx) : ∃ pc ∈ (runFirst m c).1, y ∈ pc.1.set :=
  View.cover_of_tiledL (runFirst m c).1 S1x2048x1024.size (by sl_kernel_rfl) y
/-- A later point's one output piece is the whole block. -/
theorem coverLater_out (c : Dev nD) (t : Fin cfg0.N) (h : ¬cond0 (grid0.coords t)) (y : S1x2048x1024.Idx) :
    ∃ pc ∈ (runLater m c t h).1, y ∈ pc.1.set :=
  View.cover_of_tiledL (runLater m c t h).1 S1x2048x1024.size (by sl_kernel_rfl) y
/-- The stack of down-projections is covered: its first store is the zero fill of the whole stack. -/
theorem coverFirst_bs (c : Dev nD) (y : S8x32x1024.Idx) : ∃ pc ∈ (runFirst m c).2.1, y ∈ pc.1.set :=
  View.cover_of_wholeMem (runFirst m c).2.1 (by unfold runFirst kernelRunA; dsimp only; sl_whole_mem) y
/-- The stack of up-projections is covered: its first store is the zero fill of the whole stack. -/
theorem coverFirst_as (c : Dev nD) (y : S8x1024x32.Idx) : ∃ pc ∈ (runFirst m c).2.2.1, y ∈ pc.1.set :=
  View.cover_of_wholeMem (runFirst m c).2.2.1 (by unfold runFirst kernelRunA; dsimp only; sl_whole_mem) y

/-! ## The region invariant, point by point -/

def PhiS (c : Dev nD) : (n : ℕ) → n ≤ cfg0.N → sProp 𝕄
  | 0, _ => Pipeline.ΦA spec0 c
  | _ + 1, _ => iprop(iprop(owns (c : Thread nD τ) scM0 fullShare (bsStack m c) ∗ owns (c : Thread nD τ) scM1 fullShare (asStack m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (bsStack m c) ∗ owns (c : Thread nD τ) scM1 fullShare (asStack m c)) ∗ (∃ r, prngReg c r)) := rfl
theorem PhiS_pos (c : Dev nD) (n : ℕ) (h : n ≤ cfg0.N) (hz : n ≠ 0) :
    PhiS m c n h = iprop(iprop(owns (c : Thread nD τ) scM0 fullShare (bsStack m c) ∗ owns (c : Thread nD τ) scM1 fullShare (asStack m c)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  rw [show (dats m 0 c).leavesExact 14 t = owns (c : Thread nD τ) (ms14 t) fullShare ((dats m 0 c).after 14 t) from by
    unfold Dat.leavesExact; rw [live14 t], after14]
  rw [show (dats m 0 c).leavesExact 15 t = owns (c : Thread nD τ) (ms15 t) fullShare ((dats m 0 c).after 15 t) from by
    unfold Dat.leavesExact; rw [live15 t], after15]
  rw [show (dats m 0 c).leavesExact 16 t = owns (c : Thread nD τ) (ms16 t) fullShare ((dats m 0 c).after 16 t) from by
    unfold Dat.leavesExact; rw [live16 t], after16]
  rw [show (dats m 0 c).leavesExact 17 t = owns (c : Thread nD τ) (ms17 t) fullShare ((dats m 0 c).after 17 t) from by
    unfold Dat.leavesExact; rw [live17 t], after17]
  by_cases h0 : t.val = 0
  · obtain rfl : t = t0_0 := Fin.ext h0
    rw [outAt_first]
    unfold outFirst
    rw [PhiS_castSucc m c t0_0, PhiS_zero m c (t0_0 : Fin cfg0.N).val _ rfl, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runFirst m c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, ⟨%e17, H17⟩, ⟨%es0, HS0⟩, ⟨%es1, HS1⟩⟩
    isplitl [HS0 HS1 Hg]
    · isplitl [HS0 HS1]
      · isplitl [HS0]
        · unfold owns bsStack; iexists _; isplitr
          swap; · iexact HS0
          ipureintro; exact View.read_writes_of_cover _ _ _ _ _ (coverFirst_bs m c)
        unfold owns asStack; iexists _; isplitr
        swap; · iexact HS1
        ipureintro; exact View.read_writes_of_cover _ _ _ _ _ (coverFirst_as m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (coverFirst_out m c)
  · rw [outAt_later m c t h0]
    unfold outLater
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runLater m c t (fun hc => h0 ((hcond0 t).mp hc))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, ⟨%e17, H17⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (coverLater_out m c t _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Body

end
-- ==== Proof.KiBlocks.lean ====
/-
  Where each block sits in its array.

  Grid point t stages block t of x (row block [t, :, :]) and the whole of each of the sixteen weight arrays, and
  writes back block t of the result.  The body reads slab (t mod 8) of each scratch stack.  These are facts of
  the printed index maps and of the body's index arithmetic, decided once over the sixteen grid points; from them:
  an input block read at a local index is the array read at the global index, a stack read at local (0, k, d) is the
  stack at (t mod 8, k, d), and the result's blocks cover the result array.
-/
import proofs.«174516_g44933947850968_cont_8to1_c_774_16_alg».proof.Proof.KiFrame
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx

variable {F : FTy → Type} [FloatOps F]
variable (m : (ℓ : Loc nD τ sig) → Buf (Elt F) ℓ)

theorem hz3 : (![0, 0, 0] : Fin 3 → Nat) = fun _ => 0 := funext fun a => by fin_cases a <;> rfl

/-- The slab both stack reads address at grid point t: t mod 8, as the body's index arithmetic computes it. -/
theorem off1_eq : ∀ t : Fin cfg0.N, k0_off1 (grid0.coords t) = ![t.val % 8, 0, 0] :=
  (by decide +kernel : ∀ t : Fin grid0.N, k0_off1 (grid0.coords t) = ![t.val % 8, 0, 0])
theorem off2_eq : ∀ t : Fin cfg0.N, k0_off2 (grid0.coords t) = ![t.val % 8, 0, 0] :=
  (by decide +kernel : ∀ t : Fin grid0.N, k0_off2 (grid0.coords t) = ![t.val % 8, 0, 0])

/-- The printed index maps over the grid: x and the result move with the point along axis 0; every weight block is
    block (0, 0). -/
theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_out : ∀ t : Fin cfg0.N, win0_17.index t (0 : Fin 3) = t.val ∧ win0_17.index t (1 : Fin 3) = 0 ∧ win0_17.index t (2 : Fin 3) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)

/-- Block t of x read at local (0, s, d) is x at (t, s, d). -/
theorem xblk (c : Dev nD) (t : Fin cfg0.N) (ht : t.val < 16) (s : Fin 2048) (d : Fin 1024) :
    iblk m c 0 t (ix3 0 s d) = V m c main_arg0 (ix3 ⟨t.val, ht⟩ s d) := by
  obtain ⟨e0, e1, e2⟩ := idx_x t
  show V m c main_arg0 (((cfg0.win 0).blk t).view.emb (ix3 0 s d)) = V m c main_arg0 (ix3 ⟨t.val, ht⟩ s d)
  refine congrArg _ ?_
  funext a; apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 1024 + 1 * d.val = d.val; omega

/-- The block of weight array 1 at any point is the whole array. -/
theorem wblk1 (c : Dev nD) (t : Fin cfg0.N) : (iblk m c 1 t : S1024x8.Idx → Elt F .f32) = V m c main_arg1 := by
  obtain ⟨e0, e1⟩ := idx_w1 t
  funext y
  show V m c main_arg1 (((cfg0.win 1).blk t).view.emb y) = V m c main_arg1 y
  refine congrArg _ ?_
  funext a; apply Fin.ext
  match a with
  | ⟨0, _⟩ => show win0_1.index t (0 : Fin 2) * 1024 + 1 * (y 0).val = (y 0).val; omega
  | ⟨1, _⟩ => show win0_1.index t (1 : Fin 2) * 8 + 1 * (y 1).val = (y 1).val; omega
/-- The block of weight array 2 at any point is the whole array. -/
theorem wblk2 (c : Dev nD) (t : Fin cfg0.N) : (iblk m c 2 t : S8x1024.Idx → Elt F .f32) = V m c main_arg2 := by
  obtain ⟨e0, e1⟩ := idx_w2 t
  funext y
  show V m c main_arg2 (((cfg0.win 2).blk t).view.emb y) = V m c main_arg2 y
  refine congrArg _ ?_
  funext a; apply Fin.ext
  match a with
  | ⟨0, _⟩ => show win0_2.index t (0 : Fin 2) * 8 + 1 * (y 0).val = (y 0).val; omega
  | ⟨1, _⟩ => show win0_2.index t (1 : Fin 2) * 1024 + 1 * (y 1).val = (y 1).val; omega
/-- The block of weight array 3 at any point is the whole array. -/
theorem wblk3 (c : Dev nD) (t : Fin cfg0.N) : (iblk m c 3 t : S1024x16.Idx → Elt F .f32) = V m c main_arg3 := by
  obtain ⟨e0, e1⟩ := idx_w3 t
  funext y
  show V m c main_arg3 (((cfg0.win 3).blk t).view.emb y) = V m c main_arg3 y
  refine congrArg _ ?_
  funext a; apply Fin.ext
  match a with
  | ⟨0, _⟩ => show win0_3.index t (0 : Fin 2) * 1024 + 1 * (y 0).val = (y 0).val; omega
  | ⟨1, _⟩ => show win0_3.index t (1 : Fin 2) * 16 + 1 * (y 1).val = (y 1).val; omega
/-- The block of weight array 4 at any point is the whole array. -/
theorem wblk4 (c : Dev nD) (t : Fin cfg0.N) : (iblk m c 4 t : S16x1024.Idx → Elt F .f32) = V m c main_arg4 := by
  obtain ⟨e0, e1⟩ := idx_w4 t
  funext y
  show V m c main_arg4 (((cfg0.win 4).blk t).view.emb y) = V m c main_arg4 y
  refine congrArg _ ?_
  funext a; apply Fin.ext
  match a with
  | ⟨0, _⟩ => show win0_4.index t (0 : Fin 2) * 16 + 1 * (y 0).val = (y 0).val; omega
  | ⟨1, _⟩ => show win0_4.index t (1 : Fin 2) * 1024 + 1 * (y 1).val = (y 1).val; omega
/-- The block of weight array 5 at any point is the whole array. -/
theorem wblk5 (c : Dev nD) (t : Fin cfg0.N) : (iblk m c 5 t : S1024x32.Idx → Elt F .f32) = V m c main_arg5 := by
  obtain ⟨e0, e1⟩ := idx_w5 t
  funext y
  show V m c main_arg5 (((cfg0.win 5).blk t).view.emb y) = V m c main_arg5 y
  refine congrArg _ ?_
  funext a; apply Fin.ext
  match a with
  | ⟨0, _⟩ => show win0_5.index t (0 : Fin 2) * 1024 + 1 * (y 0).val = (y 0).val; omega
  | ⟨1, _⟩ => show win0_5.index t (1 : Fin 2) * 32 + 1 * (y 1).val = (y 1).val; omega
/-- The block of weight array 6 at any point is the whole array. -/
theorem wblk6 (c : Dev nD) (t : Fin cfg0.N) : (iblk m c 6 t : S32x1024.Idx → Elt F .f32) = V m c main_arg6 := by
  obtain ⟨e0, e1⟩ := idx_w6 t
  funext y
  show V m c main_arg6 (((cfg0.win 6).blk t).view.emb y) = V m c main_arg6 y
  refine congrArg _ ?_
  funext a; apply Fin.ext
  match a with
  | ⟨0, _⟩ => show win0_6.index t (0 : Fin 2) * 32 + 1 * (y 0).val = (y 0).val; omega
  | ⟨1, _⟩ => show win0_6.index t (1 : Fin 2) * 1024 + 1 * (y 1).val = (y 1).val; omega
/-- The block of weight array 7 at any point is the whole array. -/
theorem wblk7 (c : Dev nD) (t : Fin cfg0.N) : (iblk m c 7 t : S1024x8.Idx → Elt F .f32) = V m c main_arg7 := by
  obtain ⟨e0, e1⟩ := idx_w7 t
  funext y
  show V m c main_arg7 (((cfg0.win 7).blk t).view.emb y) = V m c main_arg7 y
  refine congrArg _ ?_
  funext a; apply Fin.ext
  match a with
  | ⟨0, _⟩ => show win0_7.index t (0 : Fin 2) * 1024 + 1 * (y 0).val = (y 0).val; omega
  | ⟨1, _⟩ => show win0_7.index t (1 : Fin 2) * 8 + 1 * (y 1).val = (y 1).val; omega
/-- The block of weight array 8 at any point is the whole array. -/
theorem wblk8 (c : Dev nD) (t : Fin cfg0.N) : (iblk m c 8 t : S8x1024.Idx → Elt F .f32) = V m c main_arg8 := by
  obtain ⟨e0, e1⟩ := idx_w8 t
  funext y
  show V m c main_arg8 (((cfg0.win 8).blk t).view.emb y) = V m c main_arg8 y
  refine congrArg _ ?_
  funext a; apply Fin.ext
  match a with
  | ⟨0, _⟩ => show win0_8.index t (0 : Fin 2) * 8 + 1 * (y 0).val = (y 0).val; omega
  | ⟨1, _⟩ => show win0_8.index t (1 : Fin 2) * 1024 + 1 * (y 1).val = (y 1).val; omega
/-- The block of weight array 9 at any point is the whole array. -/
theorem wblk9 (c : Dev nD) (t : Fin cfg0.N) : (iblk m c 9 t : S1024x16.Idx → Elt F .f32) = V m c main_arg9 := by
  obtain ⟨e0, e1⟩ := idx_w9 t
  funext y
  show V m c main_arg9 (((cfg0.win 9).blk t).view.emb y) = V m c main_arg9 y
  refine congrArg _ ?_
  funext a; apply Fin.ext
  match a with
  | ⟨0, _⟩ => show win0_9.index t (0 : Fin 2) * 1024 + 1 * (y 0).val = (y 0).val; omega
  | ⟨1, _⟩ => show win0_9.index t (1 : Fin 2) * 16 + 1 * (y 1).val = (y 1).val; omega
/-- The block of weight array 10 at any point is the whole array. -/
theorem wblk10 (c : Dev nD) (t : Fin cfg0.N) : (iblk m c 10 t : S16x1024.Idx → Elt F .f32) = V m c main_arg10 := by
  obtain ⟨e0, e1⟩ := idx_w10 t
  funext y
  show V m c main_arg10 (((cfg0.win 10).blk t).view.emb y) = V m c main_arg10 y
  refine congrArg _ ?_
  funext a; apply Fin.ext
  match a with
  | ⟨0, _⟩ => show win0_10.index t (0 : Fin 2) * 16 + 1 * (y 0).val = (y 0).val; omega
  | ⟨1, _⟩ => show win0_10.index t (1 : Fin 2) * 1024 + 1 * (y 1).val = (y 1).val; omega
/-- The block of weight array 11 at any point is the whole array. -/
theorem wblk11 (c : Dev nD) (t : Fin cfg0.N) : (iblk m c 11 t : S1024x32.Idx → Elt F .f32) = V m c main_arg11 := by
  obtain ⟨e0, e1⟩ := idx_w11 t
  funext y
  show V m c main_arg11 (((cfg0.win 11).blk t).view.emb y) = V m c main_arg11 y
  refine congrArg _ ?_
  funext a; apply Fin.ext
  match a with
  | ⟨0, _⟩ => show win0_11.index t (0 : Fin 2) * 1024 + 1 * (y 0).val = (y 0).val; omega
  | ⟨1, _⟩ => show win0_11.index t (1 : Fin 2) * 32 + 1 * (y 1).val = (y 1).val; omega
/-- The block of weight array 12 at any point is the whole array. -/
theorem wblk12 (c : Dev nD) (t : Fin cfg0.N) : (iblk m c 12 t : S32x1024.Idx → Elt F .f32) = V m c main_arg12 := by
  obtain ⟨e0, e1⟩ := idx_w12 t
  funext y
  show V m c main_arg12 (((cfg0.win 12).blk t).view.emb y) = V m c main_arg12 y
  refine congrArg _ ?_
  funext a; apply Fin.ext
  match a with
  | ⟨0, _⟩ => show win0_12.index t (0 : Fin 2) * 32 + 1 * (y 0).val = (y 0).val; omega
  | ⟨1, _⟩ => show win0_12.index t (1 : Fin 2) * 1024 + 1 * (y 1).val = (y 1).val; omega
/-- The block of weight array 13 at any point is the whole array. -/
theorem wblk13 (c : Dev nD) (t : Fin cfg0.N) : (iblk m c 13 t : S1024x8.Idx → Elt F .f32) = V m c main_arg13 := by
  obtain ⟨e0, e1⟩ := idx_w13 t
  funext y
  show V m c main_arg13 (((cfg0.win 13).blk t).view.emb y) = V m c main_arg13 y
  refine congrArg _ ?_
  funext a; apply Fin.ext
  match a with
  | ⟨0, _⟩ => show win0_13.index t (0 : Fin 2) * 1024 + 1 * (y 0).val = (y 0).val; omega
  | ⟨1, _⟩ => show win0_13.index t (1 : Fin 2) * 8 + 1 * (y 1).val = (y 1).val; omega
/-- The block of weight array 14 at any point is the whole array. -/
theorem wblk14 (c : Dev nD) (t : Fin cfg0.N) : (iblk m c 14 t : S8x1024.Idx → Elt F .f32) = V m c main_arg14 := by
  obtain ⟨e0, e1⟩ := idx_w14 t
  funext y
  show V m c main_arg14 (((cfg0.win 14).blk t).view.emb y) = V m c main_arg14 y
  refine congrArg _ ?_
  funext a; apply Fin.ext
  match a with
  | ⟨0, _⟩ => show win0_14.index t (0 : Fin 2) * 8 + 1 * (y 0).val = (y 0).val; omega
  | ⟨1, _⟩ => show win0_14.index t (1 : Fin 2) * 1024 + 1 * (y 1).val = (y 1).val; omega
/-- The block of weight array 15 at any point is the whole array. -/
theorem wblk15 (c : Dev nD) (t : Fin cfg0.N) : (iblk m c 15 t : S1024x16.Idx → Elt F .f32) = V m c main_arg15 := by
  obtain ⟨e0, e1⟩ := idx_w15 t
  funext y
  show V m c main_arg15 (((cfg0.win 15).blk t).view.emb y) = V m c main_arg15 y
  refine congrArg _ ?_
  funext a; apply Fin.ext
  match a with
  | ⟨0, _⟩ => show win0_15.index t (0 : Fin 2) * 1024 + 1 * (y 0).val = (y 0).val; omega
  | ⟨1, _⟩ => show win0_15.index t (1 : Fin 2) * 16 + 1 * (y 1).val = (y 1).val; omega
/-- The block of weight array 16 at any point is the whole array. -/
theorem wblk16 (c : Dev nD) (t : Fin cfg0.N) : (iblk m c 16 t : S16x1024.Idx → Elt F .f32) = V m c main_arg16 := by
  obtain ⟨e0, e1⟩ := idx_w16 t
  funext y
  show V m c main_arg16 (((cfg0.win 16).blk t).view.emb y) = V m c main_arg16 y
  refine congrArg _ ?_
  funext a; apply Fin.ext
  match a with
  | ⟨0, _⟩ => show win0_16.index t (0 : Fin 2) * 16 + 1 * (y 0).val = (y 0).val; omega
  | ⟨1, _⟩ => show win0_16.index t (1 : Fin 2) * 1024 + 1 * (y 1).val = (y 1).val; omega

/-- A read of one slab of the down-projection stack at local (0, k, d) is the stack at (slab, k, d). -/
theorem slabB_idx (off : Fin 3 → Nat) (a : Fin 8) (hoff : off = ![a.val, 0, 0]) (inb : ∀ x, off x + S1x32x1024.size x ≤ S8x32x1024.size x)
    (k : Fin 32) (d : Fin 1024) :
    (Rect.unit (s := S8x32x1024) off S1x32x1024.size inb).toLoadRect.idx (ix3 0 k d) = ix3 a k d := by
  subst hoff
  funext x; apply Fin.ext
  match x with
  | ⟨0, _⟩ => show a.val + 1 * 0 = a.val; omega
  | ⟨1, _⟩ => show 0 + 1 * k.val = k.val; omega
  | ⟨2, _⟩ => show 0 + 1 * d.val = d.val; omega

/-- A read of one slab of the up-projection stack at local (0, o, k) is the stack at (slab, o, k). -/
theorem slabA_idx (off : Fin 3 → Nat) (a : Fin 8) (hoff : off = ![a.val, 0, 0]) (inb : ∀ x, off x + S1x1024x32.size x ≤ S8x1024x32.size x)
    (o : Fin 1024) (k : Fin 32) :
    (Rect.unit (s := S8x1024x32) off S1x1024x32.size inb).toLoadRect.idx (ix3 0 o k) = ix3 a o k := by
  subst hoff
  funext x; apply Fin.ext
  match x with
  | ⟨0, _⟩ => show a.val + 1 * 0 = a.val; omega
  | ⟨1, _⟩ => show 0 + 1 * o.val = o.val; omega
  | ⟨2, _⟩ => show 0 + 1 * k.val = k.val; omega

/-- Local (0, s, o) of the result's block t is (t, s, o) of the result. -/
theorem out_emb (t : Fin cfg0.N) (ht : t.val < 16) (s : Fin 2048) (o : Fin 1024) :
    ((cfg0.win 17).blk t).view.emb (ix3 0 s o) = ix3 ⟨t.val, ht⟩ s o := by
  obtain ⟨e0, e1, e2⟩ := idx_out t
  funext a; apply Fin.ext
  match a with
  | ⟨0, _⟩ => show win0_17.index t (0 : Fin 3) * 1 + 1 * 0 = t.val; omega
  | ⟨1, _⟩ => show win0_17.index t (1 : Fin 3) * 2048 + 1 * s.val = s.val; omega
  | ⟨2, _⟩ => show win0_17.index t (2 : Fin 3) * 1024 + 1 * o.val = o.val; omega

/-- An index of the result is in point t's block iff each coordinate is in the block's range on its axis. -/
theorem mem_blk_out (t : Fin cfg0.N) (i : S16x2048x1024.Idx) :
    i ∈ ((cfg0.win 17).blk t).view.set ↔ ∀ a : Fin 3, win0_17.index t a * S1x2048x1024.size a ≤ (i a).val ∧ (i a).val < win0_17.index t a * S1x2048x1024.size a + S1x2048x1024.size a := by
  show i ∈ ((View.whole main_v0).slice (win0_17.rect t)).set ↔ _
  rw [View.set_slice_whole, Rect.mem_set_unit]
  exact Iff.rfl

/-- The sixteen result blocks cover the result: index (b, s, o) is in block b. -/
theorem cover_out (i : S16x2048x1024.Idx) :
    ∃ t : Fin cfg0.N, (cfg0.win 17).flush t = true ∧ i ∈ ((cfg0.win 17).blk t).view.set := by
  have hi0 : (i 0).val < 16 := (i 0).isLt
  have hi1 : (i 1).val < 2048 := (i 1).isLt
  have hi2 : (i 2).val < 1024 := (i 2).isLt
  refine ⟨⟨(i 0).val, by rw [show cfg0.N = 16 from N_0]; exact hi0⟩, flush0_17 _, ?_⟩
  rw [mem_blk_out]
  obtain ⟨e0, e1, e2⟩ := idx_out ⟨(i 0).val, by rw [show cfg0.N = 16 from N_0]; exact hi0⟩
  intro a
  match a with
  | ⟨0, _⟩ => show win0_17.index _ (0 : Fin 3) * 1 ≤ (i 0).val ∧ (i 0).val < win0_17.index _ (0 : Fin 3) * 1 + 1; simp only [e0]; omega
  | ⟨1, _⟩ => show win0_17.index _ (1 : Fin 3) * 2048 ≤ (i 1).val ∧ (i 1).val < win0_17.index _ (1 : Fin 3) * 2048 + 2048; simp only [e1]; omega
  | ⟨2, _⟩ => show win0_17.index _ (2 : Fin 3) * 1024 ≤ (i 2).val ∧ (i 2).val < win0_17.index _ (2 : Fin 3) * 1024 + 1024; simp only [e2]; omega

end Cert.KernelIdeal.KValue

end
-- ==== Proof.KiPayload.lean ====
/-
  The kernel's result block read at one index.

  The block stored at a grid point is computed from the loaded slab of x (2048 rows of 1024 features, under a leading unit
  axis), the loaded slab of padded down-projections (32 rows of 1024 features) and the loaded slab of padded, scaled
  up-projections (1024 rows of 32 columns): first t(s, k) = Σ_d x(s, d) · B(k, d), then y(s, o) = Σ_k t(s, k) · A(o, k).
  Both products contract the SECOND axis of both operands and accumulate into zero; at the ideal values a change of float
  format is the identity, so the block at (0, s, o) is the double sum, with nothing else in it.
-/
import proofs.«174516_g44933947850968_cont_8to1_c_774_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- A matrix product of an m×k by an n×k matrix that contracts the second axis of BOTH operands, accumulated into the
    zero splat and read at (a, b), is Σ_c A(a, c) · B(b, c). At the ideal values. `w` is the well-formedness of the
    dimension numbers, which a program states. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The stored block at (0, s, o): the two contractions, one inside the other. -/
theorem pay5_apply (x0 : Vec Ideal S1x2048x1024 .f32) (v17 : Vec Ideal S1x32x1024 .bf16) (v22 : Vec Ideal S1x1024x32 .bf16)
    (s : Fin 2048) (o : Fin 1024) :
    k0_pay5 (F := Ideal) x0 v17 v22 (ix3 0 s o)
      = ∑ k : Fin 32, (∑ d : Fin 1024, x0 (ix3 0 s d) * v17 (ix3 0 k d)) * v22 (ix3 0 o k) := by
  unfold k0_pay5
  refine (shapeCast_ab_1ab_apply _ _ 0 s o).trans ?_
  refine (matmul_nt_zero_apply _ none _ _ s o).trans ?_
  refine Finset.sum_congr rfl fun k _ => ?_
  refine congrArg₂ (· * ·) ?_ ?_
  · refine (truncf_apply (ψ := .bf16) _ bitsLt_bf16_f32 (ix2 s k)).trans ?_
    refine (matmul_nt_zero_apply _ none _ _ s k).trans ?_
    refine Finset.sum_congr rfl fun d _ => ?_
    refine congrArg₂ (· * ·) ?_ ?_
    · refine (truncf_apply (ψ := .bf16) _ bitsLt_bf16_f32 (ix2 s d)).trans ?_
      exact shapeCast_1ab_ab_apply _ _ s d
    · exact shapeCast_1ab_ab_apply _ _ k d
  · exact shapeCast_1ab_ab_apply _ _ o k

end Cert.KernelIdeal.Payload

end
-- ==== Proof.Spec.lean ====
/-
  The mathematics of the multi-adapter low-rank update, stated once, over literal shapes and with no program in sight.

  A batch of 16 sequences x[b] (2048 rows of 1024 features) is served by 8 adapters; sequence b uses adapter b mod 8.
  Adapter a has rank r_a (8, 16, 32, 8, 16, 32, 8, 16), a down-projection B_a : [r_a, 1024], an up-projection
  A_a : [1024, r_a] and the scale 1 / r_a.  The result at (b, s, o) is

      ( Σ_{k < r_a} ( Σ_{d < 1024} x[b,s,d] · B_a[k,d] ) · A_a[o,k] ) · (1 / r_a),     a = b mod 8.

  Two laws of finite sums over the extended reals join the two programs' arrangements of this number:
  a sum over 32 terms whose terms from position r on are zero is the sum of its first r terms, and a
  non-negative REAL factor moves across a finite sum (multiplication by such a factor distributes over
  addition on the extended reals with no finiteness assumption, unlike a general factor).
-/
import Idealize.ShloMosaic.PureOps.Ideal
import Idealize.ShloMosaic.Lib.ValueIdx

noncomputable section

open scoped BigOperators

namespace Cert.Spec

open Idealize.ShloMosaic Idealize.ShloMosaic.ValueIdx

/-! ## The three scales 1/8, 1/16, 1/32, as the float words both programs spell -/

/-- The word both programs spell for 0.125. -/
def c8 : EReal := Ideal.ofBits .f32 0x3E000000#32
/-- The word both programs spell for 0.0625. -/
def c16 : EReal := Ideal.ofBits .f32 0x3D800000#32
/-- The word both programs spell for 0.03125. -/
def c32 : EReal := Ideal.ofBits .f32 0x3D000000#32

theorem c8_eq : c8 = ((1 / 8 : ℝ) : EReal) := by
  unfold c8; simp [Ideal.ofBits, Ideal.ieee, -EReal.coe_mul]; norm_num
theorem c16_eq : c16 = ((1 / 16 : ℝ) : EReal) := by
  unfold c16; simp [Ideal.ofBits, Ideal.ieee, -EReal.coe_mul]; norm_num
theorem c32_eq : c32 = ((1 / 32 : ℝ) : EReal) := by
  unfold c32; simp [Ideal.ofBits, Ideal.ieee, -EReal.coe_mul]; norm_num

/-- The zero word denotes zero. -/
theorem ofBits_zero_f32 : Ideal.ofBits .f32 0x00000000#32 = 0 := by
  simp [Ideal.ofBits, Ideal.ieee]
/-- The bf16 zero word denotes zero. -/
theorem ofBits_zero_bf16 : Ideal.ofBits .bf16 0x0000#16 = 0 := by
  simp [Ideal.ofBits, Ideal.ieee]

/-! ## One adapter's update, and the routed result -/

/-- Adapter (A, B) of rank r and scale c applied to row (b, s) of x, read at output feature o:
    ((Σ_k (Σ_d x[b,s,d] · B[k,d]) · A[o,k])) · c. -/
def loraAt (r : ℕ) (c : EReal) (x : (⟨3, ![16, 2048, 1024]⟩ : Shape).Idx → EReal)
    (A : (⟨2, ![1024, r]⟩ : Shape).Idx → EReal) (B : (⟨2, ![r, 1024]⟩ : Shape).Idx → EReal)
    (b : Fin 16) (s : Fin 2048) (o : Fin 1024) : EReal :=
  (∑ k : Fin r, (∑ d : Fin 1024, x (ix3 b s d) * B (ix2 k d)) * A (ix2 o k)) * c

/-- The routed result at coordinates (b, s, o): sequence b goes through adapter b mod 8. -/
def Gat (x : (⟨3, ![16, 2048, 1024]⟩ : Shape).Idx → EReal)
    (A0 : (⟨2, ![1024, 8]⟩ : Shape).Idx → EReal) (B0 : (⟨2, ![8, 1024]⟩ : Shape).Idx → EReal)
    (A1 : (⟨2, ![1024, 16]⟩ : Shape).Idx → EReal) (B1 : (⟨2, ![16, 1024]⟩ : Shape).Idx → EReal)
    (A2 : (⟨2, ![1024, 32]⟩ : Shape).Idx → EReal) (B2 : (⟨2, ![32, 1024]⟩ : Shape).Idx → EReal)
    (A3 : (⟨2, ![1024, 8]⟩ : Shape).Idx → EReal) (B3 : (⟨2, ![8, 1024]⟩ : Shape).Idx → EReal)
    (A4 : (⟨2, ![1024, 16]⟩ : Shape).Idx → EReal) (B4 : (⟨2, ![16, 1024]⟩ : Shape).Idx → EReal)
    (A5 : (⟨2, ![1024, 32]⟩ : Shape).Idx → EReal) (B5 : (⟨2, ![32, 1024]⟩ : Shape).Idx → EReal)
    (A6 : (⟨2, ![1024, 8]⟩ : Shape).Idx → EReal) (B6 : (⟨2, ![8, 1024]⟩ : Shape).Idx → EReal)
    (A7 : (⟨2, ![1024, 16]⟩ : Shape).Idx → EReal) (B7 : (⟨2, ![16, 1024]⟩ : Shape).Idx → EReal)
    (b : Fin 16) (s : Fin 2048) (o : Fin 1024) : EReal :=
  match b.val % 8 with
  | 0 => loraAt 8 c8 x A0 B0 b s o
  | 1 => loraAt 16 c16 x A1 B1 b s o
  | 2 => loraAt 32 c32 x A2 B2 b s o
  | 3 => loraAt 8 c8 x A3 B3 b s o
  | 4 => loraAt 16 c16 x A4 B4 b s o
  | 5 => loraAt 32 c32 x A5 B5 b s o
  | 6 => loraAt 8 c8 x A6 B6 b s o
  | _ => loraAt 16 c16 x A7 B7 b s o

/-- The routed result as ONE function of the seventeen argument arrays, index by index. -/
def G (x : (⟨3, ![16, 2048, 1024]⟩ : Shape).Idx → EReal)
    (A0 : (⟨2, ![1024, 8]⟩ : Shape).Idx → EReal) (B0 : (⟨2, ![8, 1024]⟩ : Shape).Idx → EReal)
    (A1 : (⟨2, ![1024, 16]⟩ : Shape).Idx → EReal) (B1 : (⟨2, ![16, 1024]⟩ : Shape).Idx → EReal)
    (A2 : (⟨2, ![1024, 32]⟩ : Shape).Idx → EReal) (B2 : (⟨2, ![32, 1024]⟩ : Shape).Idx → EReal)
    (A3 : (⟨2, ![1024, 8]⟩ : Shape).Idx → EReal) (B3 : (⟨2, ![8, 1024]⟩ : Shape).Idx → EReal)
    (A4 : (⟨2, ![1024, 16]⟩ : Shape).Idx → EReal) (B4 : (⟨2, ![16, 1024]⟩ : Shape).Idx → EReal)
    (A5 : (⟨2, ![1024, 32]⟩ : Shape).Idx → EReal) (B5 : (⟨2, ![32, 1024]⟩ : Shape).Idx → EReal)
    (A6 : (⟨2, ![1024, 8]⟩ : Shape).Idx → EReal) (B6 : (⟨2, ![8, 1024]⟩ : Shape).Idx → EReal)
    (A7 : (⟨2, ![1024, 16]⟩ : Shape).Idx → EReal) (B7 : (⟨2, ![16, 1024]⟩ : Shape).Idx → EReal) :
    (⟨3, ![16, 2048, 1024]⟩ : Shape).Idx → EReal :=
  fun i => Gat x A0 B0 A1 B1 A2 B2 A3 B3 A4 B4 A5 B5 A6 B6 A7 B7 (i 0) (i 1) (i 2)

/-! ## Two laws of finite sums on the extended reals -/

/-- A non-negative real factor moves across a finite sum of extended reals. -/
theorem sum_mul_coe {ι : Type} (t : Finset ι) (f : ι → EReal) {c : ℝ} (hc : 0 ≤ c) :
    (∑ k ∈ t, f k * (c : EReal)) = (∑ k ∈ t, f k) * (c : EReal) := by
  classical
  induction t using Finset.induction_on with
  | empty => simp
  | insert a t ha ih =>
    rw [Finset.sum_insert ha, Finset.sum_insert ha, ih,
      EReal.right_distrib_of_nonneg_of_ne_top (EReal.coe_nonneg.mpr hc) (EReal.coe_ne_top c)]

/-- A sum of 32 terms that vanish from position r on is the sum of its first r terms. -/
theorem sum_pad (r : ℕ) (hr : r ≤ 32) (f : Fin 32 → EReal) (h0 : ∀ k : Fin 32, r ≤ k.val → f k = 0) :
    (∑ k : Fin 32, f k) = ∑ k : Fin r, f (Fin.castLE hr k) := by
  classical
  have e : (∑ k : Fin r, f (Fin.castLE hr k)) = ∑ k ∈ Finset.univ.map (Fin.castLEEmb hr), f k := by
    rw [Finset.sum_map]; rfl
  rw [e]
  refine (Finset.sum_subset (Finset.subset_univ _) fun k _ hk => h0 k ?_).symm
  by_contra hlt
  exact hk (Finset.mem_map.mpr ⟨⟨k.val, Nat.lt_of_not_le hlt⟩, Finset.mem_univ _, Fin.ext rfl⟩)

/-! ## The zero-padded stacks, and the update computed from them -/

/-- A down-projection of rank r, zero-padded to 32 rows. -/
def padB (r : ℕ) (B : (⟨2, ![r, 1024]⟩ : Shape).Idx → EReal) (k : Fin 32) (d : Fin 1024) : EReal :=
  if h : k.val < r then B (ix2 ⟨k.val, h⟩ d) else 0

/-- An up-projection of rank r scaled by c, zero-padded to 32 columns. -/
def padA (r : ℕ) (c : EReal) (A : (⟨2, ![1024, r]⟩ : Shape).Idx → EReal) (o : Fin 1024) (k : Fin 32) : EReal :=
  if h : k.val < r then A (ix2 o ⟨k.val, h⟩) * c else 0

/-- Slab a of the stack of padded down-projections (the B arrays in adapter order). -/
def stackB (B0 : (⟨2, ![8, 1024]⟩ : Shape).Idx → EReal) (B1 : (⟨2, ![16, 1024]⟩ : Shape).Idx → EReal)
    (B2 : (⟨2, ![32, 1024]⟩ : Shape).Idx → EReal) (B3 : (⟨2, ![8, 1024]⟩ : Shape).Idx → EReal)
    (B4 : (⟨2, ![16, 1024]⟩ : Shape).Idx → EReal) (B5 : (⟨2, ![32, 1024]⟩ : Shape).Idx → EReal)
    (B6 : (⟨2, ![8, 1024]⟩ : Shape).Idx → EReal) (B7 : (⟨2, ![16, 1024]⟩ : Shape).Idx → EReal)
    (a : Fin 8) (k : Fin 32) (d : Fin 1024) : EReal :=
  match a with
  | 0 => padB 8 B0 k d
  | 1 => padB 16 B1 k d
  | 2 => padB 32 B2 k d
  | 3 => padB 8 B3 k d
  | 4 => padB 16 B4 k d
  | 5 => padB 32 B5 k d
  | 6 => padB 8 B6 k d
  | 7 => padB 16 B7 k d

/-- Slab a of the stack of padded, scaled up-projections (the A arrays in adapter order). -/
def stackA (A0 : (⟨2, ![1024, 8]⟩ : Shape).Idx → EReal) (A1 : (⟨2, ![1024, 16]⟩ : Shape).Idx → EReal)
    (A2 : (⟨2, ![1024, 32]⟩ : Shape).Idx → EReal) (A3 : (⟨2, ![1024, 8]⟩ : Shape).Idx → EReal)
    (A4 : (⟨2, ![1024, 16]⟩ : Shape).Idx → EReal) (A5 : (⟨2, ![1024, 32]⟩ : Shape).Idx → EReal)
    (A6 : (⟨2, ![1024, 8]⟩ : Shape).Idx → EReal) (A7 : (⟨2, ![1024, 16]⟩ : Shape).Idx → EReal)
    (a : Fin 8) (o : Fin 1024) (k : Fin 32) : EReal :=
  match a with
  | 0 => padA 8 c8 A0 o k
  | 1 => padA 16 c16 A1 o k
  | 2 => padA 32 c32 A2 o k
  | 3 => padA 8 c8 A3 o k
  | 4 => padA 16 c16 A4 o k
  | 5 => padA 32 c32 A5 o k
  | 6 => padA 8 c8 A6 o k
  | 7 => padA 16 c16 A7 o k

/-- The two contractions against the padded pieces are the adapter's update: the padded terms vanish, and the
    scale (a non-negative real) moves out of the sum over the rank. -/
theorem padded_eq (r : ℕ) (hr : r ≤ 32) (c : EReal) {cr : ℝ} (hcr : 0 ≤ cr) (hc : c = (cr : EReal))
    (x : (⟨3, ![16, 2048, 1024]⟩ : Shape).Idx → EReal)
    (A : (⟨2, ![1024, r]⟩ : Shape).Idx → EReal) (B : (⟨2, ![r, 1024]⟩ : Shape).Idx → EReal)
    (b : Fin 16) (s : Fin 2048) (o : Fin 1024) :
    (∑ k : Fin 32, (∑ d : Fin 1024, x (ix3 b s d) * padB r B k d) * padA r c A o k) = loraAt r c x A B b s o := by
  rw [sum_pad r hr _ (fun k hk => by
    have : ¬ k.val < r := Nat.not_lt.mpr hk
    simp only [padA, dif_neg this, mul_zero])]
  unfold loraAt
  subst hc
  rw [← sum_mul_coe Finset.univ _ hcr]
  refine Finset.sum_congr rfl fun k _ => ?_
  have hk : (Fin.castLE hr k).val < r := k.isLt
  simp only [padA, padB, dif_pos hk]
  rw [mul_assoc]
  rfl

end Cert.Spec

end
-- ==== Proof.SpecRouting.lean ====
/-
  Routing: the routed result is the double contraction against ONE slab of each padded stack.

  Sequence b is served by adapter b mod 8.  Slab a of the stack of padded down-projections holds B_a with zero
  rows below it, slab a of the stack of padded up-projections holds A_a · (1/r_a) with zero columns beside it; so
  contracting row (b, s) of x with slab b mod 8 of the first stack over the 1024 features, and the result with
  slab b mod 8 of the second over the 32 padded ranks, gives the routed result at (b, s, o).
-/
import proofs.«174516_g44933947850968_cont_8to1_c_774_16_alg».proof.Proof.Spec

noncomputable section

open scoped BigOperators

namespace Cert.Spec

open Idealize.ShloMosaic Idealize.ShloMosaic.ValueIdx

/-- The routed result at (b, s, o) is the double contraction of row (b, s) of x against slab b mod 8 of the two
    padded stacks: sequence b's adapter is b mod 8, and its padded terms vanish (`padded_eq`). -/
theorem Gat_eq_stacks (x : (⟨3, ![16, 2048, 1024]⟩ : Shape).Idx → EReal)
    (A0 : (⟨2, ![1024, 8]⟩ : Shape).Idx → EReal) (B0 : (⟨2, ![8, 1024]⟩ : Shape).Idx → EReal)
    (A1 : (⟨2, ![1024, 16]⟩ : Shape).Idx → EReal) (B1 : (⟨2, ![16, 1024]⟩ : Shape).Idx → EReal)
    (A2 : (⟨2, ![1024, 32]⟩ : Shape).Idx → EReal) (B2 : (⟨2, ![32, 1024]⟩ : Shape).Idx → EReal)
    (A3 : (⟨2, ![1024, 8]⟩ : Shape).Idx → EReal) (B3 : (⟨2, ![8, 1024]⟩ : Shape).Idx → EReal)
    (A4 : (⟨2, ![1024, 16]⟩ : Shape).Idx → EReal) (B4 : (⟨2, ![16, 1024]⟩ : Shape).Idx → EReal)
    (A5 : (⟨2, ![1024, 32]⟩ : Shape).Idx → EReal) (B5 : (⟨2, ![32, 1024]⟩ : Shape).Idx → EReal)
    (A6 : (⟨2, ![1024, 8]⟩ : Shape).Idx → EReal) (B6 : (⟨2, ![8, 1024]⟩ : Shape).Idx → EReal)
    (A7 : (⟨2, ![1024, 16]⟩ : Shape).Idx → EReal) (B7 : (⟨2, ![16, 1024]⟩ : Shape).Idx → EReal)
    (b : Fin 16) (s : Fin 2048) (o : Fin 1024) (a : Fin 8) (ha : b.val % 8 = a.val) :
    Gat x A0 B0 A1 B1 A2 B2 A3 B3 A4 B4 A5 B5 A6 B6 A7 B7 b s o
      = ∑ k : Fin 32, (∑ d : Fin 1024, x (ix3 b s d) * stackB B0 B1 B2 B3 B4 B5 B6 B7 a k d)
          * stackA A0 A1 A2 A3 A4 A5 A6 A7 a o k :=
  match a, ha with
  | ⟨0, _⟩, ha => by
    unfold Gat
    rw [show b.val % 8 = 0 from ha]
    exact (padded_eq 8 (by norm_num) c8 (by norm_num) c8_eq x A0 B0 b s o).symm
  | ⟨1, _⟩, ha => by
    unfold Gat
    rw [show b.val % 8 = 1 from ha]
    exact (padded_eq 16 (by norm_num) c16 (by norm_num) c16_eq x A1 B1 b s o).symm
  | ⟨2, _⟩, ha => by
    unfold Gat
    rw [show b.val % 8 = 2 from ha]
    exact (padded_eq 32 (by norm_num) c32 (by norm_num) c32_eq x A2 B2 b s o).symm
  | ⟨3, _⟩, ha => by
    unfold Gat
    rw [show b.val % 8 = 3 from ha]
    exact (padded_eq 8 (by norm_num) c8 (by norm_num) c8_eq x A3 B3 b s o).symm
  | ⟨4, _⟩, ha => by
    unfold Gat
    rw [show b.val % 8 = 4 from ha]
    exact (padded_eq 16 (by norm_num) c16 (by norm_num) c16_eq x A4 B4 b s o).symm
  | ⟨5, _⟩, ha => by
    unfold Gat
    rw [show b.val % 8 = 5 from ha]
    exact (padded_eq 32 (by norm_num) c32 (by norm_num) c32_eq x A5 B5 b s o).symm
  | ⟨6, _⟩, ha => by
    unfold Gat
    rw [show b.val % 8 = 6 from ha]
    exact (padded_eq 8 (by norm_num) c8 (by norm_num) c8_eq x A6 B6 b s o).symm
  | ⟨7, _⟩, ha => by
    unfold Gat
    rw [show b.val % 8 = 7 from ha]
    exact (padded_eq 16 (by norm_num) c16 (by norm_num) c16_eq x A7 B7 b s o).symm
  | ⟨n + 8, h⟩, _ => absurd h (Nat.not_lt.2 (Nat.le_add_left _ _))

end Cert.Spec

end
-- ==== Proof.LibSlabPiece.lean ====
/-
  One piece of a slab stack, met by an index.

  A scratch stack of shape [n0, n1, n2] is written slab by slab: a piece sits at offsets (a0, 0, 0) with sizes
  (1, m1, m2).  The index (a, p, q) lies under the piece exactly when a = a0, p < m1 and q < m2, and then it reads the
  piece's payload at the local index (0, p, q); otherwise the piece is passed over and the index reads the earlier writes.
-/
import Idealize.ShloMosaic.Lib.ValueIdx
import Idealize.ShloMosaic.Lib.Pipeline.Value

noncomputable section

namespace Cert.KernelIdeal.Stacks

open Idealize.ShloMosaic Idealize.ShloMosaic.ValueIdx

section Slab

variable {Val : EltTy → Type} [∀ e, Nonempty (Val e)] {e : EltTy} {n0 n1 n2 : ℕ}

/-- An index outside a slab piece (another slab, or beyond the piece's extent on one of the two inner axes) reads
    the earlier writes. -/
theorem canon_slab_skip (a0 m1 m2 : ℕ)
    (inb : ∀ ax, (![a0, 0, 0] : Fin 3 → ℕ) ax + (![1, m1, m2] : Fin 3 → ℕ) ax ≤ (⟨3, ![n0, n1, n2]⟩ : Shape).size ax)
    (w : (⟨3, ![1, m1, m2]⟩ : Shape).Idx → Val e) (L : List (View.Piece Val ⟨3, ![n0, n1, n2]⟩ e))
    (a : Fin n0) (p : Fin n1) (q : Fin n2) (h : a.val ≠ a0 ∨ m1 ≤ p.val ∨ m2 ≤ q.val) :
    View.canon ((⟨Rect.unit ![a0, 0, 0] ![1, m1, m2] inb, w⟩ : View.Piece Val ⟨3, ![n0, n1, n2]⟩ e) :: L) (ix3 a p q)
      = View.canon L (ix3 a p q) := by
  refine View.canon_cons_of_not_mem _ L ?_
  show ix3 a p q ∉ (Rect.unit ![a0, 0, 0] ![1, m1, m2] inb).set
  rw [Rect.mem_set_unit]
  intro hm
  have h0 : a0 ≤ a.val ∧ a.val < a0 + 1 := hm ⟨0, Nat.succ_pos 2⟩
  have h1 : 0 ≤ p.val ∧ p.val < 0 + m1 := hm ⟨1, Nat.succ_lt_succ (Nat.succ_pos 1)⟩
  have h2 : 0 ≤ q.val ∧ q.val < 0 + m2 := hm ⟨2, Nat.lt_succ_self 2⟩
  omega

/-- An index under a slab piece reads the piece's payload at its local index. -/
theorem canon_slab_hit (a0 m1 m2 : ℕ)
    (inb : ∀ ax, (![a0, 0, 0] : Fin 3 → ℕ) ax + (![1, m1, m2] : Fin 3 → ℕ) ax ≤ (⟨3, ![n0, n1, n2]⟩ : Shape).size ax)
    (w : (⟨3, ![1, m1, m2]⟩ : Shape).Idx → Val e) (L : List (View.Piece Val ⟨3, ![n0, n1, n2]⟩ e))
    (a : Fin n0) (p : Fin n1) (q : Fin n2) (ha : a.val = a0) (hp : p.val < m1) (hq : q.val < m2) :
    View.canon ((⟨Rect.unit ![a0, 0, 0] ![1, m1, m2] inb, w⟩ : View.Piece Val ⟨3, ![n0, n1, n2]⟩ e) :: L) (ix3 a p q)
      = w (ix3 (0 : Fin 1) ⟨p.val, hp⟩ ⟨q.val, hq⟩) := by
  have e : ix3 a p q = (Rect.unit ![a0, 0, 0] ![1, m1, m2] inb).emb (ix3 (0 : Fin 1) (⟨p.val, hp⟩ : Fin m1) (⟨q.val, hq⟩ : Fin m2)) := by
    funext ax
    apply Fin.ext
    match ax with
    | ⟨0, _⟩ => show a.val = a0 + 1 * 0; omega
    | ⟨1, _⟩ => show p.val = 0 + 1 * p.val; omega
    | ⟨2, _⟩ => show q.val = 0 + 1 * q.val; omega
  rw [e]
  exact View.canon_cons_emb (Rect.unit ![a0, 0, 0] ![1, m1, m2] inb) w L _

end Slab

end Cert.KernelIdeal.Stacks

end
-- ==== Proof.KiStacks.lean ====
/-
  The stack of down-projections after the first grid point, read at an index.

  At the first grid point the kernel zero-fills the scratch stack of shape [8, 32, 1024] and then stores, for each
  adapter a = 0, …, 7 in turn, the down-projection B_a : [r_a, 1024] into rows 0 … r_a − 1 of slab a (ranks
  8, 16, 32, 8, 16, 32, 8, 16; the narrowing of the stored values to bf16 is the identity on extended reals).  What
  the stack then holds at (a, k, d) is the payload of the first written piece, latest store first, whose rectangle
  holds the index: a piece of another slab never does; slab a's own piece does exactly when k < r_a, and there it reads
  B_a[k, d]; otherwise the index reads the zero fill.  So the stack is the zero-padded stack of the specification.
-/
import proofs.«174516_g44933947850968_cont_8to1_c_774_16_alg».proof.Proof.KiRunA
import proofs.«174516_g44933947850968_cont_8to1_c_774_16_alg».proof.Proof.Spec
import proofs.«174516_g44933947850968_cont_8to1_c_774_16_alg».proof.Proof.LibSlabPiece
import Idealize.ShloMosaic.Lib.ValueIdx
import Idealize.ShloMosaic.Lib.Pipeline.Value
import Idealize.ShloMosaic.Lib.ValueLayout

noncomputable section

namespace Cert.KernelIdeal.Stacks

open Idealize.ShloMosaic Idealize.ShloMosaic.ValueIdx Cert.KernelIdeal Cert.KernelIdeal.Gen Cert.KernelIdeal.Body

/-! ## What a stored piece of the down-projection stack holds -/

/-- A load of a whole buffer through the rectangle of all its indices reads the buffer's contents. -/
theorem readAt_whole {sg : RefSig} {κ : Kind} {sp : Space} {S : Shape} {e : EltTy} {Val : EltTy → Type}
    (m : Memref sg κ sp S e) (hm : m.IsWhole) {off : Fin S.rank → ℕ} (h0 : off = fun _ => 0)
    (inb : ∀ a, off a + S.size a ≤ S.size a) (x : S.Idx → Val e) :
    View.readAt Val m.view (Rect.unit off S.size inb).toLoadRect (hm.unread x) = x := by
  rw [View.readAt_eq_ld, Memref.IsWhole.read_unread, View.ld_unit_zero h0]

/-- The offsets (0, 0) are the zero offsets. -/
theorem off2_zero : (![0, 0] : Fin 2 → ℕ) = fun _ => 0 := by
  funext a; match a with | ⟨0, _⟩ => rfl | ⟨1, _⟩ => rfl

/-- The offsets (0, 0, 0) are the zero offsets. -/
theorem off3_zero : (![0, 0, 0] : Fin 3 → ℕ) = fun _ => 0 := by
  funext a; match a with | ⟨0, _⟩ => rfl | ⟨1, _⟩ => rfl | ⟨2, _⟩ => rfl

/-- A down-projection X : [r, 1024], narrowed (the identity on extended reals) and given a leading unit axis, reads
    X[k, d] at (0, k, d). -/
theorem narrowed_slab_apply (r : ℕ) (X : FVec Ideal ⟨2, ![r, 1024]⟩ .f32) (hb : FTy.bf16.bits < FTy.f32.bits)
    (hc : (⟨2, ![r, 1024]⟩ : Shape).ShapeCasts ⟨3, ![1, r, 1024]⟩) (k : Fin r) (d : Fin 1024) :
    shapeCast ⟨3, ![1, r, 1024]⟩ (truncf .bf16 X hb) hc (ix3 (0 : Fin 1) k d) = X (ix2 k d) := by
  refine (shapeCast_addUnit_apply ![r, 1024] _ hc _).trans ?_
  refine (truncf_apply X hb _).trans ?_
  refine congrArg X ?_
  funext ax
  match ax with
  | ⟨0, _⟩ => rfl
  | ⟨1, _⟩ => rfl

/-- The zero fill of the stack reads zero everywhere. -/
theorem zero_fill_apply (inb : ∀ a, (![0, 0, 0] : Fin 3 → ℕ) a + S8x32x1024.size a ≤ S8x32x1024.size a) (y : S8x32x1024.Idx) :
    View.canon [(⟨Rect.unit ![0, 0, 0] S8x32x1024.size inb, k0_pay6 (F := Ideal)⟩ : View.Piece (Elt Ideal) S8x32x1024 .bf16)] y
      = (0 : EReal) := by
  rw [View.canon_unit_zero off3_zero inb]
  unfold k0_pay6
  rw [shapeCast_self]
  exact Cert.Spec.ofBits_zero_bf16

/-- The stored piece of an adapter's slab, read at (0, k, d): the adapter's down-projection at (k, d). -/
theorem slab_payload_apply {sg : RefSig} {κ : Kind} {sp : Space} (r : ℕ)
    (m : Memref sg κ sp ⟨2, ![r, 1024]⟩ .f32) (hm : m.IsWhole)
    (inb : ∀ a, (![0, 0] : Fin 2 → ℕ) a + (⟨2, ![r, 1024]⟩ : Shape).size a ≤ (⟨2, ![r, 1024]⟩ : Shape).size a)
    (hb : FTy.bf16.bits < FTy.f32.bits) (hc : (⟨2, ![r, 1024]⟩ : Shape).ShapeCasts ⟨3, ![1, r, 1024]⟩)
    (x : Vec Ideal ⟨2, ![r, 1024]⟩ .f32) (k : Fin r) (d : Fin 1024) :
    shapeCast ⟨3, ![1, r, 1024]⟩
        (truncf (F := Ideal) (φ := .f32) .bf16 (View.readAt (Elt Ideal) m.view (Rect.unit ![0, 0] (⟨2, ![r, 1024]⟩ : Shape).size inb).toLoadRect (hm.unread x)) hb)
        hc (ix3 (0 : Fin 1) k d)
      = x (ix2 k d) := by
  rw [readAt_whole m hm off2_zero inb x]
  exact narrowed_slab_apply r x hb hc k d

/-- An adapter's own slab: rows below the rank read the down-projection, the rows from the rank on read what was
    there before the slab was stored; when that is zero, the slab reads as the zero-padded down-projection. -/
theorem own_slab (a0 r : ℕ)
    (inb : ∀ ax, (![a0, 0, 0] : Fin 3 → ℕ) ax + (![1, r, 1024] : Fin 3 → ℕ) ax ≤ S8x32x1024.size ax)
    (w : (⟨3, ![1, r, 1024]⟩ : Shape).Idx → Elt Ideal .bf16) (L : List (View.Piece (Elt Ideal) S8x32x1024 .bf16))
    (B : (⟨2, ![r, 1024]⟩ : Shape).Idx → EReal) (a : Fin 8) (k : Fin 32) (d : Fin 1024) (ha : a.val = a0)
    (hw : ∀ (k' : Fin r) (d' : Fin 1024), w (ix3 (0 : Fin 1) k' d') = B (ix2 k' d'))
    (hL : View.canon L (ix3 a k d) = (0 : EReal)) :
    View.canon ((⟨Rect.unit ![a0, 0, 0] ![1, r, 1024] inb, w⟩ : View.Piece (Elt Ideal) S8x32x1024 .bf16) :: L) (ix3 a k d)
      = Cert.Spec.padB r B k d := by
  by_cases hk : k.val < r
  · refine (canon_slab_hit a0 r 1024 inb w L a k d ha hk d.isLt).trans ?_
    rw [Cert.Spec.padB, dif_pos hk]
    exact hw ⟨k.val, hk⟩ ⟨d.val, d.isLt⟩
  · refine (canon_slab_skip a0 r 1024 inb w L a k d (Or.inr (Or.inl (Nat.le_of_not_lt hk)))).trans ?_
    rw [Cert.Spec.padB, dif_neg hk]
    exact hL

/-! ## The down-projection stack after the first grid point

The stack is zero-filled, then adapter a's down-projection (r_a rows) is stored at the top of slab a, for
a = 0, …, 7 in turn.  An index (a, k, d) is passed over by every piece of another slab; slab a's own piece holds it
exactly when k is below the rank r_a, and then reads B_a[k, d]; from the rank on, the index reads the zero fill. -/

section Down

variable (c : Dev nD) (arg3 : Memref sig .tc .vmem S8x1024 .f32) (harg3 : arg3.IsWhole) (arg5 : Memref sig .tc .vmem S16x1024 .f32) (harg5 : arg5.IsWhole) (arg7 : Memref sig .tc .vmem S32x1024 .f32) (harg7 : arg7.IsWhole) (arg9 : Memref sig .tc .vmem S8x1024 .f32) (harg9 : arg9.IsWhole) (arg11 : Memref sig .tc .vmem S16x1024 .f32) (harg11 : arg11.IsWhole) (arg13 : Memref sig .tc .vmem S32x1024 .f32) (harg13 : arg13.IsWhole) (arg15 : Memref sig .tc .vmem S8x1024 .f32) (harg15 : arg15.IsWhole) (arg17 : Memref sig .tc .vmem S16x1024 .f32) (harg17 : arg17.IsWhole)
    (x2 : Vec Ideal S8x1024 .f32) (x4 : Vec Ideal S16x1024 .f32) (x6 : Vec Ideal S32x1024 .f32) (x8 : Vec Ideal S8x1024 .f32) (x10 : Vec Ideal S16x1024 .f32) (x12 : Vec Ideal S32x1024 .f32) (x14 : Vec Ideal S8x1024 .f32) (x16 : Vec Ideal S16x1024 .f32)

/-- Passing over a piece that lies in another slab. -/
local macro "skip_other" : tactic =>
  `(tactic| refine (canon_slab_skip _ _ _ _ _ _ _ _ _ (Or.inl (by omega))).trans ?_)

/-- Slab 0 holds adapter 0's down-projection (rank 8), zero-padded to 32 rows. -/
theorem bs_slab0 (a : Fin 8) (ha : a.val = 0) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 8 x2 k d := by
  unfold kernelRunA.sl.HS0_9 kernelRunA.sl.r_2
  repeat skip_other
  refine own_slab 0 8 _ _ _ x2 a k d ha ?hw ?hL
  case hL =>
    repeat skip_other
    exact zero_fill_apply _ _
  case hw =>
    intro k' d'
    exact slab_payload_apply 8 arg3 harg3 _ _ _ x2 k' d'

/-- Slab 1 holds adapter 1's down-projection (rank 16), zero-padded to 32 rows. -/
theorem bs_slab1 (a : Fin 8) (ha : a.val = 1) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 16 x4 k d := by
  unfold kernelRunA.sl.HS0_9 kernelRunA.sl.r_2
  repeat skip_other
  refine own_slab 1 16 _ _ _ x4 a k d ha ?hw ?hL
  case hL =>
    repeat skip_other
    exact zero_fill_apply _ _
  case hw =>
    intro k' d'
    exact slab_payload_apply 16 arg5 harg5 _ _ _ x4 k' d'

/-- Slab 2 holds adapter 2's down-projection (rank 32), zero-padded to 32 rows. -/
theorem bs_slab2 (a : Fin 8) (ha : a.val = 2) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 32 x6 k d := by
  unfold kernelRunA.sl.HS0_9 kernelRunA.sl.r_2
  repeat skip_other
  refine own_slab 2 32 _ _ _ x6 a k d ha ?hw ?hL
  case hL =>
    repeat skip_other
    exact zero_fill_apply _ _
  case hw =>
    intro k' d'
    exact slab_payload_apply 32 arg7 harg7 _ _ _ x6 k' d'

/-- Slab 3 holds adapter 3's down-projection (rank 8), zero-padded to 32 rows. -/
theorem bs_slab3 (a : Fin 8) (ha : a.val = 3) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 8 x8 k d := by
  unfold kernelRunA.sl.HS0_9 kernelRunA.sl.r_2
  repeat skip_other
  refine own_slab 3 8 _ _ _ x8 a k d ha ?hw ?hL
  case hL =>
    repeat skip_other
    exact zero_fill_apply _ _
  case hw =>
    intro k' d'
    exact slab_payload_apply 8 arg9 harg9 _ _ _ x8 k' d'

/-- Slab 4 holds adapter 4's down-projection (rank 16), zero-padded to 32 rows. -/
theorem bs_slab4 (a : Fin 8) (ha : a.val = 4) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 16 x10 k d := by
  unfold kernelRunA.sl.HS0_9 kernelRunA.sl.r_2
  repeat skip_other
  refine own_slab 4 16 _ _ _ x10 a k d ha ?hw ?hL
  case hL =>
    repeat skip_other
    exact zero_fill_apply _ _
  case hw =>
    intro k' d'
    exact slab_payload_apply 16 arg11 harg11 _ _ _ x10 k' d'

/-- Slab 5 holds adapter 5's down-projection (rank 32), zero-padded to 32 rows. -/
theorem bs_slab5 (a : Fin 8) (ha : a.val = 5) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 32 x12 k d := by
  unfold kernelRunA.sl.HS0_9 kernelRunA.sl.r_2
  repeat skip_other
  refine own_slab 5 32 _ _ _ x12 a k d ha ?hw ?hL
  case hL =>
    repeat skip_other
    exact zero_fill_apply _ _
  case hw =>
    intro k' d'
    exact slab_payload_apply 32 arg13 harg13 _ _ _ x12 k' d'

/-- Slab 6 holds adapter 6's down-projection (rank 8), zero-padded to 32 rows. -/
theorem bs_slab6 (a : Fin 8) (ha : a.val = 6) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 8 x14 k d := by
  unfold kernelRunA.sl.HS0_9 kernelRunA.sl.r_2
  repeat skip_other
  refine own_slab 6 8 _ _ _ x14 a k d ha ?hw ?hL
  case hL =>
    repeat skip_other
    exact zero_fill_apply _ _
  case hw =>
    intro k' d'
    exact slab_payload_apply 8 arg15 harg15 _ _ _ x14 k' d'

/-- Slab 7 holds adapter 7's down-projection (rank 16), zero-padded to 32 rows. -/
theorem bs_slab7 (a : Fin 8) (ha : a.val = 7) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.padB 16 x16 k d := by
  unfold kernelRunA.sl.HS0_9 kernelRunA.sl.r_2
  repeat skip_other
  refine own_slab 7 16 _ _ _ x16 a k d ha ?hw ?hL
  case hL =>
    repeat skip_other
    exact zero_fill_apply _ _
  case hw =>
    intro k' d'
    exact slab_payload_apply 16 arg17 harg17 _ _ _ x16 k' d'

/-- The stack of down-projections, read at (a, k, d): row k of slab a is row k of B_a below the rank, and zero
    from the rank on. -/
theorem bs_apply (a : Fin 8) (k : Fin 32) (d : Fin 1024) :
    View.canon (kernelRunA.sl.HS0_9 (F := Ideal) c arg3 harg3 arg5 harg5 arg7 harg7 arg9 harg9 arg11 harg11 arg13 harg13 arg15 harg15 arg17 harg17 x2 x4 x6 x8 x10 x12 x14 x16) (ix3 a k d)
      = Cert.Spec.stackB x2 x4 x6 x8 x10 x12 x14 x16 a k d :=
  match a with
  | ⟨0, h⟩ => bs_slab0 c arg3 harg3 arg5 harg5 arg7 harg7 arg9 harg9 arg11 harg11 arg13 harg13 arg15 harg15 arg17 harg17 x2 x4 x6 x8 x10 x12 x14 x16 ⟨0, h⟩ rfl k d
  | ⟨1, h⟩ => bs_slab1 c arg3 harg3 arg5 harg5 arg7 harg7 arg9 harg9 arg11 harg11 arg13 harg13 arg15 harg15 arg17 harg17 x2 x4 x6 x8 x10 x12 x14 x16 ⟨1, h⟩ rfl k d
  | ⟨2, h⟩ => bs_slab2 c arg3 harg3 arg5 harg5 arg7 harg7 arg9 harg9 arg11 harg11 arg13 harg13 arg15 harg15 arg17 harg17 x2 x4 x6 x8 x10 x12 x14 x16 ⟨2, h⟩ rfl k d
  | ⟨3, h⟩ => bs_slab3 c arg3 harg3 arg5 harg5 arg7 harg7 arg9 harg9 arg11 harg11 arg13 harg13 arg15 harg15 arg17 harg17 x2 x4 x6 x8 x10 x12 x14 x16 ⟨3, h⟩ rfl k d
  | ⟨4, h⟩ => bs_slab4 c arg3 harg3 arg5 harg5 arg7 harg7 arg9 harg9 arg11 harg11 arg13 harg13 arg15 harg15 arg17 harg17 x2 x4 x6 x8 x10 x12 x14 x16 ⟨4, h⟩ rfl k d
  | ⟨5, h⟩ => bs_slab5 c arg3 harg3 arg5 harg5 arg7 harg7 arg9 harg9 arg11 harg11 arg13 harg13 arg15 harg15 arg17 harg17 x2 x4 x6 x8 x10 x12 x14 x16 ⟨5, h⟩ rfl k d
  | ⟨6, h⟩ => bs_slab6 c arg3 harg3 arg5 harg5 arg7 harg7 arg9 harg9 arg11 harg11 arg13 harg13 arg15 harg15 arg17 harg17 x2 x4 x6 x8 x10 x12 x14 x16 ⟨6, h⟩ rfl k d
  | ⟨7, h⟩ => bs_slab7 c arg3 harg3 arg5 harg5 arg7 harg7 arg9 harg9 arg11 harg11 arg13 harg13 arg15 harg15 arg17 harg17 x2 x4 x6 x8 x10 x12 x14 x16 ⟨7, h⟩ rfl k d

end Down

end Cert.KernelIdeal.Stacks

end
-- ==== Proof.KiStacksA.lean ====
/-
  The stack of padded, scaled up-projections the kernel body leaves in its second scratch buffer, read at one index.

  The body fills the stack [8, 1024, 32] with zeros and then writes, into slab a, the columns of adapter a's
  up-projection multiplied by the adapter's scale: a piece of 1024 rows and r_a columns (r_a = 8, 16, 32, 8, 16, 32,
  8, 16).  At the index (a, o, k) the last write that holds it decides: the pieces of the other slabs do not hold it;
  slab a's own piece holds it exactly when k < r_a, and there the buffer reads A_a(o, k) times the scale; beyond the
  rank only the zero fill holds it.  That is the zero-padded, scaled up-projection of the specification.
-/
import proofs.«174516_g44933947850968_cont_8to1_c_774_16_alg».proof.Proof.KiRunA
import proofs.«174516_g44933947850968_cont_8to1_c_774_16_alg».proof.Proof.LibSlabPiece
import proofs.«174516_g44933947850968_cont_8to1_c_774_16_alg».proof.Proof.Spec
import Idealize.ShloMosaic.Lib.ValueIdx
import Idealize.ShloMosaic.Lib.Pipeline.Value
import Idealize.ShloMosaic.Lib.ValueLayout

noncomputable section

open scoped BigOperators

namespace Cert.KernelIdeal.StacksA

open Idealize.ShloMosaic Idealize.ShloMosaic.ValueIdx Cert.KernelIdeal Cert.KernelIdeal.Gen Cert.KernelIdeal.Body
open Cert.KernelIdeal.Stacks

/-! ## A whole staging buffer read back, and the zero fill -/

/-- A load through the whole rectangle of a whole buffer holding `X` reads `X`. -/
theorem readAt_whole {S : Shape} {e : EltTy} (m : Memref sig .tc .vmem S e) (hm : m.IsWhole) (X : Vec Ideal S e)
    (off : Fin S.rank → ℕ) (hoff : off = fun _ => 0) (inb : ∀ a, off a + S.size a ≤ S.size a) :
    View.readAt (Elt Ideal) m.view (Rect.unit off S.size inb).toLoadRect (hm.unread X) = X := by
  show View.ld (m.view.read (Elt Ideal) (hm.unread X)) (Rect.unit off S.size inb) = X
  rw [hm.read_unread]
  exact View.ld_unit_zero hoff inb X

/-- The zero offsets of a rank-2 rectangle, however spelt. -/
theorem off2_zero : (![0, 0] : Fin 2 → ℕ) = fun _ => 0 := by
  funext d; match d with | ⟨0, _⟩ => rfl | ⟨1, _⟩ => rfl
/-- The zero offsets of a rank-3 rectangle, however spelt. -/
theorem off3_zero : (![0, 0, 0] : Fin 3 → ℕ) = fun _ => 0 := by
  funext d; match d with | ⟨0, _⟩ => rfl | ⟨1, _⟩ => rfl | ⟨2, _⟩ => rfl

/-- Under the zero fill alone the stack reads zero. -/
theorem canon_zero_fill (a : Fin 8) (o : Fin 1024) (k : Fin 32) :
    View.canon [(⟨Rect.unit ![0, 0, 0] S8x1024x32.size inb_S8x1024x32_S8x1024x32_0_0_0, k0_pay7 (F := Ideal)⟩ :
        View.Piece (Elt Ideal) S8x1024x32 .bf16)] (ix3 a o k) = (0 : EReal) := by
  refine (congrFun (View.canon_unit_zero off3_zero _ _) (ix3 a o k)).trans ?_
  unfold k0_pay7
  refine (congrFun (shapeCast_self _ _) (ix3 a o k)).trans ?_
  exact Cert.Spec.ofBits_zero_bf16

/-! ## The slab payloads at an index: the up-projection's entry times the scale -/

theorem pay9_apply (v : Vec Ideal S1024x8 .f32) (o : Fin 1024) (k : Fin 8) :
    k0_pay9 (F := Ideal) v (ix3 0 o k) = v (ix2 o k) * Cert.Spec.c8 := by
  unfold k0_pay9
  exact (shapeCast_ab_1ab_apply _ _ 0 o k).trans rfl

theorem pay12_apply (v : Vec Ideal S1024x16 .f32) (o : Fin 1024) (k : Fin 16) :
    k0_pay12 (F := Ideal) (k0_pay11 (F := Ideal) v) (ix3 0 o k) = v (ix2 o k) * Cert.Spec.c16 := by
  unfold k0_pay12 k0_pay11
  exact (shapeCast_ab_1ab_apply _ _ 0 o k).trans rfl

theorem pay2_apply (v : Vec Ideal S1024x8 .f32) (o : Fin 1024) (k : Fin 8) :
    k0_pay2 (F := Ideal) v (ix3 0 o k) = v (ix2 o k) * Cert.Spec.c8 := by
  unfold k0_pay2
  exact (shapeCast_ab_1ab_apply _ _ 0 o k).trans rfl

theorem pay14_apply (v : Vec Ideal S1024x32 .f32) (o : Fin 1024) (k : Fin 32) :
    k0_pay14 (F := Ideal) v (ix3 0 o k) = v (ix2 o k) * Cert.Spec.c32 := by
  unfold k0_pay14
  exact (shapeCast_ab_1ab_apply _ _ 0 o k).trans rfl

theorem pay16_apply (v : Vec Ideal S1024x8 .f32) (o : Fin 1024) (k : Fin 8) :
    k0_pay16 (F := Ideal) v (ix3 0 o k) = v (ix2 o k) * Cert.Spec.c8 := by
  unfold k0_pay16
  exact (shapeCast_ab_1ab_apply _ _ 0 o k).trans rfl

theorem pay18_apply (v : Vec Ideal S1024x16 .f32) (o : Fin 1024) (k : Fin 16) :
    k0_pay18 (F := Ideal) v (ix3 0 o k) = v (ix2 o k) * Cert.Spec.c16 := by
  unfold k0_pay18
  exact (shapeCast_ab_1ab_apply _ _ 0 o k).trans rfl

theorem pay20_apply (v : Vec Ideal S1024x32 .f32) (o : Fin 1024) (k : Fin 32) :
    k0_pay20 (F := Ideal) v (ix3 0 o k) = v (ix2 o k) * Cert.Spec.c32 := by
  unfold k0_pay20
  exact (shapeCast_ab_1ab_apply _ _ 0 o k).trans rfl

theorem pay4_apply (v : Vec Ideal S1024x16 .f32) (o : Fin 1024) (k : Fin 16) :
    k0_pay4 (F := Ideal) v (ix3 0 o k) = v (ix2 o k) * Cert.Spec.c16 := by
  unfold k0_pay4
  exact (shapeCast_ab_1ab_apply _ _ 0 o k).trans rfl

/-! ## The stack at an index, slab by slab -/

/-- Slab 0: adapter 0's up-projection (rank 8) times its scale, zero beyond the rank. -/
theorem as_apply_0 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (0 : Fin 8) o k)
      = Cert.Spec.padA 8 Cert.Spec.c8 x1 o k := by
  unfold kernelRunA.sl.HS1_9
  refine (canon_slab_skip 7 1024 16 _ _ _ (0 : Fin 8) o k (Or.inl (by decide))).trans ?_
  refine (canon_slab_skip 6 1024 8 _ _ _ (0 : Fin 8) o k (Or.inl (by decide))).trans ?_
  refine (canon_slab_skip 5 1024 32 _ _ _ (0 : Fin 8) o k (Or.inl (by decide))).trans ?_
  refine (canon_slab_skip 4 1024 16 _ _ _ (0 : Fin 8) o k (Or.inl (by decide))).trans ?_
  refine (canon_slab_skip 3 1024 8 _ _ _ (0 : Fin 8) o k (Or.inl (by decide))).trans ?_
  refine (canon_slab_skip 2 1024 32 _ _ _ (0 : Fin 8) o k (Or.inl (by decide))).trans ?_
  refine (canon_slab_skip 1 1024 16 _ _ _ (0 : Fin 8) o k (Or.inl (by decide))).trans ?_
  unfold Cert.Spec.padA
  by_cases hk : k.val < 8
  · rw [dif_pos hk]
    refine (canon_slab_hit 0 1024 8 _ _ _ (0 : Fin 8) o k rfl o.isLt hk).trans ?_
    refine (pay9_apply _ o ⟨k.val, hk⟩).trans ?_
    rw [readAt_whole arg2 harg2 x1 _ off2_zero]
  · rw [dif_neg hk]
    refine (canon_slab_skip 0 1024 8 _ _ _ (0 : Fin 8) o k (Or.inr (Or.inr (Nat.le_of_not_lt hk)))).trans ?_
    exact canon_zero_fill 0 o k

/-- Slab 1: adapter 1's up-projection (rank 16) times its scale, zero beyond the rank. -/
theorem as_apply_1 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (1 : Fin 8) o k)
      = Cert.Spec.padA 16 Cert.Spec.c16 x3 o k := by
  unfold kernelRunA.sl.HS1_9
  refine (canon_slab_skip 7 1024 16 _ _ _ (1 : Fin 8) o k (Or.inl (by decide))).trans ?_
  refine (canon_slab_skip 6 1024 8 _ _ _ (1 : Fin 8) o k (Or.inl (by decide))).trans ?_
  refine (canon_slab_skip 5 1024 32 _ _ _ (1 : Fin 8) o k (Or.inl (by decide))).trans ?_
  refine (canon_slab_skip 4 1024 16 _ _ _ (1 : Fin 8) o k (Or.inl (by decide))).trans ?_
  refine (canon_slab_skip 3 1024 8 _ _ _ (1 : Fin 8) o k (Or.inl (by decide))).trans ?_
  refine (canon_slab_skip 2 1024 32 _ _ _ (1 : Fin 8) o k (Or.inl (by decide))).trans ?_
  unfold Cert.Spec.padA
  by_cases hk : k.val < 16
  · rw [dif_pos hk]
    refine (canon_slab_hit 1 1024 16 _ _ _ (1 : Fin 8) o k rfl o.isLt hk).trans ?_
    unfold kernelRunA.sl.r
    refine (pay12_apply _ o ⟨k.val, hk⟩).trans ?_
    rw [readAt_whole arg4 harg4 x3 _ off2_zero]
  · rw [dif_neg hk]
    refine (canon_slab_skip 1 1024 16 _ _ _ (1 : Fin 8) o k (Or.inr (Or.inr (Nat.le_of_not_lt hk)))).trans ?_
    refine (canon_slab_skip 0 1024 8 _ _ _ (1 : Fin 8) o k (Or.inl (by decide))).trans ?_
    exact canon_zero_fill 1 o k

/-- Slab 2: adapter 2's up-projection (rank 32) times its scale, zero beyond the rank. -/
theorem as_apply_2 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (2 : Fin 8) o k)
      = Cert.Spec.padA 32 Cert.Spec.c32 x5 o k := by
  unfold kernelRunA.sl.HS1_9
  refine (canon_slab_skip 7 1024 16 _ _ _ (2 : Fin 8) o k (Or.inl (by decide))).trans ?_
  refine (canon_slab_skip 6 1024 8 _ _ _ (2 : Fin 8) o k (Or.inl (by decide))).trans ?_
  refine (canon_slab_skip 5 1024 32 _ _ _ (2 : Fin 8) o k (Or.inl (by decide))).trans ?_
  refine (canon_slab_skip 4 1024 16 _ _ _ (2 : Fin 8) o k (Or.inl (by decide))).trans ?_
  refine (canon_slab_skip 3 1024 8 _ _ _ (2 : Fin 8) o k (Or.inl (by decide))).trans ?_
  unfold Cert.Spec.padA
  by_cases hk : k.val < 32
  · rw [dif_pos hk]
    refine (canon_slab_hit 2 1024 32 _ _ _ (2 : Fin 8) o k rfl o.isLt hk).trans ?_
    refine (pay14_apply _ o ⟨k.val, hk⟩).trans ?_
    rw [readAt_whole arg6 harg6 x5 _ off2_zero]
  · exact absurd k.isLt hk

/-- Slab 3: adapter 3's up-projection (rank 8) times its scale, zero beyond the rank. -/
theorem as_apply_3 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (3 : Fin 8) o k)
      = Cert.Spec.padA 8 Cert.Spec.c8 x7 o k := by
  unfold kernelRunA.sl.HS1_9
  refine (canon_slab_skip 7 1024 16 _ _ _ (3 : Fin 8) o k (Or.inl (by decide))).trans ?_
  refine (canon_slab_skip 6 1024 8 _ _ _ (3 : Fin 8) o k (Or.inl (by decide))).trans ?_
  refine (canon_slab_skip 5 1024 32 _ _ _ (3 : Fin 8) o k (Or.inl (by decide))).trans ?_
  refine (canon_slab_skip 4 1024 16 _ _ _ (3 : Fin 8) o k (Or.inl (by decide))).trans ?_
  unfold Cert.Spec.padA
  by_cases hk : k.val < 8
  · rw [dif_pos hk]
    refine (canon_slab_hit 3 1024 8 _ _ _ (3 : Fin 8) o k rfl o.isLt hk).trans ?_
    refine (pay16_apply _ o ⟨k.val, hk⟩).trans ?_
    rw [readAt_whole arg8 harg8 x7 _ off2_zero]
  · rw [dif_neg hk]
    refine (canon_slab_skip 3 1024 8 _ _ _ (3 : Fin 8) o k (Or.inr (Or.inr (Nat.le_of_not_lt hk)))).trans ?_
    refine (canon_slab_skip 2 1024 32 _ _ _ (3 : Fin 8) o k (Or.inl (by decide))).trans ?_
    refine (canon_slab_skip 1 1024 16 _ _ _ (3 : Fin 8) o k (Or.inl (by decide))).trans ?_
    refine (canon_slab_skip 0 1024 8 _ _ _ (3 : Fin 8) o k (Or.inl (by decide))).trans ?_
    exact canon_zero_fill 3 o k

/-- Slab 4: adapter 4's up-projection (rank 16) times its scale, zero beyond the rank. -/
theorem as_apply_4 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (4 : Fin 8) o k)
      = Cert.Spec.padA 16 Cert.Spec.c16 x9 o k := by
  unfold kernelRunA.sl.HS1_9
  refine (canon_slab_skip 7 1024 16 _ _ _ (4 : Fin 8) o k (Or.inl (by decide))).trans ?_
  refine (canon_slab_skip 6 1024 8 _ _ _ (4 : Fin 8) o k (Or.inl (by decide))).trans ?_
  refine (canon_slab_skip 5 1024 32 _ _ _ (4 : Fin 8) o k (Or.inl (by decide))).trans ?_
  unfold Cert.Spec.padA
  by_cases hk : k.val < 16
  · rw [dif_pos hk]
    refine (canon_slab_hit 4 1024 16 _ _ _ (4 : Fin 8) o k rfl o.isLt hk).trans ?_
    refine (pay18_apply _ o ⟨k.val, hk⟩).trans ?_
    rw [readAt_whole arg10 harg10 x9 _ off2_zero]
  · rw [dif_neg hk]
    refine (canon_slab_skip 4 1024 16 _ _ _ (4 : Fin 8) o k (Or.inr (Or.inr (Nat.le_of_not_lt hk)))).trans ?_
    refine (canon_slab_skip 3 1024 8 _ _ _ (4 : Fin 8) o k (Or.inl (by decide))).trans ?_
    refine (canon_slab_skip 2 1024 32 _ _ _ (4 : Fin 8) o k (Or.inl (by decide))).trans ?_
    refine (canon_slab_skip 1 1024 16 _ _ _ (4 : Fin 8) o k (Or.inl (by decide))).trans ?_
    refine (canon_slab_skip 0 1024 8 _ _ _ (4 : Fin 8) o k (Or.inl (by decide))).trans ?_
    exact canon_zero_fill 4 o k

/-- Slab 5: adapter 5's up-projection (rank 32) times its scale, zero beyond the rank. -/
theorem as_apply_5 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (5 : Fin 8) o k)
      = Cert.Spec.padA 32 Cert.Spec.c32 x11 o k := by
  unfold kernelRunA.sl.HS1_9
  refine (canon_slab_skip 7 1024 16 _ _ _ (5 : Fin 8) o k (Or.inl (by decide))).trans ?_
  refine (canon_slab_skip 6 1024 8 _ _ _ (5 : Fin 8) o k (Or.inl (by decide))).trans ?_
  unfold Cert.Spec.padA
  by_cases hk : k.val < 32
  · rw [dif_pos hk]
    refine (canon_slab_hit 5 1024 32 _ _ _ (5 : Fin 8) o k rfl o.isLt hk).trans ?_
    refine (pay20_apply _ o ⟨k.val, hk⟩).trans ?_
    rw [readAt_whole arg12 harg12 x11 _ off2_zero]
  · exact absurd k.isLt hk

/-- Slab 6: adapter 6's up-projection (rank 8) times its scale, zero beyond the rank. -/
theorem as_apply_6 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (6 : Fin 8) o k)
      = Cert.Spec.padA 8 Cert.Spec.c8 x13 o k := by
  unfold kernelRunA.sl.HS1_9
  refine (canon_slab_skip 7 1024 16 _ _ _ (6 : Fin 8) o k (Or.inl (by decide))).trans ?_
  unfold Cert.Spec.padA
  by_cases hk : k.val < 8
  · rw [dif_pos hk]
    refine (canon_slab_hit 6 1024 8 _ _ _ (6 : Fin 8) o k rfl o.isLt hk).trans ?_
    unfold kernelRunA.sl.r_1
    refine (pay2_apply _ o ⟨k.val, hk⟩).trans ?_
    rw [readAt_whole arg14 harg14 x13 _ off2_zero]
  · rw [dif_neg hk]
    refine (canon_slab_skip 6 1024 8 _ _ _ (6 : Fin 8) o k (Or.inr (Or.inr (Nat.le_of_not_lt hk)))).trans ?_
    refine (canon_slab_skip 5 1024 32 _ _ _ (6 : Fin 8) o k (Or.inl (by decide))).trans ?_
    refine (canon_slab_skip 4 1024 16 _ _ _ (6 : Fin 8) o k (Or.inl (by decide))).trans ?_
    refine (canon_slab_skip 3 1024 8 _ _ _ (6 : Fin 8) o k (Or.inl (by decide))).trans ?_
    refine (canon_slab_skip 2 1024 32 _ _ _ (6 : Fin 8) o k (Or.inl (by decide))).trans ?_
    refine (canon_slab_skip 1 1024 16 _ _ _ (6 : Fin 8) o k (Or.inl (by decide))).trans ?_
    refine (canon_slab_skip 0 1024 8 _ _ _ (6 : Fin 8) o k (Or.inl (by decide))).trans ?_
    exact canon_zero_fill 6 o k

/-- Slab 7: adapter 7's up-projection (rank 16) times its scale, zero beyond the rank. -/
theorem as_apply_7 (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 (7 : Fin 8) o k)
      = Cert.Spec.padA 16 Cert.Spec.c16 x15 o k := by
  unfold kernelRunA.sl.HS1_9
  unfold Cert.Spec.padA
  by_cases hk : k.val < 16
  · rw [dif_pos hk]
    refine (canon_slab_hit 7 1024 16 _ _ _ (7 : Fin 8) o k rfl o.isLt hk).trans ?_
    refine (pay4_apply _ o ⟨k.val, hk⟩).trans ?_
    rw [readAt_whole arg16 harg16 x15 _ off2_zero]
  · rw [dif_neg hk]
    refine (canon_slab_skip 7 1024 16 _ _ _ (7 : Fin 8) o k (Or.inr (Or.inr (Nat.le_of_not_lt hk)))).trans ?_
    refine (canon_slab_skip 6 1024 8 _ _ _ (7 : Fin 8) o k (Or.inl (by decide))).trans ?_
    refine (canon_slab_skip 5 1024 32 _ _ _ (7 : Fin 8) o k (Or.inl (by decide))).trans ?_
    refine (canon_slab_skip 4 1024 16 _ _ _ (7 : Fin 8) o k (Or.inl (by decide))).trans ?_
    refine (canon_slab_skip 3 1024 8 _ _ _ (7 : Fin 8) o k (Or.inl (by decide))).trans ?_
    refine (canon_slab_skip 2 1024 32 _ _ _ (7 : Fin 8) o k (Or.inl (by decide))).trans ?_
    refine (canon_slab_skip 1 1024 16 _ _ _ (7 : Fin 8) o k (Or.inl (by decide))).trans ?_
    refine (canon_slab_skip 0 1024 8 _ _ _ (7 : Fin 8) o k (Or.inl (by decide))).trans ?_
    exact canon_zero_fill 7 o k

/-- The stack the body leaves, at (a, o, k): the specification's padded, scaled up-projection of adapter a. -/
theorem as_apply (c : Dev nD) (arg2 : Memref sig .tc .vmem S1024x8 .f32) (harg2 : arg2.IsWhole) (arg4 : Memref sig .tc .vmem S1024x16 .f32) (harg4 : arg4.IsWhole) (arg6 : Memref sig .tc .vmem S1024x32 .f32) (harg6 : arg6.IsWhole) (arg8 : Memref sig .tc .vmem S1024x8 .f32) (harg8 : arg8.IsWhole) (arg10 : Memref sig .tc .vmem S1024x16 .f32) (harg10 : arg10.IsWhole) (arg12 : Memref sig .tc .vmem S1024x32 .f32) (harg12 : arg12.IsWhole) (arg14 : Memref sig .tc .vmem S1024x8 .f32) (harg14 : arg14.IsWhole) (arg16 : Memref sig .tc .vmem S1024x16 .f32) (harg16 : arg16.IsWhole)
    (x1 : Vec Ideal S1024x8 .f32) (x3 : Vec Ideal S1024x16 .f32) (x5 : Vec Ideal S1024x32 .f32) (x7 : Vec Ideal S1024x8 .f32) (x9 : Vec Ideal S1024x16 .f32) (x11 : Vec Ideal S1024x32 .f32) (x13 : Vec Ideal S1024x8 .f32) (x15 : Vec Ideal S1024x16 .f32)
    (a : Fin 8) (o : Fin 1024) (k : Fin 32) :
    View.canon (kernelRunA.sl.HS1_9 (F := Ideal) c arg2 harg2 arg4 harg4 arg6 harg6 arg8 harg8 arg10 harg10 arg12 harg12 arg14 harg14 arg16 harg16 x1 x3 x5 x7 x9 x11 x13 x15) (ix3 a o k)
      = Cert.Spec.stackA x1 x3 x5 x7 x9 x11 x13 x15 a o k := by
  fin_cases a
  · exact as_apply_0 c arg2 harg2 arg4 harg4 arg6 harg6 arg8 harg8 arg10 harg10 arg12 harg12 arg14 harg14 arg16 harg16 x1 x3 x5 x7 x9 x11 x13 x15 o k
  · exact as_apply_1 c arg2 harg2 arg4 harg4 arg6 harg6 arg8 harg8 arg10 harg10 arg12 harg12 arg14 harg14 arg16 harg16 x1 x3 x5 x7 x9 x11 x13 x15 o k
  · exact as_apply_2 c arg2 harg2 arg4 harg4 arg6 harg6 arg8 harg8 arg10 harg10 arg12 harg12 arg14 harg14 arg16 harg16 x1 x3 x5 x7 x9 x11 x13 x15 o k
  · exact as_apply_3 c arg2 harg2 arg4 harg4 arg6 harg6 arg8 harg8 arg10 harg10 arg12 harg12 arg14 harg14 arg16 harg16 x1 x3 x5 x7 x9 x11 x13 x15 o k
  · exact as_apply_4 c arg2 harg2 arg4 harg4 arg6 harg6 arg8 harg8 arg10 harg10 arg12 harg12 arg14 harg14 arg16 harg16 x1 x3 x5 x7 x9 x11 x13 x15 o k
  · exact as_apply_5 c arg2 harg2 arg4 harg4 arg6 harg6 arg8 harg8 arg10 harg10 arg12 harg12 arg14 harg14 arg16 harg16 x1 x3 x5 x7 x9 x11 x13 x15 o k
  · exact as_apply_6 c arg2 harg2 arg4 harg4 arg6 harg6 arg8 harg8 arg10 harg10 arg12 harg12 arg14 harg14 arg16 harg16 x1 x3 x5 x7 x9 x11 x13 x15 o k
  · exact as_apply_7 c arg2 harg2 arg4 harg4 arg6 harg6 arg8 harg8 arg10 harg10 arg12 harg12 arg14 harg14 arg16 harg16 x1 x3 x5 x7 x9 x11 x13 x15 o k

end Cert.KernelIdeal.StacksA

end
-- ==== Proof.KiValue.lean ====
/-
  What the kernel program computes, at the exact instance.

  The stacks: after the first grid point slab a of the first scratch stack is adapter a's down-projection padded
  with zero rows, slab a of the second is adapter a's scaled up-projection padded with zero columns — functions of
  the weight arrays alone.  The block grid point t leaves in the output's staging buffer is, at local (0, s, o), the
  double contraction of row s of x's block t with slab t mod 8 of the two stacks (the first point reads back what it
  has just written, a later point what was carried over: the same two stacks).  By the routing law this is the routed
  result at (t, s, o).  The sixteen blocks cover the result array, so after the run the result array IS the routed
  result of the argument arrays, and the arguments are unchanged.
-/
import proofs.«174516_g44933947850968_cont_8to1_c_774_16_alg».proof.Proof.KiBlocks
import proofs.«174516_g44933947850968_cont_8to1_c_774_16_alg».proof.Proof.KiPayload
import proofs.«174516_g44933947850968_cont_8to1_c_774_16_alg».proof.Proof.SpecRouting
import proofs.«174516_g44933947850968_cont_8to1_c_774_16_alg».proof.Proof.KiStacks
import proofs.«174516_g44933947850968_cont_8to1_c_774_16_alg».proof.Proof.KiStacksA

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx
open scoped BigOperators

variable (m : (ℓ : Loc nD τ sig) → Buf (Elt Ideal) ℓ) (ρ : Dev nD → PrngReg)

/-- Block t of x as the body finds it in its staging buffer. -/
abbrev xAt (c : Dev nD) (t : Fin cfg0.N) : Vec Ideal S1x2048x1024 .f32 := iblk m c 0 t

/-- The first scratch stack after the first point, as the reading of its written pieces. -/
theorem bsStack_eq (c : Dev nD) :
    bsStack m c = View.canon (kernelRunA.sl.HS0_9 (F := Ideal) c (ms2 t0_0) (hs2 t0_0) (ms4 t0_0) (hs4 t0_0) (ms6 t0_0) (hs6 t0_0) (ms8 t0_0) (hs8 t0_0) (ms10 t0_0) (hs10 t0_0) (ms12 t0_0) (hs12 t0_0) (ms14 t0_0) (hs14 t0_0) (ms16 t0_0) (hs16 t0_0) (iblk m c 2 t0_0) (iblk m c 4 t0_0) (iblk m c 6 t0_0) (iblk m c 8 t0_0) (iblk m c 10 t0_0) (iblk m c 12 t0_0) (iblk m c 14 t0_0) (iblk m c 16 t0_0)) := by
  unfold bsStack
  rw [View.read_writes_junk_eq_canon]
  unfold runFirst kernelRunA
  rfl

/-- The second scratch stack after the first point, as the reading of its written pieces. -/
theorem asStack_eq (c : Dev nD) :
    asStack m c = View.canon (kernelRunA.sl.HS1_9 (F := Ideal) c (ms1 t0_0) (hs1 t0_0) (ms3 t0_0) (hs3 t0_0) (ms5 t0_0) (hs5 t0_0) (ms7 t0_0) (hs7 t0_0) (ms9 t0_0) (hs9 t0_0) (ms11 t0_0) (hs11 t0_0) (ms13 t0_0) (hs13 t0_0) (ms15 t0_0) (hs15 t0_0) (iblk m c 1 t0_0) (iblk m c 3 t0_0) (iblk m c 5 t0_0) (iblk m c 7 t0_0) (iblk m c 9 t0_0) (iblk m c 11 t0_0) (iblk m c 13 t0_0) (iblk m c 15 t0_0)) := by
  unfold asStack
  rw [View.read_writes_junk_eq_canon]
  unfold runFirst kernelRunA
  rfl

/-- Slab a of the first stack is adapter a's padded down-projection. -/
theorem bsStack_apply (c : Dev nD) (a : Fin 8) (k : Fin 32) (d : Fin 1024) :
    bsStack m c (ix3 a k d) = Cert.Spec.stackB (V m c main_arg2) (V m c main_arg4) (V m c main_arg6) (V m c main_arg8) (V m c main_arg10) (V m c main_arg12) (V m c main_arg14) (V m c main_arg16) a k d := by
  rw [bsStack_eq, Cert.KernelIdeal.Stacks.bs_apply]
  rw [wblk2 m c t0_0, wblk4 m c t0_0, wblk6 m c t0_0, wblk8 m c t0_0, wblk10 m c t0_0, wblk12 m c t0_0, wblk14 m c t0_0, wblk16 m c t0_0]

/-- Slab a of the second stack is adapter a's padded, scaled up-projection. -/
theorem asStack_apply (c : Dev nD) (a : Fin 8) (o : Fin 1024) (k : Fin 32) :
    asStack m c (ix3 a o k) = Cert.Spec.stackA (V m c main_arg1) (V m c main_arg3) (V m c main_arg5) (V m c main_arg7) (V m c main_arg9) (V m c main_arg11) (V m c main_arg13) (V m c main_arg15) a o k := by
  rw [asStack_eq, Cert.KernelIdeal.StacksA.as_apply]
  rw [wblk1 m c t0_0, wblk3 m c t0_0, wblk5 m c t0_0, wblk7 m c t0_0, wblk9 m c t0_0, wblk11 m c t0_0, wblk13 m c t0_0, wblk15 m c t0_0]

/-- The first point reads back, from the stack it has just written, slab 0 — the stack itself at slab 0. -/
theorem v17_first (c : Dev nD) (k : Fin 32) (d : Fin 1024) :
    kernelRunA.sl.v17 (F := Ideal) c (ms2 t0_0) (hs2 t0_0) (ms4 t0_0) (hs4 t0_0) (ms6 t0_0) (hs6 t0_0) (ms8 t0_0) (hs8 t0_0) (ms10 t0_0) (hs10 t0_0) (ms12 t0_0) (hs12 t0_0) (ms14 t0_0) (hs14 t0_0) (ms16 t0_0) (hs16 t0_0) scM0 (iblk m c 2 t0_0) (iblk m c 4 t0_0) (iblk m c 6 t0_0) (iblk m c 8 t0_0) (iblk m c 10 t0_0) (iblk m c 12 t0_0) (iblk m c 14 t0_0) (iblk m c 16 t0_0) (ix3 0 k d) = bsStack m c (ix3 (0 : Fin 8) k d) := by
  unfold kernelRunA.sl.v17
  rw [View.readCov_eq_canon', ← bsStack_eq]
  show bsStack m c ((Rect.unit (s := S8x32x1024) (k0_off1 (grid0.coords t0_0)) S1x32x1024.size _).toLoadRect.idx (ix3 0 k d)) = _
  rw [slabB_idx _ (0 : Fin 8) (off1_eq t0_0)]

theorem v22_first (c : Dev nD) (o : Fin 1024) (k : Fin 32) :
    kernelRunA.sl.v22 (F := Ideal) c (ms1 t0_0) (hs1 t0_0) (ms3 t0_0) (hs3 t0_0) (ms5 t0_0) (hs5 t0_0) (ms7 t0_0) (hs7 t0_0) (ms9 t0_0) (hs9 t0_0) (ms11 t0_0) (hs11 t0_0) (ms13 t0_0) (hs13 t0_0) (ms15 t0_0) (hs15 t0_0) scM1 (iblk m c 1 t0_0) (iblk m c 3 t0_0) (iblk m c 5 t0_0) (iblk m c 7 t0_0) (iblk m c 9 t0_0) (iblk m c 11 t0_0) (iblk m c 13 t0_0) (iblk m c 15 t0_0) (ix3 0 o k) = asStack m c (ix3 (0 : Fin 8) o k) := by
  unfold kernelRunA.sl.v22
  rw [View.readCov_eq_canon', ← asStack_eq]
  show asStack m c ((Rect.unit (s := S8x1024x32) (k0_off2 (grid0.coords t0_0)) S1x1024x32.size _).toLoadRect.idx (ix3 0 o k)) = _
  rw [slabA_idx _ (0 : Fin 8) (off2_eq t0_0)]

/-- A read of slab a of any [8,32,1024] array at local (0, k, d) is the array at (a, k, d). -/
theorem ld_slabB (Y X : Vec Ideal S8x32x1024 .bf16) (hY : Y = X) (off : Fin 3 → Nat) (a : Fin 8) (hoff : off = ![a.val, 0, 0])
    (inb : ∀ x, off x + S1x32x1024.size x ≤ S8x32x1024.size x) (k : Fin 32) (d : Fin 1024) :
    View.ld Y (Rect.unit (s := S8x32x1024) off S1x32x1024.size inb) (ix3 0 k d) = X (ix3 a k d) := by
  subst hY
  show Y ((Rect.unit (s := S8x32x1024) off S1x32x1024.size inb).toLoadRect.idx (ix3 0 k d)) = _
  rw [slabB_idx off a hoff inb]

/-- A read of slab a of any [8,1024,32] array at local (0, o, k) is the array at (a, o, k). -/
theorem ld_slabA (Y X : Vec Ideal S8x1024x32 .bf16) (hY : Y = X) (off : Fin 3 → Nat) (a : Fin 8) (hoff : off = ![a.val, 0, 0])
    (inb : ∀ x, off x + S1x1024x32.size x ≤ S8x1024x32.size x) (o : Fin 1024) (k : Fin 32) :
    View.ld Y (Rect.unit (s := S8x1024x32) off S1x1024x32.size inb) (ix3 0 o k) = X (ix3 a o k) := by
  subst hY
  show Y ((Rect.unit (s := S8x1024x32) off S1x1024x32.size inb).toLoadRect.idx (ix3 0 o k)) = _
  rw [slabA_idx off a hoff inb]

/-- The block grid point t leaves, at local (0, s, o): row s of x's block against slab t mod 8 of the two stacks. -/
theorem outAt_apply (c : Dev nD) (t : Fin cfg0.N) (a : Fin 8) (ha : t.val % 8 = a.val) (s : Fin 2048) (o : Fin 1024) :
    outAt m c t (ix3 0 s o)
      = ∑ k : Fin 32, (∑ d : Fin 1024, xAt m c t (ix3 0 s d) * bsStack m c (ix3 a k d)) * asStack m c (ix3 a o k) := by
  by_cases h0 : t.val = 0
  · obtain rfl : t = t0_0 := Fin.ext h0
    obtain rfl : a = 0 := Fin.ext (by rw [← ha]; rfl)
    rw [outAt_first]
    unfold outFirst
    rw [View.read_writes_junk_eq_canon]
    unfold runFirst kernelRunA
    dsimp only
    rw [View.canon_unit_zero hz3]
    rw [Cert.KernelIdeal.Payload.pay5_apply]
    simp only [View.readAt_eq_ld, Memref.IsWhole.read_unread, v17_first, v22_first]
    refine Finset.sum_congr rfl fun k _ => ?_
    refine congrArg₂ (· * ·) (Finset.sum_congr rfl fun d _ => congrArg₂ (· * ·) ?_ rfl) rfl
    exact congrFun (View.ld_unit_zero (S := S1x2048x1024) hz3 _ _) _
  · have e1 : k0_off1 (grid0.coords t) = ![a.val, 0, 0] := by rw [off1_eq t, ha]
    have e2 : k0_off2 (grid0.coords t) = ![a.val, 0, 0] := by rw [off2_eq t, ha]
    rw [outAt_later m c t h0]
    unfold outLater
    rw [View.read_writes_junk_eq_canon]
    unfold runLater kernelRunB
    dsimp only
    rw [View.canon_unit_zero hz3]
    rw [Cert.KernelIdeal.Payload.pay5_apply]
    simp only [View.readAt_eq_ld, Memref.IsWhole.read_unread]
    refine Finset.sum_congr rfl fun k _ => ?_
    refine congrArg₂ (· * ·) (Finset.sum_congr rfl fun d _ => congrArg₂ (· * ·) ?_ ?_) ?_
    · exact congrFun (View.ld_unit_zero (S := S1x2048x1024) hz3 _ _) _
    · exact ld_slabB _ (bsStack m c) ((Memref.isWhole_whole _).read_unread _) _ a e1 _ k d
    · exact ld_slabA _ (asStack m c) ((Memref.isWhole_whole _).read_unread _) _ a e2 _ o k

/-- The routed result of this memory's argument arrays. -/
abbrev GK (c : Dev nD) : S16x2048x1024.Idx → Elt Ideal .f32 := Cert.Spec.G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)

/-- WHAT POINT t WRITES BACK is block t of the routed result. -/
theorem flushed_eq (c : Dev nD) (t : Fin cfg0.N) :
    (dats m 0 c).flushed 17 t = ((cfg0.win 17).blk t).view.read (Elt Ideal) (GK m c) := by
  show (cfg0.win 17).cut (grid0.coords t) ((dats m 0 c).after 17 t) = _
  rw [after17]
  have ht : t.val < 16 := lt_of_lt_of_eq t.isLt (show cfg0.N = 16 from N_0)
  funext j
  obtain ⟨s, o, rfl⟩ : ∃ (s : Fin 2048) (o : Fin 1024), j = ix3 0 s o :=
    ⟨j 1, j 2, by rw [eq_ix3 j]; congr 1; exact Subsingleton.elim (α := Fin 1) _ _⟩
  show outAt m c t (ix3 0 s o) = GK m c (((cfg0.win 17).blk t).view.emb (ix3 0 s o))
  rw [out_emb t ht s o, outAt_apply m c t ⟨t.val % 8, Nat.mod_lt _ (by norm_num)⟩ rfl s o]
  show _ = Cert.Spec.Gat (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) ⟨t.val, ht⟩ s o
  rw [Cert.Spec.Gat_eq_stacks _ _ _ _ _ _ _ _ _ _ _ _ _ _ _ _ _ ⟨t.val, ht⟩ s o ⟨t.val % 8, Nat.mod_lt _ (by norm_num)⟩ rfl]
  refine Finset.sum_congr rfl fun k _ => ?_
  rw [asStack_apply]
  refine congrArg₂ (· * ·) (Finset.sum_congr rfl fun d _ => ?_) rfl
  rw [bsStack_apply]
  exact congrArg (fun z => z * _) (xblk m c t ht s d)

set_option maxHeartbeats 2000000 in
/-- THE RESULT ARRAY after the run is the routed result of the argument arrays. -/
theorem final (c : Dev nD) : (dats m 0 c).arrAt 17 cfg0.N = GK m c :=
  (dats m 0 c).arrAt_eq_of_cover 17 _ (fun t _ => flushed_eq m c t) cover_out

set_option maxHeartbeats 2000000 in
/-- The kernel program's run, read: the result at the routed result of the arguments, the arguments unchanged. -/
theorem run : θ_run defs (onTc (τ := τ) (main (F := Ideal))) ⟨m, fun _ => 0, ρ⟩ fun r => ∀ c : Dev nD,
      r.2.mem ((c.tc : Thread nD τ).loc main_v0) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 17).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c)))⟩)
    (run_main m ρ)

end Cert.KernelIdeal.KValue

end
-- ==== Proof.RefOps.lean ====
/-
  The reference's @main as a list of its host operations.

  @main is a straight line of ninety-one operations: the routing table, the zero and its spread; then, per adapter,
  eleven operations — the two contractions, the scale and its spread, the product, the adapter number and its
  spread, the comparison with the table, the condition as a column, and the called where's two operations (the
  column spread over the result, the select).  `pre` and `stage0` … `stage7` are those pieces, `ops` the whole
  line; the line is the pieces in order, and the program is the line run in order.
-/
import proofs.«174516_g44933947850968_cont_8to1_c_774_16_alg».proof.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The table, the zero, and the zeros. -/
abbrev pre : List (HloOp τ sig (Elt F)) :=
  [ nullary main_c (fun i => lit0 (S16.rowMajor i)),
    nullary main_cst (constant S_ .f32 0x00000000#32),
    unary main_cst main_v0 (broadcastInDim S16x2048x1024 ![] bcast_S_S16x2048x1024 : (⟨S_, .f32⟩ : BufTy).Contents (Elt F) → (⟨S16x2048x1024, .f32⟩ : BufTy).Contents (Elt F)) ]

/-- Adapter 0's eleven operations. -/
abbrev stage0 : List (HloOp τ sig (Elt F)) :=
  [ binary main_arg0 main_arg2 main_v1 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    binary main_v1 main_arg1 main_v2 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    nullary main_cst_0 (constant S_ .f32 0x3E000000#32),
    unary main_cst_0 main_v3 (broadcastInDim S16x2048x1024 ![] bcast_S_S16x2048x1024 : (⟨S_, .f32⟩ : BufTy).Contents (Elt F) → (⟨S16x2048x1024, .f32⟩ : BufTy).Contents (Elt F)),
    binary main_v2 main_v3 main_v4 (mulf : (⟨S16x2048x1024, .f32⟩ : BufTy).Contents (Elt F) → (⟨S16x2048x1024, .f32⟩ : BufTy).Contents (Elt F) → (⟨S16x2048x1024, .f32⟩ : BufTy).Contents (Elt F)),
    nullary main_c_1 (constantI S_ 32 0#32),
    unary main_c_1 main_v5 (broadcastInDim S16 ![] bcast_S_S16 : (⟨S_, .i32⟩ : BufTy).Contents (Elt F) → (⟨S16, .i32⟩ : BufTy).Contents (Elt F)),
    binary main_c main_v5 main_v6 (cmpi .eq : (⟨S16, .i32⟩ : BufTy).Contents (Elt F) → (⟨S16, .i32⟩ : BufTy).Contents (Elt F) → (⟨S16, .i1⟩ : BufTy).Contents (Elt F)),
    unary main_v6 main_v7 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v7) main_call0.v0 (broadcastInDim S16x2048x1024 ![0, 1, 2] bcast_S16x1x1_S16x2048x1024_0_1_2),
    TRef.ternary main_call0.v0 (TRef.of (T := ⟨S16x2048x1024, .f32⟩) main_v4) (TRef.of (T := ⟨S16x2048x1024, .f32⟩) main_v0) main_call0.v1 select ]

/-- Adapter 1's eleven operations. -/
abbrev stage1 : List (HloOp τ sig (Elt F)) :=
  [ binary main_arg0 main_arg4 main_v9 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    binary main_v9 main_arg3 main_v10 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    nullary main_cst_2 (constant S_ .f32 0x3D800000#32),
    unary main_cst_2 main_v11 (broadcastInDim S16x2048x1024 ![] bcast_S_S16x2048x1024 : (⟨S_, .f32⟩ : BufTy).Contents (Elt F) → (⟨S16x2048x1024, .f32⟩ : BufTy).Contents (Elt F)),
    binary main_v10 main_v11 main_v12 (mulf : (⟨S16x2048x1024, .f32⟩ : BufTy).Contents (Elt F) → (⟨S16x2048x1024, .f32⟩ : BufTy).Contents (Elt F) → (⟨S16x2048x1024, .f32⟩ : BufTy).Contents (Elt F)),
    nullary main_c_3 (constantI S_ 32 1#32),
    unary main_c_3 main_v13 (broadcastInDim S16 ![] bcast_S_S16 : (⟨S_, .i32⟩ : BufTy).Contents (Elt F) → (⟨S16, .i32⟩ : BufTy).Contents (Elt F)),
    binary main_c main_v13 main_v14 (cmpi .eq : (⟨S16, .i32⟩ : BufTy).Contents (Elt F) → (⟨S16, .i32⟩ : BufTy).Contents (Elt F) → (⟨S16, .i1⟩ : BufTy).Contents (Elt F)),
    unary main_v14 main_v15 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v15) main_call1.v0 (broadcastInDim S16x2048x1024 ![0, 1, 2] bcast_S16x1x1_S16x2048x1024_0_1_2),
    TRef.ternary main_call1.v0 (TRef.of (T := ⟨S16x2048x1024, .f32⟩) main_v12) (TRef.of (T := ⟨S16x2048x1024, .f32⟩) main_v8) main_call1.v1 select ]

/-- Adapter 2's eleven operations. -/
abbrev stage2 : List (HloOp τ sig (Elt F)) :=
  [ binary main_arg0 main_arg6 main_v17 ((fun l r => Host.dotGeneral dot_S16x2048x1024_S32x1024_S16x2048x32_2_1_01_0_n_n none l r) : (⟨S16x2048x1024, .f32⟩ : BufTy).Contents (Elt F) → (⟨S32x1024, .f32⟩ : BufTy).Contents (Elt F) → (⟨S16x2048x32, .f32⟩ : BufTy).Contents (Elt F)),
    binary main_v17 main_arg5 main_v18 ((fun l r => Host.dotGeneral dot_S16x2048x32_S1024x32_S16x2048x1024_2_1_01_0_n_n none l r) : (⟨S16x2048x32, .f32⟩ : BufTy).Contents (Elt F) → (⟨S1024x32, .f32⟩ : BufTy).Contents (Elt F) → (⟨S16x2048x1024, .f32⟩ : BufTy).Contents (Elt F)),
    nullary main_cst_4 (constant S_ .f32 0x3D000000#32),
    unary main_cst_4 main_v19 (broadcastInDim S16x2048x1024 ![] bcast_S_S16x2048x1024 : (⟨S_, .f32⟩ : BufTy).Contents (Elt F) → (⟨S16x2048x1024, .f32⟩ : BufTy).Contents (Elt F)),
    binary main_v18 main_v19 main_v20 (mulf : (⟨S16x2048x1024, .f32⟩ : BufTy).Contents (Elt F) → (⟨S16x2048x1024, .f32⟩ : BufTy).Contents (Elt F) → (⟨S16x2048x1024, .f32⟩ : BufTy).Contents (Elt F)),
    nullary main_c_5 (constantI S_ 32 2#32),
    unary main_c_5 main_v21 (broadcastInDim S16 ![] bcast_S_S16 : (⟨S_, .i32⟩ : BufTy).Contents (Elt F) → (⟨S16, .i32⟩ : BufTy).Contents (Elt F)),
    binary main_c main_v21 main_v22 (cmpi .eq : (⟨S16, .i32⟩ : BufTy).Contents (Elt F) → (⟨S16, .i32⟩ : BufTy).Contents (Elt F) → (⟨S16, .i1⟩ : BufTy).Contents (Elt F)),
    unary main_v22 main_v23 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v23) main_call2.v0 (broadcastInDim S16x2048x1024 ![0, 1, 2] bcast_S16x1x1_S16x2048x1024_0_1_2),
    TRef.ternary main_call2.v0 (TRef.of (T := ⟨S16x2048x1024, .f32⟩) main_v20) (TRef.of (T := ⟨S16x2048x1024, .f32⟩) main_v16) main_call2.v1 select ]

/-- Adapter 3's eleven operations. -/
abbrev stage3 : List (HloOp τ sig (Elt F)) :=
  [ binary main_arg0 main_arg8 main_v25 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    binary main_v25 main_arg7 main_v26 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    nullary main_cst_6 (constant S_ .f32 0x3E000000#32),
    unary main_cst_6 main_v27 (broadcastInDim S16x2048x1024 ![] bcast_S_S16x2048x1024 : (⟨S_, .f32⟩ : BufTy).Contents (Elt F) → (⟨S16x2048x1024, .f32⟩ : BufTy).Contents (Elt F)),
    binary main_v26 main_v27 main_v28 (mulf : (⟨S16x2048x1024, .f32⟩ : BufTy).Contents (Elt F) → (⟨S16x2048x1024, .f32⟩ : BufTy).Contents (Elt F) → (⟨S16x2048x1024, .f32⟩ : BufTy).Contents (Elt F)),
    nullary main_c_7 (constantI S_ 32 3#32),
    unary main_c_7 main_v29 (broadcastInDim S16 ![] bcast_S_S16 : (⟨S_, .i32⟩ : BufTy).Contents (Elt F) → (⟨S16, .i32⟩ : BufTy).Contents (Elt F)),
    binary main_c main_v29 main_v30 (cmpi .eq : (⟨S16, .i32⟩ : BufTy).Contents (Elt F) → (⟨S16, .i32⟩ : BufTy).Contents (Elt F) → (⟨S16, .i1⟩ : BufTy).Contents (Elt F)),
    unary main_v30 main_v31 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v31) main_call3.v0 (broadcastInDim S16x2048x1024 ![0, 1, 2] bcast_S16x1x1_S16x2048x1024_0_1_2),
    TRef.ternary main_call3.v0 (TRef.of (T := ⟨S16x2048x1024, .f32⟩) main_v28) (TRef.of (T := ⟨S16x2048x1024, .f32⟩) main_v24) main_call3.v1 select ]

/-- Adapter 4's eleven operations. -/
abbrev stage4 : List (HloOp τ sig (Elt F)) :=
  [ binary main_arg0 main_arg10 main_v33 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    binary main_v33 main_arg9 main_v34 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    nullary main_cst_8 (constant S_ .f32 0x3D800000#32),
    unary main_cst_8 main_v35 (broadcastInDim S16x2048x1024 ![] bcast_S_S16x2048x1024 : (⟨S_, .f32⟩ : BufTy).Contents (Elt F) → (⟨S16x2048x1024, .f32⟩ : BufTy).Contents (Elt F)),
    binary main_v34 main_v35 main_v36 (mulf : (⟨S16x2048x1024, .f32⟩ : BufTy).Contents (Elt F) → (⟨S16x2048x1024, .f32⟩ : BufTy).Contents (Elt F) → (⟨S16x2048x1024, .f32⟩ : BufTy).Contents (Elt F)),
    nullary main_c_9 (constantI S_ 32 4#32),
    unary main_c_9 main_v37 (broadcastInDim S16 ![] bcast_S_S16 : (⟨S_, .i32⟩ : BufTy).Contents (Elt F) → (⟨S16, .i32⟩ : BufTy).Contents (Elt F)),
    binary main_c main_v37 main_v38 (cmpi .eq : (⟨S16, .i32⟩ : BufTy).Contents (Elt F) → (⟨S16, .i32⟩ : BufTy).Contents (Elt F) → (⟨S16, .i1⟩ : BufTy).Contents (Elt F)),
    unary main_v38 main_v39 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v39) main_call4.v0 (broadcastInDim S16x2048x1024 ![0, 1, 2] bcast_S16x1x1_S16x2048x1024_0_1_2),
    TRef.ternary main_call4.v0 (TRef.of (T := ⟨S16x2048x1024, .f32⟩) main_v36) (TRef.of (T := ⟨S16x2048x1024, .f32⟩) main_v32) main_call4.v1 select ]

/-- Adapter 5's eleven operations. -/
abbrev stage5 : List (HloOp τ sig (Elt F)) :=
  [ binary main_arg0 main_arg12 main_v41 ((fun l r => Host.dotGeneral dot_S16x2048x1024_S32x1024_S16x2048x32_2_1_01_0_n_n none l r) : (⟨S16x2048x1024, .f32⟩ : BufTy).Contents (Elt F) → (⟨S32x1024, .f32⟩ : BufTy).Contents (Elt F) → (⟨S16x2048x32, .f32⟩ : BufTy).Contents (Elt F)),
    binary main_v41 main_arg11 main_v42 ((fun l r => Host.dotGeneral dot_S16x2048x32_S1024x32_S16x2048x1024_2_1_01_0_n_n none l r) : (⟨S16x2048x32, .f32⟩ : BufTy).Contents (Elt F) → (⟨S1024x32, .f32⟩ : BufTy).Contents (Elt F) → (⟨S16x2048x1024, .f32⟩ : BufTy).Contents (Elt F)),
    nullary main_cst_10 (constant S_ .f32 0x3D000000#32),
    unary main_cst_10 main_v43 (broadcastInDim S16x2048x1024 ![] bcast_S_S16x2048x1024 : (⟨S_, .f32⟩ : BufTy).Contents (Elt F) → (⟨S16x2048x1024, .f32⟩ : BufTy).Contents (Elt F)),
    binary main_v42 main_v43 main_v44 (mulf : (⟨S16x2048x1024, .f32⟩ : BufTy).Contents (Elt F) → (⟨S16x2048x1024, .f32⟩ : BufTy).Contents (Elt F) → (⟨S16x2048x1024, .f32⟩ : BufTy).Contents (Elt F)),
    nullary main_c_11 (constantI S_ 32 5#32),
    unary main_c_11 main_v45 (broadcastInDim S16 ![] bcast_S_S16 : (⟨S_, .i32⟩ : BufTy).Contents (Elt F) → (⟨S16, .i32⟩ : BufTy).Contents (Elt F)),
    binary main_c main_v45 main_v46 (cmpi .eq : (⟨S16, .i32⟩ : BufTy).Contents (Elt F) → (⟨S16, .i32⟩ : BufTy).Contents (Elt F) → (⟨S16, .i1⟩ : BufTy).Contents (Elt F)),
    unary main_v46 main_v47 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v47) main_call5.v0 (broadcastInDim S16x2048x1024 ![0, 1, 2] bcast_S16x1x1_S16x2048x1024_0_1_2),
    TRef.ternary main_call5.v0 (TRef.of (T := ⟨S16x2048x1024, .f32⟩) main_v44) (TRef.of (T := ⟨S16x2048x1024, .f32⟩) main_v40) main_call5.v1 select ]

/-- Adapter 6's eleven operations. -/
abbrev stage6 : List (HloOp τ sig (Elt F)) :=
  [ binary main_arg0 main_arg14 main_v49 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    binary main_v49 main_arg13 main_v50 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    nullary main_cst_12 (constant S_ .f32 0x3E000000#32),
    unary main_cst_12 main_v51 (broadcastInDim S16x2048x1024 ![] bcast_S_S16x2048x1024 : (⟨S_, .f32⟩ : BufTy).Contents (Elt F) → (⟨S16x2048x1024, .f32⟩ : BufTy).Contents (Elt F)),
    binary main_v50 main_v51 main_v52 (mulf : (⟨S16x2048x1024, .f32⟩ : BufTy).Contents (Elt F) → (⟨S16x2048x1024, .f32⟩ : BufTy).Contents (Elt F) → (⟨S16x2048x1024, .f32⟩ : BufTy).Contents (Elt F)),
    nullary main_c_13 (constantI S_ 32 6#32),
    unary main_c_13 main_v53 (broadcastInDim S16 ![] bcast_S_S16 : (⟨S_, .i32⟩ : BufTy).Contents (Elt F) → (⟨S16, .i32⟩ : BufTy).Contents (Elt F)),
    binary main_c main_v53 main_v54 (cmpi .eq : (⟨S16, .i32⟩ : BufTy).Contents (Elt F) → (⟨S16, .i32⟩ : BufTy).Contents (Elt F) → (⟨S16, .i1⟩ : BufTy).Contents (Elt F)),
    unary main_v54 main_v55 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v55) main_call6.v0 (broadcastInDim S16x2048x1024 ![0, 1, 2] bcast_S16x1x1_S16x2048x1024_0_1_2),
    TRef.ternary main_call6.v0 (TRef.of (T := ⟨S16x2048x1024, .f32⟩) main_v52) (TRef.of (T := ⟨S16x2048x1024, .f32⟩) main_v48) main_call6.v1 select ]

/-- Adapter 7's eleven operations. -/
abbrev stage7 : List (HloOp τ sig (Elt F)) :=
  [ binary main_arg0 main_arg16 main_v57 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    binary main_v57 main_arg15 main_v58 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    nullary main_cst_14 (constant S_ .f32 0x3D800000#32),
    unary main_cst_14 main_v59 (broadcastInDim S16x2048x1024 ![] bcast_S_S16x2048x1024 : (⟨S_, .f32⟩ : BufTy).Contents (Elt F) → (⟨S16x2048x1024, .f32⟩ : BufTy).Contents (Elt F)),
    binary main_v58 main_v59 main_v60 (mulf : (⟨S16x2048x1024, .f32⟩ : BufTy).Contents (Elt F) → (⟨S16x2048x1024, .f32⟩ : BufTy).Contents (Elt F) → (⟨S16x2048x1024, .f32⟩ : BufTy).Contents (Elt F)),
    nullary main_c_15 (constantI S_ 32 7#32),
    unary main_c_15 main_v61 (broadcastInDim S16 ![] bcast_S_S16 : (⟨S_, .i32⟩ : BufTy).Contents (Elt F) → (⟨S16, .i32⟩ : BufTy).Contents (Elt F)),
    binary main_c main_v61 main_v62 (cmpi .eq : (⟨S16, .i32⟩ : BufTy).Contents (Elt F) → (⟨S16, .i32⟩ : BufTy).Contents (Elt F) → (⟨S16, .i1⟩ : BufTy).Contents (Elt F)),
    unary main_v62 main_v63 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v63) main_call7.v0 (broadcastInDim S16x2048x1024 ![0, 1, 2] bcast_S16x1x1_S16x2048x1024_0_1_2),
    TRef.ternary main_call7.v0 (TRef.of (T := ⟨S16x2048x1024, .f32⟩) main_v60) (TRef.of (T := ⟨S16x2048x1024, .f32⟩) main_v56) main_call7.v1 select ]

/-- @main's ninety-one operations, in order. -/
abbrev ops : List (HloOp τ sig (Elt F)) :=
  [ nullary main_c (fun i => lit0 (S16.rowMajor i)),
    nullary main_cst (constant S_ .f32 0x00000000#32),
    unary main_cst main_v0 (broadcastInDim S16x2048x1024 ![] bcast_S_S16x2048x1024 : (⟨S_, .f32⟩ : BufTy).Contents (Elt F) → (⟨S16x2048x1024, .f32⟩ : BufTy).Contents (Elt F)),
    binary main_arg0 main_arg2 main_v1 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    binary main_v1 main_arg1 main_v2 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    nullary main_cst_0 (constant S_ .f32 0x3E000000#32),
    unary main_cst_0 main_v3 (broadcastInDim S16x2048x1024 ![] bcast_S_S16x2048x1024 : (⟨S_, .f32⟩ : BufTy).Contents (Elt F) → (⟨S16x2048x1024, .f32⟩ : BufTy).Contents (Elt F)),
    binary main_v2 main_v3 main_v4 (mulf : (⟨S16x2048x1024, .f32⟩ : BufTy).Contents (Elt F) → (⟨S16x2048x1024, .f32⟩ : BufTy).Contents (Elt F) → (⟨S16x2048x1024, .f32⟩ : BufTy).Contents (Elt F)),
    nullary main_c_1 (constantI S_ 32 0#32),
    unary main_c_1 main_v5 (broadcastInDim S16 ![] bcast_S_S16 : (⟨S_, .i32⟩ : BufTy).Contents (Elt F) → (⟨S16, .i32⟩ : BufTy).Contents (Elt F)),
    binary main_c main_v5 main_v6 (cmpi .eq : (⟨S16, .i32⟩ : BufTy).Contents (Elt F) → (⟨S16, .i32⟩ : BufTy).Contents (Elt F) → (⟨S16, .i1⟩ : BufTy).Contents (Elt F)),
    unary main_v6 main_v7 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v7) main_call0.v0 (broadcastInDim S16x2048x1024 ![0, 1, 2] bcast_S16x1x1_S16x2048x1024_0_1_2),
    TRef.ternary main_call0.v0 (TRef.of (T := ⟨S16x2048x1024, .f32⟩) main_v4) (TRef.of (T := ⟨S16x2048x1024, .f32⟩) main_v0) main_call0.v1 select,
    binary main_arg0 main_arg4 main_v9 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    binary main_v9 main_arg3 main_v10 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    nullary main_cst_2 (constant S_ .f32 0x3D800000#32),
    unary main_cst_2 main_v11 (broadcastInDim S16x2048x1024 ![] bcast_S_S16x2048x1024 : (⟨S_, .f32⟩ : BufTy).Contents (Elt F) → (⟨S16x2048x1024, .f32⟩ : BufTy).Contents (Elt F)),
    binary main_v10 main_v11 main_v12 (mulf : (⟨S16x2048x1024, .f32⟩ : BufTy).Contents (Elt F) → (⟨S16x2048x1024, .f32⟩ : BufTy).Contents (Elt F) → (⟨S16x2048x1024, .f32⟩ : BufTy).Contents (Elt F)),
    nullary main_c_3 (constantI S_ 32 1#32),
    unary main_c_3 main_v13 (broadcastInDim S16 ![] bcast_S_S16 : (⟨S_, .i32⟩ : BufTy).Contents (Elt F) → (⟨S16, .i32⟩ : BufTy).Contents (Elt F)),
    binary main_c main_v13 main_v14 (cmpi .eq : (⟨S16, .i32⟩ : BufTy).Contents (Elt F) → (⟨S16, .i32⟩ : BufTy).Contents (Elt F) → (⟨S16, .i1⟩ : BufTy).Contents (Elt F)),
    unary main_v14 main_v15 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v15) main_call1.v0 (broadcastInDim S16x2048x1024 ![0, 1, 2] bcast_S16x1x1_S16x2048x1024_0_1_2),
    TRef.ternary main_call1.v0 (TRef.of (T := ⟨S16x2048x1024, .f32⟩) main_v12) (TRef.of (T := ⟨S16x2048x1024, .f32⟩) main_v8) main_call1.v1 select,
    binary main_arg0 main_arg6 main_v17 ((fun l r => Host.dotGeneral dot_S16x2048x1024_S32x1024_S16x2048x32_2_1_01_0_n_n none l r) : (⟨S16x2048x1024, .f32⟩ : BufTy).Contents (Elt F) → (⟨S32x1024, .f32⟩ : BufTy).Contents (Elt F) → (⟨S16x2048x32, .f32⟩ : BufTy).Contents (Elt F)),
    binary main_v17 main_arg5 main_v18 ((fun l r => Host.dotGeneral dot_S16x2048x32_S1024x32_S16x2048x1024_2_1_01_0_n_n none l r) : (⟨S16x2048x32, .f32⟩ : BufTy).Contents (Elt F) → (⟨S1024x32, .f32⟩ : BufTy).Contents (Elt F) → (⟨S16x2048x1024, .f32⟩ : BufTy).Contents (Elt F)),
    nullary main_cst_4 (constant S_ .f32 0x3D000000#32),
    unary main_cst_4 main_v19 (broadcastInDim S16x2048x1024 ![] bcast_S_S16x2048x1024 : (⟨S_, .f32⟩ : BufTy).Contents (Elt F) → (⟨S16x2048x1024, .f32⟩ : BufTy).Contents (Elt F)),
    binary main_v18 main_v19 main_v20 (mulf : (⟨S16x2048x1024, .f32⟩ : BufTy).Contents (Elt F) → (⟨S16x2048x1024, .f32⟩ : BufTy).Contents (Elt F) → (⟨S16x2048x1024, .f32⟩ : BufTy).Contents (Elt F)),
    nullary main_c_5 (constantI S_ 32 2#32),
    unary main_c_5 main_v21 (broadcastInDim S16 ![] bcast_S_S16 : (⟨S_, .i32⟩ : BufTy).Contents (Elt F) → (⟨S16, .i32⟩ : BufTy).Contents (Elt F)),
    binary main_c main_v21 main_v22 (cmpi .eq : (⟨S16, .i32⟩ : BufTy).Contents (Elt F) → (⟨S16, .i32⟩ : BufTy).Contents (Elt F) → (⟨S16, .i1⟩ : BufTy).Contents (Elt F)),
    unary main_v22 main_v23 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v23) main_call2.v0 (broadcastInDim S16x2048x1024 ![0, 1, 2] bcast_S16x1x1_S16x2048x1024_0_1_2),
    TRef.ternary main_call2.v0 (TRef.of (T := ⟨S16x2048x1024, .f32⟩) main_v20) (TRef.of (T := ⟨S16x2048x1024, .f32⟩) main_v16) main_call2.v1 select,
    binary main_arg0 main_arg8 main_v25 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    binary main_v25 main_arg7 main_v26 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    nullary main_cst_6 (constant S_ .f32 0x3E000000#32),
    unary main_cst_6 main_v27 (broadcastInDim S16x2048x1024 ![] bcast_S_S16x2048x1024 : (⟨S_, .f32⟩ : BufTy).Contents (Elt F) → (⟨S16x2048x1024, .f32⟩ : BufTy).Contents (Elt F)),
    binary main_v26 main_v27 main_v28 (mulf : (⟨S16x2048x1024, .f32⟩ : BufTy).Contents (Elt F) → (⟨S16x2048x1024, .f32⟩ : BufTy).Contents (Elt F) → (⟨S16x2048x1024, .f32⟩ : BufTy).Contents (Elt F)),
    nullary main_c_7 (constantI S_ 32 3#32),
    unary main_c_7 main_v29 (broadcastInDim S16 ![] bcast_S_S16 : (⟨S_, .i32⟩ : BufTy).Contents (Elt F) → (⟨S16, .i32⟩ : BufTy).Contents (Elt F)),
    binary main_c main_v29 main_v30 (cmpi .eq : (⟨S16, .i32⟩ : BufTy).Contents (Elt F) → (⟨S16, .i32⟩ : BufTy).Contents (Elt F) → (⟨S16, .i1⟩ : BufTy).Contents (Elt F)),
    unary main_v30 main_v31 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v31) main_call3.v0 (broadcastInDim S16x2048x1024 ![0, 1, 2] bcast_S16x1x1_S16x2048x1024_0_1_2),
    TRef.ternary main_call3.v0 (TRef.of (T := ⟨S16x2048x1024, .f32⟩) main_v28) (TRef.of (T := ⟨S16x2048x1024, .f32⟩) main_v24) main_call3.v1 select,
    binary main_arg0 main_arg10 main_v33 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    binary main_v33 main_arg9 main_v34 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    nullary main_cst_8 (constant S_ .f32 0x3D800000#32),
    unary main_cst_8 main_v35 (broadcastInDim S16x2048x1024 ![] bcast_S_S16x2048x1024 : (⟨S_, .f32⟩ : BufTy).Contents (Elt F) → (⟨S16x2048x1024, .f32⟩ : BufTy).Contents (Elt F)),
    binary main_v34 main_v35 main_v36 (mulf : (⟨S16x2048x1024, .f32⟩ : BufTy).Contents (Elt F) → (⟨S16x2048x1024, .f32⟩ : BufTy).Contents (Elt F) → (⟨S16x2048x1024, .f32⟩ : BufTy).Contents (Elt F)),
    nullary main_c_9 (constantI S_ 32 4#32),
    unary main_c_9 main_v37 (broadcastInDim S16 ![] bcast_S_S16 : (⟨S_, .i32⟩ : BufTy).Contents (Elt F) → (⟨S16, .i32⟩ : BufTy).Contents (Elt F)),
    binary main_c main_v37 main_v38 (cmpi .eq : (⟨S16, .i32⟩ : BufTy).Contents (Elt F) → (⟨S16, .i32⟩ : BufTy).Contents (Elt F) → (⟨S16, .i1⟩ : BufTy).Contents (Elt F)),
    unary main_v38 main_v39 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v39) main_call4.v0 (broadcastInDim S16x2048x1024 ![0, 1, 2] bcast_S16x1x1_S16x2048x1024_0_1_2),
    TRef.ternary main_call4.v0 (TRef.of (T := ⟨S16x2048x1024, .f32⟩) main_v36) (TRef.of (T := ⟨S16x2048x1024, .f32⟩) main_v32) main_call4.v1 select,
    binary main_arg0 main_arg12 main_v41 ((fun l r => Host.dotGeneral dot_S16x2048x1024_S32x1024_S16x2048x32_2_1_01_0_n_n none l r) : (⟨S16x2048x1024, .f32⟩ : BufTy).Contents (Elt F) → (⟨S32x1024, .f32⟩ : BufTy).Contents (Elt F) → (⟨S16x2048x32, .f32⟩ : BufTy).Contents (Elt F)),
    binary main_v41 main_arg11 main_v42 ((fun l r => Host.dotGeneral dot_S16x2048x32_S1024x32_S16x2048x1024_2_1_01_0_n_n none l r) : (⟨S16x2048x32, .f32⟩ : BufTy).Contents (Elt F) → (⟨S1024x32, .f32⟩ : BufTy).Contents (Elt F) → (⟨S16x2048x1024, .f32⟩ : BufTy).Contents (Elt F)),
    nullary main_cst_10 (constant S_ .f32 0x3D000000#32),
    unary main_cst_10 main_v43 (broadcastInDim S16x2048x1024 ![] bcast_S_S16x2048x1024 : (⟨S_, .f32⟩ : BufTy).Contents (Elt F) → (⟨S16x2048x1024, .f32⟩ : BufTy).Contents (Elt F)),
    binary main_v42 main_v43 main_v44 (mulf : (⟨S16x2048x1024, .f32⟩ : BufTy).Contents (Elt F) → (⟨S16x2048x1024, .f32⟩ : BufTy).Contents (Elt F) → (⟨S16x2048x1024, .f32⟩ : BufTy).Contents (Elt F)),
    nullary main_c_11 (constantI S_ 32 5#32),
    unary main_c_11 main_v45 (broadcastInDim S16 ![] bcast_S_S16 : (⟨S_, .i32⟩ : BufTy).Contents (Elt F) → (⟨S16, .i32⟩ : BufTy).Contents (Elt F)),
    binary main_c main_v45 main_v46 (cmpi .eq : (⟨S16, .i32⟩ : BufTy).Contents (Elt F) → (⟨S16, .i32⟩ : BufTy).Contents (Elt F) → (⟨S16, .i1⟩ : BufTy).Contents (Elt F)),
    unary main_v46 main_v47 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v47) main_call5.v0 (broadcastInDim S16x2048x1024 ![0, 1, 2] bcast_S16x1x1_S16x2048x1024_0_1_2),
    TRef.ternary main_call5.v0 (TRef.of (T := ⟨S16x2048x1024, .f32⟩) main_v44) (TRef.of (T := ⟨S16x2048x1024, .f32⟩) main_v40) main_call5.v1 select,
    binary main_arg0 main_arg14 main_v49 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    binary main_v49 main_arg13 main_v50 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    nullary main_cst_12 (constant S_ .f32 0x3E000000#32),
    unary main_cst_12 main_v51 (broadcastInDim S16x2048x1024 ![] bcast_S_S16x2048x1024 : (⟨S_, .f32⟩ : BufTy).Contents (Elt F) → (⟨S16x2048x1024, .f32⟩ : BufTy).Contents (Elt F)),
    binary main_v50 main_v51 main_v52 (mulf : (⟨S16x2048x1024, .f32⟩ : BufTy).Contents (Elt F) → (⟨S16x2048x1024, .f32⟩ : BufTy).Contents (Elt F) → (⟨S16x2048x1024, .f32⟩ : BufTy).Contents (Elt F)),
    nullary main_c_13 (constantI S_ 32 6#32),
    unary main_c_13 main_v53 (broadcastInDim S16 ![] bcast_S_S16 : (⟨S_, .i32⟩ : BufTy).Contents (Elt F) → (⟨S16, .i32⟩ : BufTy).Contents (Elt F)),
    binary main_c main_v53 main_v54 (cmpi .eq : (⟨S16, .i32⟩ : BufTy).Contents (Elt F) → (⟨S16, .i32⟩ : BufTy).Contents (Elt F) → (⟨S16, .i1⟩ : BufTy).Contents (Elt F)),
    unary main_v54 main_v55 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v55) main_call6.v0 (broadcastInDim S16x2048x1024 ![0, 1, 2] bcast_S16x1x1_S16x2048x1024_0_1_2),
    TRef.ternary main_call6.v0 (TRef.of (T := ⟨S16x2048x1024, .f32⟩) main_v52) (TRef.of (T := ⟨S16x2048x1024, .f32⟩) main_v48) main_call6.v1 select,
    binary main_arg0 main_arg16 main_v57 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    binary main_v57 main_arg15 main_v58 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    nullary main_cst_14 (constant S_ .f32 0x3D800000#32),
    unary main_cst_14 main_v59 (broadcastInDim S16x2048x1024 ![] bcast_S_S16x2048x1024 : (⟨S_, .f32⟩ : BufTy).Contents (Elt F) → (⟨S16x2048x1024, .f32⟩ : BufTy).Contents (Elt F)),
    binary main_v58 main_v59 main_v60 (mulf : (⟨S16x2048x1024, .f32⟩ : BufTy).Contents (Elt F) → (⟨S16x2048x1024, .f32⟩ : BufTy).Contents (Elt F) → (⟨S16x2048x1024, .f32⟩ : BufTy).Contents (Elt F)),
    nullary main_c_15 (constantI S_ 32 7#32),
    unary main_c_15 main_v61 (broadcastInDim S16 ![] bcast_S_S16 : (⟨S_, .i32⟩ : BufTy).Contents (Elt F) → (⟨S16, .i32⟩ : BufTy).Contents (Elt F)),
    binary main_c main_v61 main_v62 (cmpi .eq : (⟨S16, .i32⟩ : BufTy).Contents (Elt F) → (⟨S16, .i32⟩ : BufTy).Contents (Elt F) → (⟨S16, .i1⟩ : BufTy).Contents (Elt F)),
    unary main_v62 main_v63 (broadcastInDim S16x1x1 ![0] bcast_S16_S16x1x1_0 : (⟨S16, .i1⟩ : BufTy).Contents (Elt F) → (⟨S16x1x1, .i1⟩ : BufTy).Contents (Elt F)),
    TRef.unary (TRef.of (T := ⟨S16x1x1, .i1⟩) main_v63) main_call7.v0 (broadcastInDim S16x2048x1024 ![0, 1, 2] bcast_S16x1x1_S16x2048x1024_0_1_2),
    TRef.ternary main_call7.v0 (TRef.of (T := ⟨S16x2048x1024, .f32⟩) main_v60) (TRef.of (T := ⟨S16x2048x1024, .f32⟩) main_v56) main_call7.v1 select ]

/-- The line is its pieces in order. -/
theorem ops_eq : (ops : List (HloOp τ sig (Elt F))) = pre ++ (stage0 ++ (stage1 ++ (stage2 ++ (stage3 ++ (stage4 ++ (stage5 ++ (stage6 ++ stage7))))))) := rfl

set_option maxRecDepth 8192 in
set_option maxHeartbeats 4000000 in
/-- @main is the line run in order: its two windows and the eight calls unfold to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., unary_bufs_sub .., unary_bufs_sub .., ternary_bufs_sub ..⟩

end Cert.ReferenceIdeal.Hand

end
-- ==== Proof.RefTerm.lean ====
/-
  The reference's result as ONE term of the seventeen argument arrays.

  The reference runs the eight adapters one after the other.  Step a computes adapter a's update of EVERY sequence,
  y_a = ((x · B_aᵀ) · A_aᵀ) · (1 / r_a), and keeps it for the sequences whose table entry is a, leaving the others
  as the steps before left them: result_a = where(table = a, y_a, result_{a-1}), from result_{-1} = 0.  The table
  is the constant [0, 1, …, 7, 0, 1, …, 7].  `stageVal` is one such step as a function of what it reads;
  `refTerm` is the eight steps nested, the last adapter outermost.
-/
import proofs.«174516_g44933947850968_cont_8to1_c_774_16_alg».proof.ReferenceIdeal

noncomputable section

namespace Cert.ReferenceIdeal.Hand

open Idealize.ShloMosaic Cert.ReferenceIdeal Cert.ReferenceIdeal.Facts₀

variable {F : FTy → Type} [FloatOps F] [Facts]

/-- One adapter's step: where the table's word is `aw` the scaled product ((x · Bᵀ) · Aᵀ) · scale, elsewhere `prev`. -/
def stageVal (r : ℕ) (D1 : DotDims S16x2048x1024 ⟨2, ![r, 1024]⟩ ⟨3, ![16, 2048, r]⟩)
    (D2 : DotDims ⟨3, ![16, 2048, r]⟩ ⟨2, ![1024, r]⟩ S16x2048x1024) (cw aw : BitVec 32)
    (x : FVec F S16x2048x1024 .f32) (A : FVec F ⟨2, ![1024, r]⟩ .f32) (B : FVec F ⟨2, ![r, 1024]⟩ .f32)
    (tbl : IVec S16 32) (prev : FVec F S16x2048x1024 .f32) : FVec F S16x2048x1024 .f32 :=
  select
    (broadcastInDim S16x2048x1024 ![0, 1, 2] bcast_S16x1x1_S16x2048x1024_0_1_2
      (broadcastInDim S16x1x1 ![0] bcast_S16_S16x1x1_0
        (cmpi .eq tbl (broadcastInDim S16 ![] bcast_S_S16 (constantI S_ 32 aw)))))
    (mulf (Host.dotGeneral D2 none (Host.dotGeneral D1 none x B) A)
      (broadcastInDim S16x2048x1024 ![] bcast_S_S16x2048x1024 (constant (F := F) S_ .f32 cw)))
    prev

/-- The routing table: sequence b's adapter number, the printed constant's word at b. -/
def table : IVec S16 32 := fun i => lit0 (S16.rowMajor i)

/-- The array of zeros the first step falls back to. -/
def zeros : FVec F S16x2048x1024 .f32 :=
  broadcastInDim S16x2048x1024 ![] bcast_S_S16x2048x1024 (constant (F := F) S_ .f32 0x00000000#32)

/-- The reference's result: the eight steps nested, adapter 7's outermost, over the zeros. -/
def refTerm (x : FVec F S16x2048x1024 .f32)
    (A0 : FVec F ⟨2, ![1024, 8]⟩ .f32) (B0 : FVec F ⟨2, ![8, 1024]⟩ .f32)
    (A1 : FVec F ⟨2, ![1024, 16]⟩ .f32) (B1 : FVec F ⟨2, ![16, 1024]⟩ .f32)
    (A2 : FVec F ⟨2, ![1024, 32]⟩ .f32) (B2 : FVec F ⟨2, ![32, 1024]⟩ .f32)
    (A3 : FVec F ⟨2, ![1024, 8]⟩ .f32) (B3 : FVec F ⟨2, ![8, 1024]⟩ .f32)
    (A4 : FVec F ⟨2, ![1024, 16]⟩ .f32) (B4 : FVec F ⟨2, ![16, 1024]⟩ .f32)
    (A5 : FVec F ⟨2, ![1024, 32]⟩ .f32) (B5 : FVec F ⟨2, ![32, 1024]⟩ .f32)
    (A6 : FVec F ⟨2, ![1024, 8]⟩ .f32) (B6 : FVec F ⟨2, ![8, 1024]⟩ .f32)
    (A7 : FVec F ⟨2, ![1024, 16]⟩ .f32) (B7 : FVec F ⟨2, ![16, 1024]⟩ .f32) :
    FVec F S16x2048x1024 .f32 :=
  stageVal 16 dot_S16x2048x1024_S16x1024_S16x2048x16_2_1_01_0_n_n dot_S16x2048x16_S1024x16_S16x2048x1024_2_1_01_0_n_n 0x3D800000#32 7#32 x A7 B7 table
      (stageVal 8 dot_S16x2048x1024_S8x1024_S16x2048x8_2_1_01_0_n_n dot_S16x2048x8_S1024x8_S16x2048x1024_2_1_01_0_n_n 0x3E000000#32 6#32 x A6 B6 table
      (stageVal 32 dot_S16x2048x1024_S32x1024_S16x2048x32_2_1_01_0_n_n dot_S16x2048x32_S1024x32_S16x2048x1024_2_1_01_0_n_n 0x3D000000#32 5#32 x A5 B5 table
      (stageVal 16 dot_S16x2048x1024_S16x1024_S16x2048x16_2_1_01_0_n_n dot_S16x2048x16_S1024x16_S16x2048x1024_2_1_01_0_n_n 0x3D800000#32 4#32 x A4 B4 table
      (stageVal 8 dot_S16x2048x1024_S8x1024_S16x2048x8_2_1_01_0_n_n dot_S16x2048x8_S1024x8_S16x2048x1024_2_1_01_0_n_n 0x3E000000#32 3#32 x A3 B3 table
      (stageVal 32 dot_S16x2048x1024_S32x1024_S16x2048x32_2_1_01_0_n_n dot_S16x2048x32_S1024x32_S16x2048x1024_2_1_01_0_n_n 0x3D000000#32 2#32 x A2 B2 table
      (stageVal 16 dot_S16x2048x1024_S16x1024_S16x2048x16_2_1_01_0_n_n dot_S16x2048x16_S1024x16_S16x2048x1024_2_1_01_0_n_n 0x3D800000#32 1#32 x A1 B1 table
      (stageVal 8 dot_S16x2048x1024_S8x1024_S16x2048x8_2_1_01_0_n_n dot_S16x2048x8_S1024x8_S16x2048x1024_2_1_01_0_n_n 0x3E000000#32 0#32 x A0 B0 table
      (zeros))))))))

end Cert.ReferenceIdeal.Hand

end
-- ==== Proof.RefRun.lean ====
/-
  The reference's run: every execution ends with the result buffer at the eight nested steps of the arguments.

  The run of a straight line of host operations ends with every buffer at the line's fold over the launch contents.
  The fold is read piece by piece.  Each adapter's eleven operations, from ANY contents, leave their result buffer at
  one step (`stageVal`) of what they read — x, the adapter's two matrices, the table, the earlier result — and write
  only their own eleven buffers.  So along the line three things hold after every piece: the seventeen argument
  buffers are as launched, the table buffer holds the table, and the latest result buffer holds the steps so far
  nested over the zeros.  After the last piece that is the statement.
-/
import proofs.«174516_g44933947850968_cont_8to1_c_774_16_alg».proof.Proof.RefOps
import proofs.«174516_g44933947850968_cont_8to1_c_774_16_alg».proof.Proof.RefTerm

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

/-! ## Folds of lists in pieces, and buffers a piece does not write -/

/-- The fold of two lines one after the other is the second's fold of the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation whose one written buffer is in a list writes inside the list. -/
theorem writes_mem {Val : EltTy → Type} {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The seventeen argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16]

/-- The buffers `pre` writes. -/
abbrev pre_W : List (Ref sig .tc) := [main_c, main_cst, main_v0]
theorem pre_writes : (pre : List (HloOp τ sig (Elt F))).Forall fun op =>
    op.writes ⊆ (pre_W.map (Proc.devRef (τ := τ) .tc)).toFinset :=
  ⟨writes_mem (y := main_c) rfl (by decide),
    writes_mem (y := main_cst) rfl (by decide),
    writes_mem (y := main_v0) rfl (by decide)⟩
theorem pre_keep (V : Valuation τ sig (Elt F)) (r : Ref sig .tc) (h : r ∉ pre_W) :
    after pre V (Proc.devRef .tc r) = V (Proc.devRef .tc r) :=
  after_of_writes_sub pre V pre_writes h

/-- The buffers `stage0` writes. -/
abbrev stage0_W : List (Ref sig .tc) := [main_v1, main_v2, main_cst_0, main_v3, main_v4, main_c_1, main_v5, main_v6, main_v7, main_call0_v0, main_v8]
theorem stage0_writes : (stage0 : List (HloOp τ sig (Elt F))).Forall fun op =>
    op.writes ⊆ (stage0_W.map (Proc.devRef (τ := τ) .tc)).toFinset :=
  ⟨writes_mem (y := main_v1) rfl (by decide),
    writes_mem (y := main_v2) rfl (by decide),
    writes_mem (y := main_cst_0) rfl (by decide),
    writes_mem (y := main_v3) rfl (by decide),
    writes_mem (y := main_v4) rfl (by decide),
    writes_mem (y := main_c_1) rfl (by decide),
    writes_mem (y := main_v5) rfl (by decide),
    writes_mem (y := main_v6) rfl (by decide),
    writes_mem (y := main_v7) rfl (by decide),
    writes_mem (y := main_call0_v0) rfl (by decide),
    writes_mem (y := main_v8) rfl (by decide)⟩
theorem stage0_keep (V : Valuation τ sig (Elt F)) (r : Ref sig .tc) (h : r ∉ stage0_W) :
    after stage0 V (Proc.devRef .tc r) = V (Proc.devRef .tc r) :=
  after_of_writes_sub stage0 V stage0_writes h

/-- The buffers `stage1` writes. -/
abbrev stage1_W : List (Ref sig .tc) := [main_v9, main_v10, main_cst_2, main_v11, main_v12, main_c_3, main_v13, main_v14, main_v15, main_call1_v0, main_v16]
theorem stage1_writes : (stage1 : List (HloOp τ sig (Elt F))).Forall fun op =>
    op.writes ⊆ (stage1_W.map (Proc.devRef (τ := τ) .tc)).toFinset :=
  ⟨writes_mem (y := main_v9) rfl (by decide),
    writes_mem (y := main_v10) rfl (by decide),
    writes_mem (y := main_cst_2) rfl (by decide),
    writes_mem (y := main_v11) rfl (by decide),
    writes_mem (y := main_v12) rfl (by decide),
    writes_mem (y := main_c_3) rfl (by decide),
    writes_mem (y := main_v13) rfl (by decide),
    writes_mem (y := main_v14) rfl (by decide),
    writes_mem (y := main_v15) rfl (by decide),
    writes_mem (y := main_call1_v0) rfl (by decide),
    writes_mem (y := main_v16) rfl (by decide)⟩
theorem stage1_keep (V : Valuation τ sig (Elt F)) (r : Ref sig .tc) (h : r ∉ stage1_W) :
    after stage1 V (Proc.devRef .tc r) = V (Proc.devRef .tc r) :=
  after_of_writes_sub stage1 V stage1_writes h

/-- The buffers `stage2` writes. -/
abbrev stage2_W : List (Ref sig .tc) := [main_v17, main_v18, main_cst_4, main_v19, main_v20, main_c_5, main_v21, main_v22, main_v23, main_call2_v0, main_v24]
theorem stage2_writes : (stage2 : List (HloOp τ sig (Elt F))).Forall fun op =>
    op.writes ⊆ (stage2_W.map (Proc.devRef (τ := τ) .tc)).toFinset :=
  ⟨writes_mem (y := main_v17) rfl (by decide),
    writes_mem (y := main_v18) rfl (by decide),
    writes_mem (y := main_cst_4) rfl (by decide),
    writes_mem (y := main_v19) rfl (by decide),
    writes_mem (y := main_v20) rfl (by decide),
    writes_mem (y := main_c_5) rfl (by decide),
    writes_mem (y := main_v21) rfl (by decide),
    writes_mem (y := main_v22) rfl (by decide),
    writes_mem (y := main_v23) rfl (by decide),
    writes_mem (y := main_call2_v0) rfl (by decide),
    writes_mem (y := main_v24) rfl (by decide)⟩
theorem stage2_keep (V : Valuation τ sig (Elt F)) (r : Ref sig .tc) (h : r ∉ stage2_W) :
    after stage2 V (Proc.devRef .tc r) = V (Proc.devRef .tc r) :=
  after_of_writes_sub stage2 V stage2_writes h

/-- The buffers `stage3` writes. -/
abbrev stage3_W : List (Ref sig .tc) := [main_v25, main_v26, main_cst_6, main_v27, main_v28, main_c_7, main_v29, main_v30, main_v31, main_call3_v0, main_v32]
theorem stage3_writes : (stage3 : List (HloOp τ sig (Elt F))).Forall fun op =>
    op.writes ⊆ (stage3_W.map (Proc.devRef (τ := τ) .tc)).toFinset :=
  ⟨writes_mem (y := main_v25) rfl (by decide),
    writes_mem (y := main_v26) rfl (by decide),
    writes_mem (y := main_cst_6) rfl (by decide),
    writes_mem (y := main_v27) rfl (by decide),
    writes_mem (y := main_v28) rfl (by decide),
    writes_mem (y := main_c_7) rfl (by decide),
    writes_mem (y := main_v29) rfl (by decide),
    writes_mem (y := main_v30) rfl (by decide),
    writes_mem (y := main_v31) rfl (by decide),
    writes_mem (y := main_call3_v0) rfl (by decide),
    writes_mem (y := main_v32) rfl (by decide)⟩
theorem stage3_keep (V : Valuation τ sig (Elt F)) (r : Ref sig .tc) (h : r ∉ stage3_W) :
    after stage3 V (Proc.devRef .tc r) = V (Proc.devRef .tc r) :=
  after_of_writes_sub stage3 V stage3_writes h

/-- The buffers `stage4` writes. -/
abbrev stage4_W : List (Ref sig .tc) := [main_v33, main_v34, main_cst_8, main_v35, main_v36, main_c_9, main_v37, main_v38, main_v39, main_call4_v0, main_v40]
theorem stage4_writes : (stage4 : List (HloOp τ sig (Elt F))).Forall fun op =>
    op.writes ⊆ (stage4_W.map (Proc.devRef (τ := τ) .tc)).toFinset :=
  ⟨writes_mem (y := main_v33) rfl (by decide),
    writes_mem (y := main_v34) rfl (by decide),
    writes_mem (y := main_cst_8) rfl (by decide),
    writes_mem (y := main_v35) rfl (by decide),
    writes_mem (y := main_v36) rfl (by decide),
    writes_mem (y := main_c_9) rfl (by decide),
    writes_mem (y := main_v37) rfl (by decide),
    writes_mem (y := main_v38) rfl (by decide),
    writes_mem (y := main_v39) rfl (by decide),
    writes_mem (y := main_call4_v0) rfl (by decide),
    writes_mem (y := main_v40) rfl (by decide)⟩
theorem stage4_keep (V : Valuation τ sig (Elt F)) (r : Ref sig .tc) (h : r ∉ stage4_W) :
    after stage4 V (Proc.devRef .tc r) = V (Proc.devRef .tc r) :=
  after_of_writes_sub stage4 V stage4_writes h

/-- The buffers `stage5` writes. -/
abbrev stage5_W : List (Ref sig .tc) := [main_v41, main_v42, main_cst_10, main_v43, main_v44, main_c_11, main_v45, main_v46, main_v47, main_call5_v0, main_v48]
theorem stage5_writes : (stage5 : List (HloOp τ sig (Elt F))).Forall fun op =>
    op.writes ⊆ (stage5_W.map (Proc.devRef (τ := τ) .tc)).toFinset :=
  ⟨writes_mem (y := main_v41) rfl (by decide),
    writes_mem (y := main_v42) rfl (by decide),
    writes_mem (y := main_cst_10) rfl (by decide),
    writes_mem (y := main_v43) rfl (by decide),
    writes_mem (y := main_v44) rfl (by decide),
    writes_mem (y := main_c_11) rfl (by decide),
    writes_mem (y := main_v45) rfl (by decide),
    writes_mem (y := main_v46) rfl (by decide),
    writes_mem (y := main_v47) rfl (by decide),
    writes_mem (y := main_call5_v0) rfl (by decide),
    writes_mem (y := main_v48) rfl (by decide)⟩
theorem stage5_keep (V : Valuation τ sig (Elt F)) (r : Ref sig .tc) (h : r ∉ stage5_W) :
    after stage5 V (Proc.devRef .tc r) = V (Proc.devRef .tc r) :=
  after_of_writes_sub stage5 V stage5_writes h

/-- The buffers `stage6` writes. -/
abbrev stage6_W : List (Ref sig .tc) := [main_v49, main_v50, main_cst_12, main_v51, main_v52, main_c_13, main_v53, main_v54, main_v55, main_call6_v0, main_v56]
theorem stage6_writes : (stage6 : List (HloOp τ sig (Elt F))).Forall fun op =>
    op.writes ⊆ (stage6_W.map (Proc.devRef (τ := τ) .tc)).toFinset :=
  ⟨writes_mem (y := main_v49) rfl (by decide),
    writes_mem (y := main_v50) rfl (by decide),
    writes_mem (y := main_cst_12) rfl (by decide),
    writes_mem (y := main_v51) rfl (by decide),
    writes_mem (y := main_v52) rfl (by decide),
    writes_mem (y := main_c_13) rfl (by decide),
    writes_mem (y := main_v53) rfl (by decide),
    writes_mem (y := main_v54) rfl (by decide),
    writes_mem (y := main_v55) rfl (by decide),
    writes_mem (y := main_call6_v0) rfl (by decide),
    writes_mem (y := main_v56) rfl (by decide)⟩
theorem stage6_keep (V : Valuation τ sig (Elt F)) (r : Ref sig .tc) (h : r ∉ stage6_W) :
    after stage6 V (Proc.devRef .tc r) = V (Proc.devRef .tc r) :=
  after_of_writes_sub stage6 V stage6_writes h

/-- The buffers `stage7` writes. -/
abbrev stage7_W : List (Ref sig .tc) := [main_v57, main_v58, main_cst_14, main_v59, main_v60, main_c_15, main_v61, main_v62, main_v63, main_call7_v0, main_v64]
theorem stage7_writes : (stage7 : List (HloOp τ sig (Elt F))).Forall fun op =>
    op.writes ⊆ (stage7_W.map (Proc.devRef (τ := τ) .tc)).toFinset :=
  ⟨writes_mem (y := main_v57) rfl (by decide),
    writes_mem (y := main_v58) rfl (by decide),
    writes_mem (y := main_cst_14) rfl (by decide),
    writes_mem (y := main_v59) rfl (by decide),
    writes_mem (y := main_v60) rfl (by decide),
    writes_mem (y := main_c_15) rfl (by decide),
    writes_mem (y := main_v61) rfl (by decide),
    writes_mem (y := main_v62) rfl (by decide),
    writes_mem (y := main_v63) rfl (by decide),
    writes_mem (y := main_call7_v0) rfl (by decide),
    writes_mem (y := main_v64) rfl (by decide)⟩
theorem stage7_keep (V : Valuation τ sig (Elt F)) (r : Ref sig .tc) (h : r ∉ stage7_W) :
    after stage7 V (Proc.devRef .tc r) = V (Proc.devRef .tc r) :=
  after_of_writes_sub stage7 V stage7_writes h

/-! ## What each piece leaves in its result buffer -/

theorem pre_table (V : Valuation τ sig (Elt F)) : after pre V (Proc.devRef .tc main_c) = table := by
  after_results <;> rfl

theorem pre_zeros (V : Valuation τ sig (Elt F)) : after pre V (Proc.devRef .tc main_v0) = zeros (F := F) := by
  after_results <;> rfl

set_option maxHeartbeats 2000000 in
theorem stage0_res (V : Valuation τ sig (Elt F)) :
    after stage0 V (Proc.devRef .tc main_v8)
      = stageVal 8 dot_S16x2048x1024_S8x1024_S16x2048x8_2_1_01_0_n_n dot_S16x2048x8_S1024x8_S16x2048x1024_2_1_01_0_n_n 0x3E000000#32 0#32
          (V (Proc.devRef .tc main_arg0)) (V (Proc.devRef .tc main_arg1)) (V (Proc.devRef .tc main_arg2))
          (V (Proc.devRef .tc main_c)) (V (Proc.devRef .tc main_v0)) := by
  after_results <;> rfl

set_option maxHeartbeats 2000000 in
theorem stage1_res (V : Valuation τ sig (Elt F)) :
    after stage1 V (Proc.devRef .tc main_v16)
      = stageVal 16 dot_S16x2048x1024_S16x1024_S16x2048x16_2_1_01_0_n_n dot_S16x2048x16_S1024x16_S16x2048x1024_2_1_01_0_n_n 0x3D800000#32 1#32
          (V (Proc.devRef .tc main_arg0)) (V (Proc.devRef .tc main_arg3)) (V (Proc.devRef .tc main_arg4))
          (V (Proc.devRef .tc main_c)) (V (Proc.devRef .tc main_v8)) := by
  after_results <;> rfl

set_option maxHeartbeats 2000000 in
theorem stage2_res (V : Valuation τ sig (Elt F)) :
    after stage2 V (Proc.devRef .tc main_v24)
      = stageVal 32 dot_S16x2048x1024_S32x1024_S16x2048x32_2_1_01_0_n_n dot_S16x2048x32_S1024x32_S16x2048x1024_2_1_01_0_n_n 0x3D000000#32 2#32
          (V (Proc.devRef .tc main_arg0)) (V (Proc.devRef .tc main_arg5)) (V (Proc.devRef .tc main_arg6))
          (V (Proc.devRef .tc main_c)) (V (Proc.devRef .tc main_v16)) := by
  after_results <;> rfl

set_option maxHeartbeats 2000000 in
theorem stage3_res (V : Valuation τ sig (Elt F)) :
    after stage3 V (Proc.devRef .tc main_v32)
      = stageVal 8 dot_S16x2048x1024_S8x1024_S16x2048x8_2_1_01_0_n_n dot_S16x2048x8_S1024x8_S16x2048x1024_2_1_01_0_n_n 0x3E000000#32 3#32
          (V (Proc.devRef .tc main_arg0)) (V (Proc.devRef .tc main_arg7)) (V (Proc.devRef .tc main_arg8))
          (V (Proc.devRef .tc main_c)) (V (Proc.devRef .tc main_v24)) := by
  after_results <;> rfl

set_option maxHeartbeats 2000000 in
theorem stage4_res (V : Valuation τ sig (Elt F)) :
    after stage4 V (Proc.devRef .tc main_v40)
      = stageVal 16 dot_S16x2048x1024_S16x1024_S16x2048x16_2_1_01_0_n_n dot_S16x2048x16_S1024x16_S16x2048x1024_2_1_01_0_n_n 0x3D800000#32 4#32
          (V (Proc.devRef .tc main_arg0)) (V (Proc.devRef .tc main_arg9)) (V (Proc.devRef .tc main_arg10))
          (V (Proc.devRef .tc main_c)) (V (Proc.devRef .tc main_v32)) := by
  after_results <;> rfl

set_option maxHeartbeats 2000000 in
theorem stage5_res (V : Valuation τ sig (Elt F)) :
    after stage5 V (Proc.devRef .tc main_v48)
      = stageVal 32 dot_S16x2048x1024_S32x1024_S16x2048x32_2_1_01_0_n_n dot_S16x2048x32_S1024x32_S16x2048x1024_2_1_01_0_n_n 0x3D000000#32 5#32
          (V (Proc.devRef .tc main_arg0)) (V (Proc.devRef .tc main_arg11)) (V (Proc.devRef .tc main_arg12))
          (V (Proc.devRef .tc main_c)) (V (Proc.devRef .tc main_v40)) := by
  after_results <;> rfl

set_option maxHeartbeats 2000000 in
theorem stage6_res (V : Valuation τ sig (Elt F)) :
    after stage6 V (Proc.devRef .tc main_v56)
      = stageVal 8 dot_S16x2048x1024_S8x1024_S16x2048x8_2_1_01_0_n_n dot_S16x2048x8_S1024x8_S16x2048x1024_2_1_01_0_n_n 0x3E000000#32 6#32
          (V (Proc.devRef .tc main_arg0)) (V (Proc.devRef .tc main_arg13)) (V (Proc.devRef .tc main_arg14))
          (V (Proc.devRef .tc main_c)) (V (Proc.devRef .tc main_v48)) := by
  after_results <;> rfl

set_option maxHeartbeats 2000000 in
theorem stage7_res (V : Valuation τ sig (Elt F)) :
    after stage7 V (Proc.devRef .tc main_v64)
      = stageVal 16 dot_S16x2048x1024_S16x1024_S16x2048x16_2_1_01_0_n_n dot_S16x2048x16_S1024x16_S16x2048x1024_2_1_01_0_n_n 0x3D800000#32 7#32
          (V (Proc.devRef .tc main_arg0)) (V (Proc.devRef .tc main_arg15)) (V (Proc.devRef .tc main_arg16))
          (V (Proc.devRef .tc main_c)) (V (Proc.devRef .tc main_v56)) := by
  after_results <;> rfl

/-! ## The three facts carried along the line -/

/-- From launch contents `V`, contents `U` further along the line: the arguments as launched, the table buffer at
    the table, and the latest result buffer `p` at `res`. -/
structure Along (V U : Valuation τ sig (Elt F)) (p : Ref sig .tc) (res : (Proc.devRef (τ := τ) .tc p).ty.Contents (Elt F)) : Prop where
  args : ∀ r ∈ argRefs, U (Proc.devRef .tc r) = V (Proc.devRef .tc r)
  tbl : U (Proc.devRef .tc main_c) = table
  prev : U (Proc.devRef .tc p) = res

theorem pre_along (V : Valuation τ sig (Elt F)) : Along V (after pre V) main_v0 (zeros (F := F)) where
  args r hr := pre_keep V r ((by decide : ∀ r ∈ argRefs, r ∉ pre_W) r hr)
  tbl := pre_table V
  prev := pre_zeros V

theorem stage0_along {V U : Valuation τ sig (Elt F)} {res : FVec F S16x2048x1024 .f32} (h : Along V U main_v0 res) :
    Along V (after stage0 U) main_v8
      (stageVal 8 dot_S16x2048x1024_S8x1024_S16x2048x8_2_1_01_0_n_n dot_S16x2048x8_S1024x8_S16x2048x1024_2_1_01_0_n_n 0x3E000000#32 0#32
        (V (Proc.devRef .tc main_arg0)) (V (Proc.devRef .tc main_arg1)) (V (Proc.devRef .tc main_arg2)) table res) where
  args r hr := (stage0_keep U r ((by decide : ∀ r ∈ argRefs, r ∉ stage0_W) r hr)).trans (h.args r hr)
  tbl := (stage0_keep U main_c (by decide)).trans h.tbl
  prev := by
    rw [stage0_res, h.args main_arg0 (by decide), h.args main_arg1 (by decide), h.args main_arg2 (by decide), h.tbl, h.prev]

theorem stage1_along {V U : Valuation τ sig (Elt F)} {res : FVec F S16x2048x1024 .f32} (h : Along V U main_v8 res) :
    Along V (after stage1 U) main_v16
      (stageVal 16 dot_S16x2048x1024_S16x1024_S16x2048x16_2_1_01_0_n_n dot_S16x2048x16_S1024x16_S16x2048x1024_2_1_01_0_n_n 0x3D800000#32 1#32
        (V (Proc.devRef .tc main_arg0)) (V (Proc.devRef .tc main_arg3)) (V (Proc.devRef .tc main_arg4)) table res) where
  args r hr := (stage1_keep U r ((by decide : ∀ r ∈ argRefs, r ∉ stage1_W) r hr)).trans (h.args r hr)
  tbl := (stage1_keep U main_c (by decide)).trans h.tbl
  prev := by
    rw [stage1_res, h.args main_arg0 (by decide), h.args main_arg3 (by decide), h.args main_arg4 (by decide), h.tbl, h.prev]

theorem stage2_along {V U : Valuation τ sig (Elt F)} {res : FVec F S16x2048x1024 .f32} (h : Along V U main_v16 res) :
    Along V (after stage2 U) main_v24
      (stageVal 32 dot_S16x2048x1024_S32x1024_S16x2048x32_2_1_01_0_n_n dot_S16x2048x32_S1024x32_S16x2048x1024_2_1_01_0_n_n 0x3D000000#32 2#32
        (V (Proc.devRef .tc main_arg0)) (V (Proc.devRef .tc main_arg5)) (V (Proc.devRef .tc main_arg6)) table res) where
  args r hr := (stage2_keep U r ((by decide : ∀ r ∈ argRefs, r ∉ stage2_W) r hr)).trans (h.args r hr)
  tbl := (stage2_keep U main_c (by decide)).trans h.tbl
  prev := by
    rw [stage2_res, h.args main_arg0 (by decide), h.args main_arg5 (by decide), h.args main_arg6 (by decide), h.tbl, h.prev]

theorem stage3_along {V U : Valuation τ sig (Elt F)} {res : FVec F S16x2048x1024 .f32} (h : Along V U main_v24 res) :
    Along V (after stage3 U) main_v32
      (stageVal 8 dot_S16x2048x1024_S8x1024_S16x2048x8_2_1_01_0_n_n dot_S16x2048x8_S1024x8_S16x2048x1024_2_1_01_0_n_n 0x3E000000#32 3#32
        (V (Proc.devRef .tc main_arg0)) (V (Proc.devRef .tc main_arg7)) (V (Proc.devRef .tc main_arg8)) table res) where
  args r hr := (stage3_keep U r ((by decide : ∀ r ∈ argRefs, r ∉ stage3_W) r hr)).trans (h.args r hr)
  tbl := (stage3_keep U main_c (by decide)).trans h.tbl
  prev := by
    rw [stage3_res, h.args main_arg0 (by decide), h.args main_arg7 (by decide), h.args main_arg8 (by decide), h.tbl, h.prev]

theorem stage4_along {V U : Valuation τ sig (Elt F)} {res : FVec F S16x2048x1024 .f32} (h : Along V U main_v32 res) :
    Along V (after stage4 U) main_v40
      (stageVal 16 dot_S16x2048x1024_S16x1024_S16x2048x16_2_1_01_0_n_n dot_S16x2048x16_S1024x16_S16x2048x1024_2_1_01_0_n_n 0x3D800000#32 4#32
        (V (Proc.devRef .tc main_arg0)) (V (Proc.devRef .tc main_arg9)) (V (Proc.devRef .tc main_arg10)) table res) where
  args r hr := (stage4_keep U r ((by decide : ∀ r ∈ argRefs, r ∉ stage4_W) r hr)).trans (h.args r hr)
  tbl := (stage4_keep U main_c (by decide)).trans h.tbl
  prev := by
    rw [stage4_res, h.args main_arg0 (by decide), h.args main_arg9 (by decide), h.args main_arg10 (by decide), h.tbl, h.prev]

theorem stage5_along {V U : Valuation τ sig (Elt F)} {res : FVec F S16x2048x1024 .f32} (h : Along V U main_v40 res) :
    Along V (after stage5 U) main_v48
      (stageVal 32 dot_S16x2048x1024_S32x1024_S16x2048x32_2_1_01_0_n_n dot_S16x2048x32_S1024x32_S16x2048x1024_2_1_01_0_n_n 0x3D000000#32 5#32
        (V (Proc.devRef .tc main_arg0)) (V (Proc.devRef .tc main_arg11)) (V (Proc.devRef .tc main_arg12)) table res) where
  args r hr := (stage5_keep U r ((by decide : ∀ r ∈ argRefs, r ∉ stage5_W) r hr)).trans (h.args r hr)
  tbl := (stage5_keep U main_c (by decide)).trans h.tbl
  prev := by
    rw [stage5_res, h.args main_arg0 (by decide), h.args main_arg11 (by decide), h.args main_arg12 (by decide), h.tbl, h.prev]

theorem stage6_along {V U : Valuation τ sig (Elt F)} {res : FVec F S16x2048x1024 .f32} (h : Along V U main_v48 res) :
    Along V (after stage6 U) main_v56
      (stageVal 8 dot_S16x2048x1024_S8x1024_S16x2048x8_2_1_01_0_n_n dot_S16x2048x8_S1024x8_S16x2048x1024_2_1_01_0_n_n 0x3E000000#32 6#32
        (V (Proc.devRef .tc main_arg0)) (V (Proc.devRef .tc main_arg13)) (V (Proc.devRef .tc main_arg14)) table res) where
  args r hr := (stage6_keep U r ((by decide : ∀ r ∈ argRefs, r ∉ stage6_W) r hr)).trans (h.args r hr)
  tbl := (stage6_keep U main_c (by decide)).trans h.tbl
  prev := by
    rw [stage6_res, h.args main_arg0 (by decide), h.args main_arg13 (by decide), h.args main_arg14 (by decide), h.tbl, h.prev]

theorem stage7_along {V U : Valuation τ sig (Elt F)} {res : FVec F S16x2048x1024 .f32} (h : Along V U main_v56 res) :
    Along V (after stage7 U) main_v64
      (stageVal 16 dot_S16x2048x1024_S16x1024_S16x2048x16_2_1_01_0_n_n dot_S16x2048x16_S1024x16_S16x2048x1024_2_1_01_0_n_n 0x3D800000#32 7#32
        (V (Proc.devRef .tc main_arg0)) (V (Proc.devRef .tc main_arg15)) (V (Proc.devRef .tc main_arg16)) table res) where
  args r hr := (stage7_keep U r ((by decide : ∀ r ∈ argRefs, r ∉ stage7_W) r hr)).trans (h.args r hr)
  tbl := (stage7_keep U main_c (by decide)).trans h.tbl
  prev := by
    rw [stage7_res, h.args main_arg0 (by decide), h.args main_arg15 (by decide), h.args main_arg16 (by decide), h.tbl, h.prev]

/-- After the whole line: the arguments as launched and the result buffer at the eight nested steps. -/
theorem ops_along (V : Valuation τ sig (Elt F)) :
    Along V (after ops V) main_v64
      (refTerm (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12))
        (V (Proc.devRef .tc main_arg13))
        (V (Proc.devRef .tc main_arg14))
        (V (Proc.devRef .tc main_arg15))
        (V (Proc.devRef .tc main_arg16))) := by
  rw [ops_eq]
  simp only [after_append]
  exact stage7_along (stage6_along (stage5_along (stage4_along (stage3_along (stage2_along (stage1_along (stage0_along (pre_along V))))))))

/-! ## The run -/

set_option maxRecDepth 8192 in
/-- On every device, for any float values, from any memory with zero counters: every weakly fair execution of @main
    terminates with the result buffer at the eight nested steps of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = refTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
      have I := ops_along (launchContents m c)
      ⟨(h c main_v64).trans I.prev,
       (h c main_arg0).trans (I.args main_arg0 (by decide)),
       (h c main_arg1).trans (I.args main_arg1 (by decide)),
       (h c main_arg2).trans (I.args main_arg2 (by decide)),
       (h c main_arg3).trans (I.args main_arg3 (by decide)),
       (h c main_arg4).trans (I.args main_arg4 (by decide)),
       (h c main_arg5).trans (I.args main_arg5 (by decide)),
       (h c main_arg6).trans (I.args main_arg6 (by decide)),
       (h c main_arg7).trans (I.args main_arg7 (by decide)),
       (h c main_arg8).trans (I.args main_arg8 (by decide)),
       (h c main_arg9).trans (I.args main_arg9 (by decide)),
       (h c main_arg10).trans (I.args main_arg10 (by decide)),
       (h c main_arg11).trans (I.args main_arg11 (by decide)),
       (h c main_arg12).trans (I.args main_arg12 (by decide)),
       (h c main_arg13).trans (I.args main_arg13 (by decide)),
       (h c main_arg14).trans (I.args main_arg14 (by decide)),
       (h c main_arg15).trans (I.args main_arg15 (by decide)),
       (h c main_arg16).trans (I.args main_arg16 (by decide))⟩)
    (run_seq scopedRefs_eq scopedSems_eq defs main (fun _ => ops) main_eq (fun _ => ops_sub) m ρ)

end Cert.ReferenceIdeal.Hand

end
-- ==== Proof.RefDot.lean ====
/-
  A stack of matrices times the transpose of one matrix, read at an entry.

  The contraction pairs the last axis of a stack A : [G, m, k] with the last axis of a matrix B : [n, k]; the
  stack's first two axes and the matrix's first axis are free and nothing is batched.  The value at (g, a, b)
  is the sum over the one contracted coordinate c of A(g, a, c) · B(b, c), over the extended reals.  Both
  projections of the low-rank update are of this arrangement: rows of x against the rows of the down-projection,
  and the intermediate against the rows of the up-projection.
-/
import Idealize.ShloMosaic.PureOps.Ideal.Laws
import Idealize.ShloMosaic.Lib.ValueIdx

noncomputable section

open scoped BigOperators

namespace Cert.ReferenceIdeal.Hand

open Idealize.ShloMosaic Idealize.ShloMosaic.ValueIdx

variable {G m n k : Nat} {φ₁ φ₂ : FTy}

/-- Entry (g, a, b) of a stack [G, m, k] contracted with a matrix [n, k] over their last axes is ∑ c, A(g, a, c) · B(b, c). -/
theorem dotGeneral_rows_apply
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (b : Fin n) :
    Host.dotGeneral (⟨[2], [1], [0, 1], [0], [], [], w⟩ : DotDims _ _ _) prec A B (ix3 g a b)
      = ∑ c : Fin k, A (ix3 g a c) * B (ix2 b c) := by
  show FloatOps.dotGeneral _ prec _ A B (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have hc := contrEquiv1_symm_val
    (⟨[2], [1], [0, 1], [0], [], [], w⟩ : DotDims ⟨3, ![G, m, k]⟩ ⟨2, ![n, k]⟩ ⟨3, ![G, m, n]⟩) k rfl rfl c
  have hl : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.ReferenceIdeal.Hand

end
-- ==== Proof.RefSpread.lean ====
/-
  How the routing condition and the scalars reach an entry.

  The reference spreads values with broadcast_in_dim in three layouts: a scalar over a whole array (the scale, the
  zero, the adapter number), the sixteen per-sequence conditions as a column [16] → [16, 1, 1], and that column over
  the result [16, 1, 1] → [16, 2048, 1024].  Read at an entry (b, s, o) each is the operand at the evident place:
  the scalar itself, the condition of sequence b.  The condition is a one-bit word "the table's word equals the
  adapter number"; a select on it returns its first branch when the two words are equal and its second otherwise.
-/
import Idealize.ShloMosaic.Lib.Pipeline.Value
import Idealize.ShloMosaic.Lib.ValueIdx

noncomputable section

namespace Cert.ReferenceIdeal.Hand

open Idealize.ShloMosaic Idealize.ShloMosaic.ValueIdx

variable {α : Type}

/-- A scalar spread over any shape reads the scalar at every index. -/
theorem spread_scalar (t : Shape) (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- The sixteen per-sequence values as a column [16, 1, 1]: entry (b, u, v) is the value of sequence b. -/
theorem spread_column (h : (⟨1, ![16]⟩ : Shape).BroadcastsInDim ⟨3, ![16, 1, 1]⟩ ![0])
    (x : (⟨1, ![16]⟩ : Shape).Idx → α) (b : Fin 16) (u v : Fin 1) :
    broadcastInDim ⟨3, ![16, 1, 1]⟩ ![0] h x (ix3 b u v) = x (ix1 b) :=
  broadcastInDim_apply _ h x (ix3 b u v) (ix1 b) (fun a => match a with
    | ⟨0, _⟩ => by show b.val = if (16 : Nat) = 1 then 0 else b.val; rw [if_neg (by decide)])

/-- The column [16, 1, 1] over the result [16, 2048, 1024]: entry (b, s, o) is the column's entry (b, 0, 0). -/
theorem spread_over (h : (⟨3, ![16, 1, 1]⟩ : Shape).BroadcastsInDim ⟨3, ![16, 2048, 1024]⟩ ![0, 1, 2])
    (x : (⟨3, ![16, 1, 1]⟩ : Shape).Idx → α) (b : Fin 16) (s : Fin 2048) (o : Fin 1024) :
    broadcastInDim ⟨3, ![16, 2048, 1024]⟩ ![0, 1, 2] h x (ix3 b s o) = x (ix3 b 0 0) :=
  broadcastInDim_apply _ h x (ix3 b s o) (ix3 b 0 0) (fun a => match a with
    | ⟨0, _⟩ => by show b.val = if (16 : Nat) = 1 then 0 else b.val; rw [if_neg (by decide)]
    | ⟨1, _⟩ => by show (0 : Nat) = if (1 : Nat) = 1 then 0 else s.val; rw [if_pos rfl]
    | ⟨2, _⟩ => by show (0 : Nat) = if (1 : Nat) = 1 then 0 else o.val; rw [if_pos rfl])

/-- A select on "w equals v" returns its first branch when the words are equal. -/
theorem select_eq_hit (w v : BitVec 32) (h : w = v) (a b : α) :
    Scalar.select (IntOp.cmpi .eq w v) a b = a := by
  subst h
  have e : IntOp.cmpi .eq w w = 1#1 := by simp [IntOp.cmpi]
  rw [e]; exact select_one a b

/-- A select on "w equals v" returns its second branch when the words differ. -/
theorem select_eq_miss (w v : BitVec 32) (h : w ≠ v) (a b : α) :
    Scalar.select (IntOp.cmpi .eq w v) a b = b := by
  have hb : (w == v) = false := beq_eq_false_iff_ne.mpr h
  have e : IntOp.cmpi .eq w v = 0#1 := by
    show BitVec.ofBool (w == v) = 0#1
    rw [hb]; rfl
  rw [e]; exact select_zero a b

end Cert.ReferenceIdeal.Hand

end
-- ==== Proof.RefStage.lean ====
/-
  One adapter's step read at an entry.

  At (b, s, o) the step's condition is "the table's word for sequence b equals the adapter number", its first branch
  is the adapter's update of row (b, s) at feature o — the two contractions are finite sums over the extended reals
  and the spread scale is the scale's word — and its second branch is the earlier result at the same entry.
-/
import proofs.«174516_g44933947850968_cont_8to1_c_774_16_alg».proof.Proof.RefTerm
import proofs.«174516_g44933947850968_cont_8to1_c_774_16_alg».proof.Proof.RefDot
import proofs.«174516_g44933947850968_cont_8to1_c_774_16_alg».proof.Proof.RefSpread
import proofs.«174516_g44933947850968_cont_8to1_c_774_16_alg».proof.Proof.Spec

noncomputable section

open scoped BigOperators

namespace Cert.ReferenceIdeal.Hand

open Idealize.ShloMosaic Idealize.ShloMosaic.ValueIdx Cert.ReferenceIdeal Cert.ReferenceIdeal.Facts₀

variable [Facts]

/-- A step whose two contractions pair last axes, read at (b, s, o): a select between the adapter's update there and
    the earlier result there, on the table's word for sequence b. -/
theorem stageVal_apply (r : ℕ)
    (D1 : DotDims S16x2048x1024 ⟨2, ![r, 1024]⟩ ⟨3, ![16, 2048, r]⟩)
    (D2 : DotDims ⟨3, ![16, 2048, r]⟩ ⟨2, ![1024, r]⟩ S16x2048x1024)
    (w1 : DotDims.WF S16x2048x1024 ⟨2, ![r, 1024]⟩ ⟨3, ![16, 2048, r]⟩ [2] [1] [0, 1] [0] [] [])
    (w2 : DotDims.WF ⟨3, ![16, 2048, r]⟩ ⟨2, ![1024, r]⟩ S16x2048x1024 [2] [1] [0, 1] [0] [] [])
    (h1 : D1 = ⟨[2], [1], [0, 1], [0], [], [], w1⟩) (h2 : D2 = ⟨[2], [1], [0, 1], [0], [], [], w2⟩)
    (cw aw : BitVec 32) (x : FVec Ideal S16x2048x1024 .f32) (A : FVec Ideal ⟨2, ![1024, r]⟩ .f32)
    (B : FVec Ideal ⟨2, ![r, 1024]⟩ .f32) (tbl : IVec S16 32) (prev : FVec Ideal S16x2048x1024 .f32)
    (b : Fin 16) (s : Fin 2048) (o : Fin 1024) :
    stageVal (F := Ideal) r D1 D2 cw aw x A B tbl prev (ix3 b s o)
      = Scalar.select (IntOp.cmpi .eq (tbl (ix1 b)) aw)
          (Cert.Spec.loraAt r (Ideal.ofBits .f32 cw) x A B b s o) (prev (ix3 b s o)) := by
  subst h1 h2
  have hc : broadcastInDim S16x2048x1024 ![0, 1, 2] bcast_S16x1x1_S16x2048x1024_0_1_2
        (broadcastInDim S16x1x1 ![0] bcast_S16_S16x1x1_0
          (cmpi .eq tbl (broadcastInDim S16 ![] bcast_S_S16 (constantI S_ 32 aw)))) (ix3 b s o)
      = IntOp.cmpi .eq (tbl (ix1 b)) aw := by
    rw [spread_over, spread_column]
    show IntOp.cmpi .eq (tbl (ix1 b)) (broadcastInDim S16 ![] bcast_S_S16 (constantI S_ 32 aw) (ix1 b)) = _
    rw [spread_scalar]
    rfl
  have hy : mulf (Host.dotGeneral (⟨[2], [1], [0, 1], [0], [], [], w2⟩ : DotDims _ _ _) none
          (Host.dotGeneral (⟨[2], [1], [0, 1], [0], [], [], w1⟩ : DotDims _ _ _) none x B) A)
        (broadcastInDim S16x2048x1024 ![] bcast_S_S16x2048x1024 (constant (F := Ideal) S_ .f32 cw)) (ix3 b s o)
      = (∑ k : Fin r, (∑ d : Fin 1024, x (ix3 b s d) * B (ix2 k d)) * A (ix2 o k)) * Ideal.ofBits .f32 cw := by
    rw [mulf_apply, spread_scalar, constant_apply, dotGeneral_rows_apply]
    refine congrArg (fun t => t * Ideal.ofBits .f32 cw) (Finset.sum_congr rfl fun k _ => ?_)
    rw [dotGeneral_rows_apply]
  unfold stageVal Cert.Spec.loraAt
  rw [select_apply, hc, hy]

end Cert.ReferenceIdeal.Hand

end
-- ==== Proof.RefValue.lean ====
/-
  The reference computes the routed low-rank update.

  At an entry (b, s, o) the eight nested steps are eight nested selects on one word, the table's word for sequence b,
  against the adapter numbers 7, 6, …, 0.  The table's word at b is b mod 8, so exactly one comparison holds: the
  selects above it fall through, it returns adapter (b mod 8)'s update of row (b, s) at feature o, and the zeros
  under the selects are never reached.  That is the specification's routed result, so every execution of the
  reference ends with its result buffer at the specification of its arguments, the arguments unchanged.
-/
import proofs.«174516_g44933947850968_cont_8to1_c_774_16_alg».proof.Proof.RefRun
import proofs.«174516_g44933947850968_cont_8to1_c_774_16_alg».proof.Proof.RefStage

noncomputable section

namespace Cert.ReferenceIdeal.Hand

open Cert.ReferenceIdeal Cert.ReferenceIdeal.Facts₀ Idealize.ShloMosaic Idealize.ShloMosaic.ValueIdx Idealize.SL.Sem

variable [Facts]

/-- The table's word for sequence b is b mod 8. -/
theorem table_at : ∀ b : Fin 16, table (ix1 b) = BitVec.ofNat 32 (b.val % 8) := by
  decide

/-- The eight nested steps at (b, s, o) are the routed result there. -/
theorem refTerm_apply (x : FVec Ideal S16x2048x1024 .f32)
    (A0 : FVec Ideal ⟨2, ![1024, 8]⟩ .f32) (B0 : FVec Ideal ⟨2, ![8, 1024]⟩ .f32)
    (A1 : FVec Ideal ⟨2, ![1024, 16]⟩ .f32) (B1 : FVec Ideal ⟨2, ![16, 1024]⟩ .f32)
    (A2 : FVec Ideal ⟨2, ![1024, 32]⟩ .f32) (B2 : FVec Ideal ⟨2, ![32, 1024]⟩ .f32)
    (A3 : FVec Ideal ⟨2, ![1024, 8]⟩ .f32) (B3 : FVec Ideal ⟨2, ![8, 1024]⟩ .f32)
    (A4 : FVec Ideal ⟨2, ![1024, 16]⟩ .f32) (B4 : FVec Ideal ⟨2, ![16, 1024]⟩ .f32)
    (A5 : FVec Ideal ⟨2, ![1024, 32]⟩ .f32) (B5 : FVec Ideal ⟨2, ![32, 1024]⟩ .f32)
    (A6 : FVec Ideal ⟨2, ![1024, 8]⟩ .f32) (B6 : FVec Ideal ⟨2, ![8, 1024]⟩ .f32)
    (A7 : FVec Ideal ⟨2, ![1024, 16]⟩ .f32) (B7 : FVec Ideal ⟨2, ![16, 1024]⟩ .f32)
    (b : Fin 16) (s : Fin 2048) (o : Fin 1024) :
    refTerm (F := Ideal) x A0 B0 A1 B1 A2 B2 A3 B3 A4 B4 A5 B5 A6 B6 A7 B7 (ix3 b s o)
      = Cert.Spec.Gat x A0 B0 A1 B1 A2 B2 A3 B3 A4 B4 A5 B5 A6 B6 A7 B7 b s o := by
  unfold refTerm
  rw [stageVal_apply 16 dot_S16x2048x1024_S16x1024_S16x2048x16_2_1_01_0_n_n dot_S16x2048x16_S1024x16_S16x2048x1024_2_1_01_0_n_n dot_S16x2048x1024_S16x1024_S16x2048x16_2_1_01_0_n_n.wf dot_S16x2048x16_S1024x16_S16x2048x1024_2_1_01_0_n_n.wf rfl rfl,
    stageVal_apply 8 dot_S16x2048x1024_S8x1024_S16x2048x8_2_1_01_0_n_n dot_S16x2048x8_S1024x8_S16x2048x1024_2_1_01_0_n_n dot_S16x2048x1024_S8x1024_S16x2048x8_2_1_01_0_n_n.wf dot_S16x2048x8_S1024x8_S16x2048x1024_2_1_01_0_n_n.wf rfl rfl,
    stageVal_apply 32 dot_S16x2048x1024_S32x1024_S16x2048x32_2_1_01_0_n_n dot_S16x2048x32_S1024x32_S16x2048x1024_2_1_01_0_n_n dot_S16x2048x1024_S32x1024_S16x2048x32_2_1_01_0_n_n.wf dot_S16x2048x32_S1024x32_S16x2048x1024_2_1_01_0_n_n.wf rfl rfl,
    stageVal_apply 16 dot_S16x2048x1024_S16x1024_S16x2048x16_2_1_01_0_n_n dot_S16x2048x16_S1024x16_S16x2048x1024_2_1_01_0_n_n dot_S16x2048x1024_S16x1024_S16x2048x16_2_1_01_0_n_n.wf dot_S16x2048x16_S1024x16_S16x2048x1024_2_1_01_0_n_n.wf rfl rfl,
    stageVal_apply 8 dot_S16x2048x1024_S8x1024_S16x2048x8_2_1_01_0_n_n dot_S16x2048x8_S1024x8_S16x2048x1024_2_1_01_0_n_n dot_S16x2048x1024_S8x1024_S16x2048x8_2_1_01_0_n_n.wf dot_S16x2048x8_S1024x8_S16x2048x1024_2_1_01_0_n_n.wf rfl rfl,
    stageVal_apply 32 dot_S16x2048x1024_S32x1024_S16x2048x32_2_1_01_0_n_n dot_S16x2048x32_S1024x32_S16x2048x1024_2_1_01_0_n_n dot_S16x2048x1024_S32x1024_S16x2048x32_2_1_01_0_n_n.wf dot_S16x2048x32_S1024x32_S16x2048x1024_2_1_01_0_n_n.wf rfl rfl,
    stageVal_apply 16 dot_S16x2048x1024_S16x1024_S16x2048x16_2_1_01_0_n_n dot_S16x2048x16_S1024x16_S16x2048x1024_2_1_01_0_n_n dot_S16x2048x1024_S16x1024_S16x2048x16_2_1_01_0_n_n.wf dot_S16x2048x16_S1024x16_S16x2048x1024_2_1_01_0_n_n.wf rfl rfl,
    stageVal_apply 8 dot_S16x2048x1024_S8x1024_S16x2048x8_2_1_01_0_n_n dot_S16x2048x8_S1024x8_S16x2048x1024_2_1_01_0_n_n dot_S16x2048x1024_S8x1024_S16x2048x8_2_1_01_0_n_n.wf dot_S16x2048x8_S1024x8_S16x2048x1024_2_1_01_0_n_n.wf rfl rfl]
  rw [table_at b]
  unfold Cert.Spec.Gat
  have hb : b.val % 8 < 8 := Nat.mod_lt _ (by decide)
  generalize b.val % 8 = n at hb ⊢
  interval_cases n <;> simp (disch := decide) only [select_eq_hit, select_eq_miss] <;> rfl

/-- The eight nested steps are the specification's routed result. -/
theorem refTerm_eq (x : FVec Ideal S16x2048x1024 .f32)
    (A0 : FVec Ideal ⟨2, ![1024, 8]⟩ .f32) (B0 : FVec Ideal ⟨2, ![8, 1024]⟩ .f32)
    (A1 : FVec Ideal ⟨2, ![1024, 16]⟩ .f32) (B1 : FVec Ideal ⟨2, ![16, 1024]⟩ .f32)
    (A2 : FVec Ideal ⟨2, ![1024, 32]⟩ .f32) (B2 : FVec Ideal ⟨2, ![32, 1024]⟩ .f32)
    (A3 : FVec Ideal ⟨2, ![1024, 8]⟩ .f32) (B3 : FVec Ideal ⟨2, ![8, 1024]⟩ .f32)
    (A4 : FVec Ideal ⟨2, ![1024, 16]⟩ .f32) (B4 : FVec Ideal ⟨2, ![16, 1024]⟩ .f32)
    (A5 : FVec Ideal ⟨2, ![1024, 32]⟩ .f32) (B5 : FVec Ideal ⟨2, ![32, 1024]⟩ .f32)
    (A6 : FVec Ideal ⟨2, ![1024, 8]⟩ .f32) (B6 : FVec Ideal ⟨2, ![8, 1024]⟩ .f32)
    (A7 : FVec Ideal ⟨2, ![1024, 16]⟩ .f32) (B7 : FVec Ideal ⟨2, ![16, 1024]⟩ .f32) :
    refTerm (F := Ideal) x A0 B0 A1 B1 A2 B2 A3 B3 A4 B4 A5 B5 A6 B6 A7 B7 = Cert.Spec.G x A0 B0 A1 B1 A2 B2 A3 B3 A4 B4 A5 B5 A6 B6 A7 B7 := by
  funext i
  obtain ⟨b, s, o, rfl⟩ : ∃ (b : Fin 16) (s : Fin 2048) (o : Fin 1024), i = ix3 b s o := ⟨i 0, i 1, i 2, eq_ix3 i⟩
  exact refTerm_apply x A0 B0 A1 B1 A2 B2 A3 B3 A4 B4 A5 B5 A6 B6 A7 B7 b s o

/-- Every weakly fair execution of the reference terminates with its result buffer at the routed low-rank update of
    its argument buffers, and the argument buffers unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v64)
        = Cert.Spec.G (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1.trans (refTerm_eq ..), (h c).2⟩) (run_term (F := Ideal) m g)

end Cert.ReferenceIdeal.Hand

end
-- ==== Proof.lean ====
/-
  Multi-adapter low-rank update: the kernel program computes what the reference computes.

  The claim has five parts.  The three frames: each program terminates from every memory satisfying the
  precondition, faults nowhere, and leaves its seventeen argument arrays as they were.  For the two kernel programs
  this is the pipeline library's launch theorem applied to the body's two runs (first grid point: fill the two scratch
  stacks, then compute; later points: compute from the carried stacks); the proof is the same text at the word-level
  and at the exact instance.  For the reference it is its run with the result dropped.  The idealization rewrote no
  operation, so the fourth part is trivial.  The fifth: at the exact instance both programs end with the SAME result
  array, the routed low-rank update G of the argument arrays (Proof/Spec.lean) — the kernel because the block it
  writes at grid point t is the double contraction of x's block t with slab t mod 8 of the two zero-padded stacks,
  whose padded terms vanish and whose scale 1/r (a non-negative real) moves across the finite sum on the extended
  reals; the reference because its eight nested selections on the adapter table pick, at batch element b, adapter
  b mod 8's scaled double contraction.  No finiteness of the inputs is used.
-/
import proofs.«174516_g44933947850968_cont_8to1_c_774_16_alg».proof.Defs
import proofs.«174516_g44933947850968_cont_8to1_c_774_16_alg».proof.Proof.Gen.Kernel
import proofs.«174516_g44933947850968_cont_8to1_c_774_16_alg».proof.Proof.Gen.KernelIdeal
import proofs.«174516_g44933947850968_cont_8to1_c_774_16_alg».proof.Proof.Gen.ReferenceIdeal
import proofs.«174516_g44933947850968_cont_8to1_c_774_16_alg».proof.Proof.Gen.Pre_finite_inputs
import proofs.«174516_g44933947850968_cont_8to1_c_774_16_alg».proof.Proof.KbFrame
import proofs.«174516_g44933947850968_cont_8to1_c_774_16_alg».proof.Proof.KiValue
import proofs.«174516_g44933947850968_cont_8to1_c_774_16_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

theorem frame_reference : Cert.frame_ReferenceIdeal (hReferenceIdeal := Cert.ReferenceIdeal.Gen.facts) (hPre_finite_inputs := Cert.Pre_finite_inputs.Gen.facts) :=
  fun m g _ => (θ_run (Cert.ReferenceIdeal.defs (F := Ideal)) _ _).mono (fun _ h c => (h c).2) (Cert.ReferenceIdeal.Hand.run m g)

/-- Both programs end with the routed update of the argument arrays; the memories agree on the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KernelIdeal.KValue.run m ρ, ?_⟩
  refine (θ_run (Cert.ReferenceIdeal.defs (F := Ideal)) _ _).mono (fun _ h c => ⟨(h c).1.trans ?_, (h c).2⟩)
    (Cert.ReferenceIdeal.Hand.run m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
